-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_tau" .f32 0x41200000#32 ((134217728 / 13421773 : ℝ) : EReal)
  ∧ IdealRules.named_const.Statement Cert.KernelIdeal.κ "inv_tau" .f32 0x41200000#32 ((134217728 / 13421773 : ℝ) : EReal)
  ∧ IdealRules.named_const.Statement Cert.KernelIdeal.κ "inv_tau" .f32 0x41200000#32 ((134217728 / 13421773 : ℝ) : EReal)
  ∧ IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x1 : Shape := ⟨2, ![8192, 1]⟩
abbrev S1024x512 : Shape := ⟨2, ![1024, 512]⟩
abbrev S1024x1 : Shape := ⟨2, ![1024, 1]⟩
abbrev S256x512 : Shape := ⟨2, ![256, 512]⟩
abbrev S256x1 : Shape := ⟨2, ![256, 1]⟩
abbrev S512x256 : Shape := ⟨2, ![512, 256]⟩
abbrev S1024x256 : Shape := ⟨2, ![1024, 256]⟩
abbrev S1x256 : Shape := ⟨2, ![1, 256]⟩
abbrev S1024 : Shape := ⟨1, ![1024]⟩
abbrev S8192 : Shape := ⟨1, ![8192]⟩
abbrev S2x4096 : Shape := ⟨2, ![2, 4096]⟩

abbrev nBuf : Space → Nat
  | .hbm => 69
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S8192x512, .f32⟩
  | .hbm, ⟨29, _⟩ => ⟨S8192x1, .f32⟩
  | .hbm, ⟨30, _⟩ => ⟨S8192x1, .f32⟩
  | .hbm, ⟨31, _⟩ => ⟨S8192, .f32⟩
  | .hbm, ⟨32, _⟩ => ⟨S4096x512, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S8192, .f32⟩
  | .hbm, ⟨47, _⟩ => ⟨S4096x512, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S2x4096, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_cst_13 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32_5 : BitVec 32 := 0#32
  let c256_i32 : BitVec 32 := 256#32
  let v21 : BitVec 32 := Scalar.muli c0_i32_5 c256_i32
  v21
def k0_off1 (c0_i32_5 : BitVec 32) : Fin 2 → Nat :=
  let c256_i32 : BitVec 32 := 256#32
  let v21 : BitVec 32 := Scalar.muli c0_i32_5 c256_i32
  let v22 : BitVec 32 := v21
  let v23 : Index := Scalar.indexCast v22
  let c0_6 : Index := 0#32
  ![v23.toNat, 0]
def k0_off2 (c0_i32_5 : BitVec 32) : Fin 2 → Nat :=
  let c256_i32 : BitVec 32 := 256#32
  let v21 : BitVec 32 := Scalar.muli c0_i32_5 c256_i32
  let v22 : BitVec 32 := v21
  let v26 : Index := Scalar.indexCast v22
  let c0_7 : Index := 0#32
  ![v26.toNat, 0]
def k0_mult2 : BitVec 32 :=
  let c1_i32 : BitVec 32 := 1#32
  let c256_i32_16 : BitVec 32 := 256#32
  let v58 : BitVec 32 := Scalar.muli c1_i32 c256_i32_16
  v58
def k0_mult3 : BitVec 32 :=
  let c2_i32 : BitVec 32 := 2#32
  let c256_i32_28 : BitVec 32 := 256#32
  let v95 : BitVec 32 := Scalar.muli c2_i32 c256_i32_28
  v95
def k0_mult4 : BitVec 32 :=
  let c3_i32 : BitVec 32 := 3#32
  let c256_i32_40 : BitVec 32 := 256#32
  let v132 : BitVec 32 := Scalar.muli c3_i32 c256_i32_40
  v132
def k0_cond2 (i : grid0.Coords) : BitVec 1 :=
  let arg1 : BitVec 32 := BitVec.ofNat 32 (i 1).val
  let c7_i32 : BitVec 32 := 7#32
  let v169 : BitVec 1 := Scalar.cmpi .eq arg1 c7_i32
  let v170 : BitVec 32 := Scalar.extui v169
  let c0_i32_52 : BitVec 32 := 0#32
  let v171 : BitVec 1 := Scalar.cmpi .ne v170 c0_i32_52
  v171

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  concatenates_S4096x1_S4096x1_S8192x1_d0 : Shape.Concatenates [S4096x1, S4096x1] S8192x1 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1024x1_S1024x512 : S1024x1.Broadcasts S1024x512
  bitsLt_bf16_f32 : FTy.bits .bf16 < FTy.bits .f32
  iota_S1024x1_d0_w32 : S1024x1.Iotas .tc 32 [0]
  h_S256x512 : 0 < S256x512.numel
  shapeCasts_S256x512_S256x512 : S256x512.ShapeCasts S256x512
  h_S256x1 : 0 < S256x1.numel
  shapeCasts_S256x1_S256x1 : S256x1.ShapeCasts S256x1
  broadcasts_S256x1_S256x512 : S256x1.Broadcasts S256x512
  transposes_S256x512_p1_0_S512x256 : S256x512.Transposes [1, 0] S512x256
  iota_S1x256_d1_w32 : S1x256.Iotas .tc 32 [1]
  broadcasts_S1024x1_S1024x256 : S1024x1.Broadcasts S1024x256
  broadcasts_S1x256_S1024x256 : S1x256.Broadcasts S1024x256
  reduces_S1024x256_S1024 : S1024x256.Reduces [1] S1024
  shapeCasts_S1024_S1024x1 : S1024.ShapeCasts S1024x1
  shapeCasts_S8192x1_S8192 : S8192x1.ShapeCasts S8192
  bcast_S_S4096 : S_.BroadcastsInDim S4096 (![] : Fin 0 → Fin S4096.rank)
  concatenates_S4096_S4096_S8192_d0 : Shape.Concatenates [S4096, S4096] S8192 0
  shapeCasts_S8192_S2x4096 : S8192.ShapeCasts S2x4096
  reducesTo_S2x4096_S4096_d0 : S2x4096.ReducesTo [0] S4096
  reducesTo_S4096_S_d0 : S4096.ReducesTo [0] S_
  dot_S1024x512_S512x256_S1024x256_1_0_0_1_n_n_wf : DotDims.WF S1024x512 S512x256 S1024x256 [1] [0] [0] [1] [] []
  hrank0 : 0 < grid0.rank
  k0_mult1_dvd : 256 ∣ k0_mult1.toNat
  k0_off1_inb : ∀ (r : Fin 4), ∀ a, (k0_off1 (BitVec.ofNat 32 r.val)) a + S256x512.size a ≤ S1024x512.size a
  k0_off2_inb : ∀ (r : Fin 4), ∀ a, (k0_off2 (BitVec.ofNat 32 r.val)) a + S256x1.size a ≤ S1024x1.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v20) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩
abbrev S2x4096 : Shape := ⟨2, ![2, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S_, .i1⟩
  | .hbm, ⟨49, _⟩ => ⟨S8192, .i1⟩
  | .hbm, ⟨50, _⟩ => ⟨S8192, .i1⟩
  | .hbm, ⟨51, _⟩ => ⟨S8192, .i1⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x1, .i32⟩
  | .hbm, ⟨71, _⟩ => ⟨S8192x2, .i32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S2x4096, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_7 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_10 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_v48 : Ref sig .tc := ⟨.hbm, 84, rfl⟩
abbrev main_cst_12 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  shapeCasts_S8192_S2x4096 : S8192.ShapeCasts S2x4096
  reducesTo_S2x4096_S4096_d0 : S2x4096.ReducesTo [0] S4096
  bcast_S_S4096 : S_.BroadcastsInDim S4096 (![] : Fin 0 → Fin S4096.rank)
  reducesTo_S4096_S_d0 : S4096.ReducesTo [0] S_
  dot_S8192x512_S512x8192_S8192x8192_1_0_0_1_n_n_wf : DotDims.WF S8192x512 S512x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.BRuns.lean ====
/-
  What the three kinds of grid point share: the two conditions the body branches on, decided over the grid, the
  windows' staging memrefs at a point, and where the result window is idle.

  The grid point t stands for row tile t / 8 and column tile t % 8. The body resets the accumulator at the first
  column tile (t % 8 = 0) and copies it into the result's block at the last (t % 8 = 7).
-/
import proofs.«144959_j9036611191122_2_alg».proof.Proof.Gen.Kernel.Launch
import proofs.«144959_j9036611191122_2_alg».proof.Proof.Gen.Kernel.Skeleton
import proofs.«144959_j9036611191122_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions -/

/-- The body is at the first column tile: it resets the accumulator. -/
abbrev atFirst (i : grid0.Coords) : Prop := (Scalar.cmpi .ne (Scalar.extui (Scalar.cmpi .eq (BitVec.ofNat 32 (i 1).val) 0#32)) 0#32) = 1#1
/-- That is the points with t % 8 = 0. -/
theorem atFirst_iff : ∀ t : Fin cfg0.N, atFirst (grid0.coords t) ↔ t.val % 8 = 0 :=
  (by decide +kernel : ∀ t : Fin grid0.N, atFirst (grid0.coords t) ↔ t.val % 8 = 0)

/-- The body is at the last column tile: it copies the accumulator into the result's block. -/
abbrev atLast (i : grid0.Coords) : Prop := k0_cond2 i = 1#1
/-- That is the points with t % 8 = 7. -/
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_rows : ∀ t : Fin cfg0.N, cfg0.idle 0 (grid0.coords t) = false := by decide +kernel
theorem live_cols : ∀ t : Fin cfg0.N, cfg0.idle 1 (grid0.coords t) = false := by decide +kernel
theorem live_rinv : ∀ t : Fin cfg0.N, cfg0.idle 2 (grid0.coords t) = false := by decide +kernel
theorem live_cinv : ∀ t : Fin cfg0.N, cfg0.idle 3 (grid0.coords t) = false := by decide +kernel
/-- Away from the last column tile the body stores nothing into the result's block, -/
theorem idle_out : ∀ t : Fin cfg0.N, ¬atLast (grid0.coords t) → cfg0.idle 4 (grid0.coords t) = true := by decide +kernel
/-- and the block is not written back there; -/
theorem noFlush_out : ∀ t : Fin cfg0.N, ¬atLast (grid0.coords t) → (cfg0.win 4).flush t = false := by decide +kernel
/-- at the last column tile it stores the whole block. -/
theorem live_out : ∀ t : Fin cfg0.N, atLast (grid0.coords t) → cfg0.idle 4 (grid0.coords t) = false := by decide +kernel

/-! ## The memrefs the body is called with -/

abbrev mRows (t : Fin cfg0.N) : Memref sig .tc .vmem S1024x512 .f32 := win0_0.stage (cfg0.slots t 0)
abbrev hRows (t : Fin cfg0.N) : (mRows t).IsWhole := hstage0_0 ((cfg0.slots t 0).cast nbuf0_0)
abbrev mCols (t : Fin cfg0.N) : Memref sig .tc .vmem S1024x512 .f32 := win0_1.stage (cfg0.slots t 1)
abbrev hCols (t : Fin cfg0.N) : (mCols t).IsWhole := hstage0_1 ((cfg0.slots t 1).cast nbuf0_1)
abbrev mRinv (t : Fin cfg0.N) : Memref sig .tc .vmem S1024x1 .f32 := win0_2.stage (cfg0.slots t 2)
abbrev hRinv (t : Fin cfg0.N) : (mRinv t).IsWhole := hstage0_2 ((cfg0.slots t 2).cast nbuf0_2)
abbrev mCinv (t : Fin cfg0.N) : Memref sig .tc .vmem S1024x1 .f32 := win0_3.stage (cfg0.slots t 3)
abbrev hCinv (t : Fin cfg0.N) : (mCinv t).IsWhole := hstage0_3 ((cfg0.slots t 3).cast nbuf0_3)
abbrev mOut (t : Fin cfg0.N) : Memref sig .tc .vmem S1024x1 .f32 := win0_4.stage (cfg0.slots t 4)
abbrev hOut (t : Fin cfg0.N) : (mOut t).IsWhole := hstage0_4 ((cfg0.slots t 4).cast nbuf0_4)
/-- The accumulator: a whole scoped buffer of the kernel's own. -/
abbrev mAcc : Memref sig .tc .vmem S1024x1 .f32 := Memref.whole cc0_scratch0
/-- Its view, through which its contents are stated. -/
abbrev vAcc : View sig .tc .vmem S1024x1 .f32 := mAcc.view
/-- One staging buffer of the result window, through which its contents are stated. -/
abbrev vOut : View sig .tc .vmem S1024x1 .f32 := (Memref.whole cc0_stg4_0 : Memref sig .tc .vmem S1024x1 .f32).view

end Cert.Kernel.KFrame

end
-- ==== Proof.BRunFirst.lean ====
/-
  The body at the first column tile: it resets the accumulator, adds the tile's four chunk sums to it and stores
  nothing into the result's block.
-/
import proofs.«144959_j9036611191122_2_alg».proof.Proof.BRuns

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at such a point, on whole staging memrefs holding the inputs' blocks: it ends with the inputs as
    they were and the accumulator (and, where it stores it, the result's block) overwritten by the listed pieces,
    which the symbolic run finds. -/
noncomputable def runFirst (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : atFirst i) (hc1 : ¬atLast i)
    (x0 : Vec F S1024x512 .f32) (x1 : Vec F S1024x512 .f32) (x2 : Vec F S1024x1 .f32) (x3 : Vec F S1024x1 .f32) :
    Σ' (LO : List (View.Piece (Elt F) S1024x1 .f32)), { LA : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LA)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨[], ?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%f6, %hf6, H6⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HA

end Cert.Kernel.KFrame

end
-- ==== Proof.BRunMid.lean ====
/-
  The body at a column tile that is neither the first nor the last: it adds the tile's four chunk sums to the
  accumulator the tile before left and stores nothing into the result's block.
-/
import proofs.«144959_j9036611191122_2_alg».proof.Proof.BRuns

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at such a point, on whole staging memrefs holding the inputs' blocks: it ends with the inputs as
    they were and the accumulator (and, where it stores it, the result's block) overwritten by the listed pieces,
    which the symbolic run finds. -/
noncomputable def runMid (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : ¬atLast i)
    (x0 : Vec F S1024x512 .f32) (x1 : Vec F S1024x512 .f32) (x2 : Vec F S1024x1 .f32) (x3 : Vec F S1024x1 .f32) (xs : Vec F S1024x1 .f32) :
    Σ' (LO : List (View.Piece (Elt F) S1024x1 .f32)), { LA : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LA)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨[], ?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%f6, %hf6, H6⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf6; obtain rfl := harg7.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HA

end Cert.Kernel.KFrame

end
-- ==== Proof.BRunLast.lean ====
/-
  The body at the last column tile: it adds the tile's four chunk sums to the accumulator the tile before left
  and copies the accumulator into the result's block.
-/
import proofs.«144959_j9036611191122_2_alg».proof.Proof.BRuns

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at such a point, on whole staging memrefs holding the inputs' blocks: it ends with the inputs as
    they were and the accumulator (and, where it stores it, the result's block) overwritten by the listed pieces,
    which the symbolic run finds. -/
noncomputable def runLast (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : atLast i)
    (x0 : Vec F S1024x512 .f32) (x1 : Vec F S1024x512 .f32) (x2 : Vec F S1024x1 .f32) (x3 : Vec F S1024x1 .f32) (xs : Vec F S1024x1 .f32) :
    Σ' (LO : List (View.Piece (Elt F) S1024x1 .f32)), { LA : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%d6, %f6, -, H6⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact HA

end Cert.Kernel.KFrame

end
-- ==== Proof.BData.lean ====
/-
  What the accumulator and the result's block hold after each grid point, the proof data of the pipeline, and the
  body's obligation at every point.

  After point t the accumulator holds the sum, over the column tiles of t's row tile up to t's, of the four chunk
  sums; the result's block receives it at the last column tile. Each input window's staging buffer holds its block
  of the array at every point, fetched there or kept from the point before.
-/
import proofs.«144959_j9036611191122_2_alg».proof.Proof.BRunFirst
import proofs.«144959_j9036611191122_2_alg».proof.Proof.BRunMid
import proofs.«144959_j9036611191122_2_alg».proof.Proof.BRunLast

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- A core's buffers at launch, as a valuation; -/
abbrev V₀ (c : Dev nD) : Valuation τ sig (Elt F) := fun b => m (c, b)
/-- and when the region is entered: the operations before it have run. -/
abbrev V (c : Dev nD) (b : Ref sig .tc) : Buf (Elt F) ((c : Thread nD τ).loc b) := StableHlo.after hostOps0 (V₀ m c) (Proc.devRef .tc b)

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each kind of point leaves: the result's block and the accumulator -/

def leftFirst (c : Dev nD) (t : Fin cfg0.N) (h0 : t.val % 8 = 0) (h1 : ¬t.val % 8 = 7) : Vec F S1024x1 .f32 × Vec F S1024x1 .f32 :=
  (vOut.read (Elt F) (vOut.writes (Elt F) vOut.junk (runFirst c (grid0.coords t) (mRows t) (hRows t) (mCols t) (hCols t) (mRinv t) (hRinv t) (mCinv t) (hCinv t) (mOut t) (hOut t) mAcc (Memref.isWhole_whole _) ((atFirst_iff t).mpr h0) (fun h => h1 ((atLast_iff t).mp h)) (blk m c 0 t) (blk m c 1 t) (blk m c 2 t) (blk m c 3 t)).1),
   vAcc.read (Elt F) (vAcc.writes (Elt F) vAcc.junk (runFirst c (grid0.coords t) (mRows t) (hRows t) (mCols t) (hCols t) (mRinv t) (hRinv t) (mCinv t) (hCinv t) (mOut t) (hOut t) mAcc (Memref.isWhole_whole _) ((atFirst_iff t).mpr h0) (fun h => h1 ((atLast_iff t).mp h)) (blk m c 0 t) (blk m c 1 t) (blk m c 2 t) (blk m c 3 t)).2.1))

def leftMid (c : Dev nD) (t : Fin cfg0.N) (h0 : ¬t.val % 8 = 0) (h1 : ¬t.val % 8 = 7) (xs : Vec F S1024x1 .f32) : Vec F S1024x1 .f32 × Vec F S1024x1 .f32 :=
  (vOut.read (Elt F) (vOut.writes (Elt F) vOut.junk (runMid c (grid0.coords t) (mRows t) (hRows t) (mCols t) (hCols t) (mRinv t) (hRinv t) (mCinv t) (hCinv t) (mOut t) (hOut t) mAcc (Memref.isWhole_whole _) (fun h => h0 ((atFirst_iff t).mp h)) (fun h => h1 ((atLast_iff t).mp h)) (blk m c 0 t) (blk m c 1 t) (blk m c 2 t) (blk m c 3 t) xs).1),
   vAcc.read (Elt F) (vAcc.writes (Elt F) vAcc.junk (runMid c (grid0.coords t) (mRows t) (hRows t) (mCols t) (hCols t) (mRinv t) (hRinv t) (mCinv t) (hCinv t) (mOut t) (hOut t) mAcc (Memref.isWhole_whole _) (fun h => h0 ((atFirst_iff t).mp h)) (fun h => h1 ((atLast_iff t).mp h)) (blk m c 0 t) (blk m c 1 t) (blk m c 2 t) (blk m c 3 t) xs).2.1))

def leftLast (c : Dev nD) (t : Fin cfg0.N) (h0 : ¬t.val % 8 = 0) (h1 : t.val % 8 = 7) (xs : Vec F S1024x1 .f32) : Vec F S1024x1 .f32 × Vec F S1024x1 .f32 :=
  (vOut.read (Elt F) (vOut.writes (Elt F) vOut.junk (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).1),
   vAcc.read (Elt F) (vAcc.writes (Elt F) vAcc.junk (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).2.1))

/-- The pieces each run leaves in the accumulator tile it (one whole store last), so they cover it. -/
theorem coverAcc_first (c : Dev nD) (t : Fin cfg0.N) (h0 : t.val % 8 = 0) (h1 : ¬t.val % 8 = 7) (y : S1024x1.Idx) :
    ∃ pc ∈ (runFirst c (grid0.coords t) (mRows t) (hRows t) (mCols t) (hCols t) (mRinv t) (hRinv t) (mCinv t) (hCinv t) (mOut t) (hOut t) mAcc (Memref.isWhole_whole _) ((atFirst_iff t).mpr h0) (fun h => h1 ((atLast_iff t).mp h)) (blk m c 0 t) (blk m c 1 t) (blk m c 2 t) (blk m c 3 t)).2.1, y ∈ pc.1.set :=
  View.cover_of_tiledL _ S1024x1.size (by sl_kernel_rfl) y
theorem coverAcc_mid (c : Dev nD) (t : Fin cfg0.N) (h0 : ¬t.val % 8 = 0) (h1 : ¬t.val % 8 = 7) (xs : Vec F S1024x1 .f32) (y : S1024x1.Idx) :
    ∃ pc ∈ (runMid c (grid0.coords t) (mRows t) (hRows t) (mCols t) (hCols t) (mRinv t) (hRinv t) (mCinv t) (hCinv t) (mOut t) (hOut t) mAcc (Memref.isWhole_whole _) (fun h => h0 ((atFirst_iff t).mp h)) (fun h => h1 ((atLast_iff t).mp h)) (blk m c 0 t) (blk m c 1 t) (blk m c 2 t) (blk m c 3 t) xs).2.1, y ∈ pc.1.set :=
  View.cover_of_tiledL _ S1024x1.size (by sl_kernel_rfl) y
theorem coverAcc_last (c : Dev nD) (t : Fin cfg0.N) (h0 : ¬t.val % 8 = 0) (h1 : t.val % 8 = 7) (xs : Vec F S1024x1 .f32) (y : S1024x1.Idx) :
    ∃ pc ∈ (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).2.1, y ∈ pc.1.set :=
  View.cover_of_tiledL _ S1024x1.size (by sl_kernel_rfl) y
/-- At the last column tile the one store into the result's block covers it. -/
theorem coverOut_last (c : Dev nD) (t : Fin cfg0.N) (h0 : ¬t.val % 8 = 0) (h1 : t.val % 8 = 7) (xs : Vec F S1024x1 .f32) (y : S1024x1.Idx) :
    ∃ pc ∈ (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).1, y ∈ pc.1.set :=
  View.cover_of_tiledL _ S1024x1.size (by sl_kernel_rfl) y

/-! ## The accumulation over the grid -/

/-- What the result's staging buffer and the accumulator hold after the body at position n: the kind of point
    decides the run, the accumulator handed to it being what position n - 1 left. -/
def leftAt (c : Dev nD) : (n : ℕ) → n < cfg0.N → Vec F S1024x1 .f32 × Vec F S1024x1 .f32
  | 0, hn => leftFirst m c ⟨0, hn⟩ (Nat.zero_mod _) (by show ¬ 0 % 8 = 7; omega)
  | n + 1, hn =>
    if h0 : (n + 1) % 8 = 0 then
      if h1 : (n + 1) % 8 = 7 then False.elim (by omega)
      else leftFirst m c ⟨n + 1, hn⟩ h0 h1
    else
      if h1 : (n + 1) % 8 = 7 then leftLast m c ⟨n + 1, hn⟩ h0 h1 (leftAt c n (Nat.lt_of_succ_lt hn)).2
      else leftMid m c ⟨n + 1, hn⟩ h0 h1 (leftAt c n (Nat.lt_of_succ_lt hn)).2

theorem leftAt_first (c : Dev nD) (t : Fin cfg0.N) (h0 : t.val % 8 = 0) (h1 : ¬t.val % 8 = 7) :
    leftAt m c t.val t.isLt = leftFirst m c t h0 h1 := by
  obtain ⟨n, hn⟩ := t
  cases n with
  | zero => exact rfl
  | succ n => exact (dif_pos h0).trans ((dif_neg h1).trans rfl)

theorem leftAt_mid (c : Dev nD) (t : Fin cfg0.N) (h0 : ¬t.val % 8 = 0) (h1 : ¬t.val % 8 = 7) :
    leftAt m c t.val t.isLt = leftMid m c t h0 h1 (leftAt m c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_neg h1).trans rfl)

theorem leftAt_last (c : Dev nD) (t : Fin cfg0.N) (h0 : ¬t.val % 8 = 0) (h1 : t.val % 8 = 7) :
    leftAt m c t.val t.isLt = leftLast m c t h0 h1 (leftAt m c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_pos h1).trans rfl)

/-- The region's invariant before position n: the accumulator at anything before the first point, afterwards at what
    the point before left in it. -/
def accInv (c : Dev nD) : (n : ℕ) → n ≤ cfg0.N → sProp 𝕄
  | 0, _ => iprop(∃ d, owns (c : Thread nD τ) mAcc fullShare d)
  | n + 1, hn => owns (c : Thread nD τ) mAcc fullShare ((leftAt m c n hn).2)

theorem accInv_zero (c : Dev nD) (n : ℕ) (h : n ≤ cfg0.N) (hz : n = 0) : accInv m c n h = iprop(∃ d, owns (c : Thread nD τ) mAcc fullShare d) := by
  subst hz; rfl
theorem accInv_succ (c : Dev nD) (n : ℕ) (hn : n < cfg0.N) :
    accInv m c (n + 1) hn = owns (c : Thread nD τ) mAcc fullShare ((leftAt m c n hn).2) := rfl
theorem accInv_pos (c : Dev nD) (n : ℕ) (h : n ≤ cfg0.N) (hz : n ≠ 0) :
    accInv m c n h = owns (c : Thread nD τ) mAcc fullShare ((leftAt m c (n - 1) (by omega)).2) := by
  cases n with
  | zero => exact absurd rfl hz
  | succ n => rfl

/-! ## The pipeline's proof data -/

/-- The proof data on core c: the arrays as the region finds them; after the body each input's buffer at its block
    and the result's at what the accumulation says; the accumulator's invariant; nothing owed; each of the two arrays
    that two windows read is shared between them in halves. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => (leftAt m c t.val t.isLt).1
  Φ t := accInv m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_rows (c : Dev nD) (t : Fin cfg0.N) : (dats m 0 c).after 0 t = blk m c 0 t := by dsimp only [dats]
theorem after_cols (c : Dev nD) (t : Fin cfg0.N) : (dats m 0 c).after 1 t = blk m c 1 t := by dsimp only [dats]
theorem after_rinv (c : Dev nD) (t : Fin cfg0.N) : (dats m 0 c).after 2 t = blk m c 2 t := by dsimp only [dats]
theorem after_cinv (c : Dev nD) (t : Fin cfg0.N) : (dats m 0 c).after 3 t = blk m c 3 t := by dsimp only [dats]
theorem after_out (c : Dev nD) (t : Fin cfg0.N) : (dats m 0 c).after 4 t = (leftAt m c t.val t.isLt).1 := by dsimp only [dats]

/-- An input window's staging buffer holds its block at every point, fetched there or kept from the point before
    (the block index has not moved). -/
theorem before_rows (c : Dev nD) (t : Fin cfg0.N) (d) : (dats m 0 c).before 0 t d = blk m c 0 t :=
  ((dats m 0 c).before_in_eq_fetched 0 rfl (fun _ => rfl) (fun _ _ _ => rfl) (fun t => by rw [after_rows]; unfold Dat.blockOf blk; rw [A_eq]; try rfl) t d).trans
    (by unfold Dat.fetched Dat.blockOf blk; rw [A_eq]; try rfl)
theorem before_cols (c : Dev nD) (t : Fin cfg0.N) (d) : (dats m 0 c).before 1 t d = blk m c 1 t :=
  ((dats m 0 c).before_in_eq_fetched 1 rfl (fun _ => rfl) (fun _ _ _ => rfl) (fun t => by rw [after_cols]; unfold Dat.blockOf blk; rw [A_eq]; try rfl) t d).trans
    (by unfold Dat.fetched Dat.blockOf blk; rw [A_eq]; try rfl)
theorem before_rinv (c : Dev nD) (t : Fin cfg0.N) (d) : (dats m 0 c).before 2 t d = blk m c 2 t :=
  ((dats m 0 c).before_in_eq_fetched 2 rfl (fun _ => rfl) (fun _ _ _ => rfl) (fun t => by rw [after_rinv]; unfold Dat.blockOf blk; rw [A_eq]; try rfl) t d).trans
    (by unfold Dat.fetched Dat.blockOf blk; rw [A_eq]; try rfl)
theorem before_cinv (c : Dev nD) (t : Fin cfg0.N) (d) : (dats m 0 c).before 3 t d = blk m c 3 t :=
  ((dats m 0 c).before_in_eq_fetched 3 rfl (fun _ => rfl) (fun _ _ _ => rfl) (fun t => by rw [after_cinv]; unfold Dat.blockOf blk; rw [A_eq]; try rfl) t d).trans
    (by unfold Dat.fetched Dat.blockOf blk; rw [A_eq]; try rfl)

end Cert.Kernel.KFrame

end
-- ==== Proof.BBodyOb.lean ====
/-
  The body's obligation at every grid point: from the invariant before the point and the windows' staging buffers
  at what the pipeline left in them, the body runs to the invariant after the point and the buffers at what the proof
  data says. The kind of point (first, middle, last column tile) selects the run.
-/
import proofs.«144959_j9036611191122_2_alg».proof.Proof.BData

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mRows t) fullShare ((dats m 0 c).before 0 t d))
    ∗ (∃ d, owns (c : Thread nD τ) (mCols t) fullShare ((dats m 0 c).before 1 t d))
    ∗ (∃ d, owns (c : Thread nD τ) (mRinv t) fullShare ((dats m 0 c).before 2 t d))
    ∗ (∃ d, owns (c : Thread nD τ) (mCinv t) fullShare ((dats m 0 c).before 3 t d))
    ∗ (∃ d, owns (c : Thread nD τ) (mOut t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols, before_rinv, before_cinv]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (mRows t) fullShare ((dats m 0 c).after 0 t) from by
        unfold Dat.leavesExact; rw [live_rows t], after_rows]
      rw [show (dats m 0 c).leavesExact 1 t = owns (c : Thread nD τ) (mCols t) fullShare ((dats m 0 c).after 1 t) from by
        unfold Dat.leavesExact; rw [live_cols t], after_cols]
      rw [show (dats m 0 c).leavesExact 2 t = owns (c : Thread nD τ) (mRinv t) fullShare ((dats m 0 c).after 2 t) from by
        unfold Dat.leavesExact; rw [live_rinv t], after_rinv]
      rw [show (dats m 0 c).leavesExact 3 t = owns (c : Thread nD τ) (mCinv t) fullShare ((dats m 0 c).after 3 t) from by
        unfold Dat.leavesExact; rw [live_cinv t], after_cinv]
      rw [Dat.leavesExact_idle (dats m 0 c) 4 t (idle_out t (fun h => h1 ((atLast_iff t).mp h))) (noFlush_out t (fun h => h1 ((atLast_iff t).mp h)))]
      rw [leftAt_first m c t h0 h1]
      unfold leftFirst; (try dsimp only)
      by_cases hz : t.val = 0
      · rw [inv_castSucc m c t, accInv_zero m c _ _ hz]
        iintro ⟨HA, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (blk m c 0 t) (blk m c 1 t) (blk m c 2 t) (blk m c 3 t)).2.2 _ Set.univ _)
        isplitl [H0]; · iexact H0
        isplitl [H1]; · iexact H1
        isplitl [H2]; · iexact H2
        isplitl [H3]; · iexact H3
        isplitl [H4]; · iexact H4
        isplitl [HA]; · iexact HA
        iintro ⟨H0, H1, H2, H3, H4, ⟨%ea, HA⟩⟩
        isplitl [HA]
        · unfold owns; iexists _; isplitr
          swap; · iexact HA
          ipureintro; exact View.read_writes_of_cover _ _ _ _ _ (coverAcc_first m c t h0 h1)
        isplitl [Ho]; · iexact Ho
        isplitl [H0]; · iexact H0
        isplitl [H1]; · iexact H1
        isplitl [H2]; · iexact H2
        isplitl [H3]; · iexact H3
        iexists _; iexact H4
      · rw [inv_castSucc m c t, accInv_pos m c _ _ hz]
        iintro ⟨HA, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (blk m c 0 t) (blk m c 1 t) (blk m c 2 t) (blk m c 3 t)).2.2 _ Set.univ _)
        isplitl [H0]; · iexact H0
        isplitl [H1]; · iexact H1
        isplitl [H2]; · iexact H2
        isplitl [H3]; · iexact H3
        isplitl [H4]; · iexact H4
        isplitl [HA]; · iexists _; iexact HA
        iintro ⟨H0, H1, H2, H3, H4, ⟨%ea, HA⟩⟩
        isplitl [HA]
        · unfold owns; iexists _; isplitr
          swap; · iexact HA
          ipureintro; exact View.read_writes_of_cover _ _ _ _ _ (coverAcc_first m c t h0 h1)
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dats m 0 c).leavesExact 0 t = owns (c : Thread nD τ) (mRows t) fullShare ((dats m 0 c).after 0 t) from by
        unfold Dat.leavesExact; rw [live_rows t], after_rows]
      rw [show (dats m 0 c).leavesExact 1 t = owns (c : Thread nD τ) (mCols t) fullShare ((dats m 0 c).after 1 t) from by
        unfold Dat.leavesExact; rw [live_cols t], after_cols]
      rw [show (dats m 0 c).leavesExact 2 t = owns (c : Thread nD τ) (mRinv t) fullShare ((dats m 0 c).after 2 t) from by
        unfold Dat.leavesExact; rw [live_rinv t], after_rinv]
      rw [show (dats m 0 c).leavesExact 3 t = owns (c : Thread nD τ) (mCinv t) fullShare ((dats m 0 c).after 3 t) from by
        unfold Dat.leavesExact; rw [live_cinv t], after_cinv]
      rw [show (dats m 0 c).leavesExact 4 t = owns (c : Thread nD τ) (mOut t) fullShare ((dats m 0 c).after 4 t) from by
        unfold Dat.leavesExact; rw [live_out t ((atLast_iff t).mpr h1)], after_out]
      rw [leftAt_last m c t h0 h1]
      unfold leftLast; (try dsimp only)
      rw [inv_castSucc m c t, accInv_pos m c _ _ hz]
      iintro ⟨HA, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((atFirst_iff t).mp h)) ((atLast_iff t).mpr h1) (blk m c 0 t) (blk m c 1 t) (blk m c 2 t) (blk m c 3 t) _).2.2 Set.univ _)
      isplitl [H0]; · iexact H0
      isplitl [H1]; · iexact H1
      isplitl [H2]; · iexact H2
      isplitl [H3]; · iexact H3
      isplitl [H4]; · iexists _; iexact H4
      isplitl [HA]; · iexact HA
      iintro ⟨H0, H1, H2, H3, ⟨%e4, H4⟩, ⟨%ea, HA⟩⟩
      isplitl [HA]
      · unfold owns; iexists _; isplitr
        swap; · iexact HA
        ipureintro; exact View.read_writes_of_cover _ _ _ _ _ (coverAcc_last m c t h0 h1 _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut_last m c t h0 h1 _)
    · rw [show (dats m 0 c).leavesExact 0 t = owns (c : Thread nD τ) (mRows t) fullShare ((dats m 0 c).after 0 t) from by
        unfold Dat.leavesExact; rw [live_rows t], after_rows]
      rw [show (dats m 0 c).leavesExact 1 t = owns (c : Thread nD τ) (mCols t) fullShare ((dats m 0 c).after 1 t) from by
        unfold Dat.leavesExact; rw [live_cols t], after_cols]
      rw [show (dats m 0 c).leavesExact 2 t = owns (c : Thread nD τ) (mRinv t) fullShare ((dats m 0 c).after 2 t) from by
        unfold Dat.leavesExact; rw [live_rinv t], after_rinv]
      rw [show (dats m 0 c).leavesExact 3 t = owns (c : Thread nD τ) (mCinv t) fullShare ((dats m 0 c).after 3 t) from by
        unfold Dat.leavesExact; rw [live_cinv t], after_cinv]
      rw [Dat.leavesExact_idle (dats m 0 c) 4 t (idle_out t (fun h => h1 ((atLast_iff t).mp h))) (noFlush_out t (fun h => h1 ((atLast_iff t).mp h)))]
      rw [leftAt_mid m c t h0 h1]
      unfold leftMid; (try dsimp only)
      rw [inv_castSucc m c t, accInv_pos m c _ _ hz]
      iintro ⟨HA, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((atFirst_iff t).mp h)) (fun h => h1 ((atLast_iff t).mp h)) (blk m c 0 t) (blk m c 1 t) (blk m c 2 t) (blk m c 3 t) _).2.2 _ Set.univ _)
      isplitl [H0]; · iexact H0
      isplitl [H1]; · iexact H1
      isplitl [H2]; · iexact H2
      isplitl [H3]; · iexact H3
      isplitl [H4]; · iexact H4
      isplitl [HA]; · iexact HA
      iintro ⟨H0, H1, H2, H3, H4, ⟨%ea, HA⟩⟩
      isplitl [HA]
      · unfold owns; iexists _; isplitr
        swap; · iexact HA
        ipureintro; exact View.read_writes_of_cover _ _ _ _ _ (coverAcc_mid m c t h0 h1 _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.KFrame

end
-- ==== Proof.BLaunch.lean ====
/-
  The launch: the program is the host operations before the region, the region, the host operations after it, each a
  segment with the thread state it runs from and to.

  Before the region the core holds every unscoped buffer whole. At the region's entry the three arrays the windows
  read or write are taken out: the raw rows and the inverse norms are each read by two windows, which hold them in
  halves; the result is held whole. At the exit the halves are joined again (an input's array is as it was), the
  result's buffer holds what the region computed, and the operations after the region run within all of them.
-/
import proofs.«144959_j9036611191122_2_alg».proof.Proof.BBodyOb

set_option maxRecDepth 16384
set_option maxHeartbeats 1000000

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev Lv : GSem nD τ sig → Finset Unit := fun _ => ∅
abbrev lvl : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev owesNone (c : Dev nD) : sProp 𝕄 := iprop(∃ W, owes (c : Thread nD τ) (0 : CellTallies nD τ sig Unit) W)

/-- The unscoped buffers. -/
abbrev allRefs : Finset (DevRef τ sig) := Pipeline.ucRefs τ sig

abbrev rRows : DevRef τ sig := Proc.devRef .tc main_v20
abbrev rInv : DevRef τ sig := Proc.devRef .tc main_v21
abbrev rOut : DevRef τ sig := Proc.devRef .tc main_v22

/-- The three arrays of the pipeline. -/
def arrRefs : Finset (DevRef τ sig) := {rRows, rInv, rOut}

/-- The buffers when the region is entered, as a valuation. -/
abbrev Vin (c : Dev nD) : Valuation τ sig (Elt F) := StableHlo.after hostOps0 (V₀ m c)

/-- The buffers when the region is left: the result's buffer holds what the region computed. -/
def Vout (c : Dev nD) : Valuation τ sig (Elt F) :=
  Function.update (Vin m c) rOut ((dats m 0 c).arrAt 4 cfg0.N)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The operations before the region, over the unscoped buffers. -/
def segBefore : Pipeline.HostSeg (Name := ℕ) (U := UR sig nD τ) (pcfgs (F := F)) defs₀ Variants.none Lv lvl :=
  Pipeline.HostSeg.ofOps _ _ _ _ _ allRefs hostOps0 (fun op h => Pipeline.sub_ucRefs op ((List.forall_iff_forall_mem.mp hostOps0_sub) op h))
    (fun op h => (List.forall_iff_forall_mem.mp hostOps0_fresh) op h) (V₀ m) owesNone

/-- The operations after the region, over the unscoped buffers. -/
def segAfter : Pipeline.HostSeg (Name := ℕ) (U := UR sig nD τ) (pcfgs (F := F)) defs₀ Variants.none Lv lvl :=
  Pipeline.HostSeg.ofOps _ _ _ _ _ allRefs hostOps1 (fun op h => Pipeline.sub_ucRefs op ((List.forall_iff_forall_mem.mp hostOps1_sub) op h))
    (fun op h => (List.forall_iff_forall_mem.mp hostOps1_fresh) op h) (Vout m) owesNone

theorem arrRefs_sub : arrRefs ⊆ (allRefs : Finset (DevRef τ sig)) := by decide

/-- At the region's entry the unscoped buffers are the pipeline's arrays — the raw rows and the inverse norms each
    split in halves between the two windows that read them, the result whole — and the other buffers. -/
theorem entry_split (c : Dev nD) :
    (StableHlo.held (c : Thread nD τ) allRefs (Vin m c) : sProp 𝕄)
      ⊢ iprop((dats m 0 c).arrays (fun w => (dats m 0 c).arrAt w 0) ∗ StableHlo.held (c : Thread nD τ) (allRefs \ arrRefs) (Vin m c)) := by
  rw [StableHlo.held_sub_split (c : Thread nD τ) arrRefs_sub (Vin m c)]
  refine sep_mono ?_ .rfl
  unfold StableHlo.held arrRefs Dat.arrays
  rw [bigSep_insert (by decide), bigSep_insert (by decide), bigSep_singleton, bigSep_W0]
  rw [(arr_whole0 0).set_eq_univ, (arr_whole0 2).set_eq_univ, (arr_whole0 4).set_eq_univ]
  dsimp only
  rw [show (dats m 0 c).arrAt 0 0 = Vin m c rRows from rfl, show (dats m 0 c).arrAt 1 0 = Vin m c rRows from rfl,
    show (dats m 0 c).arrAt 2 0 = Vin m c rInv from rfl, show (dats m 0 c).arrAt 3 0 = Vin m c rInv from rfl,
    show (dats m 0 c).arrAt 4 0 = Vin m c rOut from rfl]
  show iprop(_ ∗ _ ∗ _) ⊢ _
  iintro ⟨Hr, Hi, Ho⟩
  ihave Hr' := (pointsTo_share (PosShare.mem_left_op_right fullShare)).1 $$ Hr
  icases Hr' with ⟨Hr1, Hr2⟩
  ihave Hi' := (pointsTo_share (PosShare.mem_left_op_right fullShare)).1 $$ Hi
  icases Hi' with ⟨Hi1, Hi2⟩
  isplitl [Hr1]; · iexact Hr1
  isplitl [Hr2]; · iexact Hr2
  isplitl [Hi1]; · iexact Hi1
  isplitl [Hi2]; · iexact Hi2
  iexact Ho

theorem rOut_mem : rOut ∈ (arrRefs : Finset (DevRef τ sig)) := by decide

/-- At the region's exit the halves are joined again — an input's array is as the region found it — and with the
    result's buffer at what the region computed and the other buffers they are the unscoped buffers. -/
theorem exit_join (c : Dev nD) :
    iprop((dats m 0 c).arrays (fun w => (dats m 0 c).arrAt w cfg0.N) ∗ StableHlo.held (c : Thread nD τ) (allRefs \ arrRefs) (Vin m c))
      ⊢ (StableHlo.held (c : Thread nD τ) allRefs (Vout m c) : sProp 𝕄) := by
  rw [StableHlo.held_sub_split (c : Thread nD τ) arrRefs_sub (Vout m c)]
  refine BIClass.sep_mono ?_ (Entails.of_eq (StableHlo.held_congr (c : Thread nD τ) fun b hb => ?_))
  · unfold StableHlo.held arrRefs Dat.arrays
    rw [bigSep_insert (by decide), bigSep_insert (by decide), bigSep_singleton, bigSep_W0]
    rw [(arr_whole0 0).set_eq_univ, (arr_whole0 2).set_eq_univ, (arr_whole0 4).set_eq_univ]
    dsimp only
    rw [(dats m 0 c).arrAt_in 0 rfl, (dats m 0 c).arrAt_in 1 rfl, (dats m 0 c).arrAt_in 2 rfl, (dats m 0 c).arrAt_in 3 rfl]
    rw [A_eq m c 0, A_eq m c 1, A_eq m c 2, A_eq m c 3]
    rw [show V m c (Pipeline.arrRef spec0 0) = Vin m c rRows from rfl, show V m c (Pipeline.arrRef spec0 2) = Vin m c rInv from rfl]
    rw [show Vout m c rRows = Vin m c rRows from Function.update_of_ne (by decide) _ _,
      show Vout m c rInv = Vin m c rInv from Function.update_of_ne (by decide) _ _,
      show Vout m c rOut = (dats m 0 c).arrAt 4 cfg0.N from Function.update_self _ _ _]
    show _ ⊢ iprop(_ ∗ _ ∗ _)
    iintro ⟨H0, H1, H2, H3, H4⟩
    ihave Hr := (pointsTo_share (PosShare.mem_left_op_right fullShare)).2 $$ [H0 H1]
    · isplitl [H0]; · iexact H0
      iexact H1
    ihave Hi := (pointsTo_share (PosShare.mem_left_op_right fullShare)).2 $$ [H2 H3]
    · isplitl [H2]; · iexact H2
      iexact H3
    isplitl [Hr]; · iexact Hr
    isplitl [Hi]; · iexact Hi
    iexact H4
  · unfold Vout
    rw [Function.update_of_ne]
    intro h; subst h
    exact (Finset.mem_sdiff.mp hb).2 rOut_mem

set_option backward.isDefEq.respectTransparency.types false in
/-- The region: the decided layout (its windows share arrays), no semaphore of the kernel's own, the body's obligation;
    entered from what the operations before it left, left with the result's buffer at what it computed. -/
def region : Pipeline.RegionSeg (pcfgs (F := F)) adm (dats m) () defs₀ Variants.none Lv lvl 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lv lvl 0 fun _ _ => rfl
  pre c := iprop(StableHlo.held (c : Thread nD τ) allRefs (Vin m c) ∗ owesNone c)
  post c := iprop(StableHlo.held (c : Thread nD τ) allRefs (Vout m c) ∗ owesNone c)
  X _ := BI.emp
  Y _ := BI.emp
  Z c := StableHlo.held (c : Thread nD τ) (allRefs \ arrRefs) (Vin m c)
  hentry c := by
    rw [Pipeline.ownSems0_none]
    iintro ⟨⟨Hh, HO⟩, -, -⟩
    ihave H := (entry_split m c) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(∃ d, owns (c : Thread nD τ) mAcc fullShare d) from rfl, scopedRest0_eq]
    simp only [mAcc, owns_whole]
    iintro ⟨-, -, Hr⟩; iexact Hr
  hout c := by
    rw [Pipeline.ownSems0_none, scopedRest0_eq,
      show (dats m 0 c).Φ (Fin.last cfg0.N) = accInv m c cfg0.N (Nat.le_refl _) from rfl,
      accInv_pos m c _ _ (by rw [show cfg0.N = 64 from N_0]; decide)]
    simp only [mAcc, owns_whole]
    iintro Hr
    isplitr; · iempintro
    isplitr; · iempintro
    iexists _; iexact Hr
  hexit c := by
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- The program as the list of the three segments. -/
abbrev segs : List (Pipeline.Seg (pcfgs (F := F)) adm (dats m) () defs₀ Variants.none Lv lvl) :=
  [.host (segBefore m), .region (region m), .host (segAfter m)]

/-- The buffers at the end. -/
abbrev Vfin (c : Dev nD) : Valuation τ sig (Elt F) := StableHlo.after hostOps1 (Vout m c)

set_option backward.isDefEq.respectTransparency.types false in
/-- From any memory with zero counters every weakly fair execution of the program on the TensorCores terminates,
    nothing faulting, and every unscoped buffer ends at what the three segments leave in it. -/
theorem run_main : θ_run defs (onTc (τ := τ) (main (F := F))) ⟨m, fun _ => 0, ρ⟩
    (fun r => ∀ c : Dev nD, ∀ b ∈ (allRefs : Finset (DevRef τ sig)), r.2.mem ((c.tc : Thread nD τ).1, b) = Vfin m c b) :=
  Pipeline.θ_run_regions_kit (pcfgs (F := F)) adm (dats m) () cellOf_inj emb₁ defs₀ Variants.none Lv lvl m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) allRefs (V₀ m c) ∗ owesNone c))
    (Tₙ := fun c => StableHlo.held (c : Thread nD τ) allRefs (Vfin m c))
    (hch := ⟨fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) allRefs (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (allRefs : Finset (DevRef τ sig)), s.mem ((c.tc : Thread nD τ).1, b) = Vfin m c b)
    (hfin := fun c s' => by
      unfold StableHlo.held
      iintro H
      ihave Hr := (pointsTo_read_all (allRefs : Finset (DevRef τ sig)) (fun b => ((c.tc : Thread nD τ).1, b)) (Vfin m c) s') $$ H
      icases Hr with ⟨%hr, HSI⟩
      imodintro
      isplitr; · ipureintro; exact hr
      iexact HSI)
    (hQ := fun _ h => h)

end Cert.Kernel.KFrame

end
-- ==== Proof.BArgs.lean ====
/-
  The argument arrays end as they were launched: no host operation writes them and the region's windows only read
  the arrays built from them. With that the run is the frame claim.
-/
import proofs.«144959_j9036611191122_2_alg».proof.Proof.BLaunch

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before_keeps_arg0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem before_keeps_arg1 : ∀ op ∈ (hostOps0 : List (HloOp τ sig (Elt F))), Proc.devRef .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem after_keeps_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem after_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem Vfin_arg0 (c : Dev nD) : Vfin m c (Proc.devRef .tc main_arg0) = m ((c.tc : Thread nD τ).loc main_arg0) := by
  unfold Vfin
  rw [StableHlo.after_of_forall_not_mem (b := Proc.devRef .tc main_arg0) hostOps1 (Vout m c) after_keeps_arg0]
  unfold Vout
  rw [Function.update_of_ne (by decide)]
  exact StableHlo.after_of_forall_not_mem (b := Proc.devRef .tc main_arg0) hostOps0 (V₀ m c) before_keeps_arg0

theorem Vfin_arg1 (c : Dev nD) : Vfin m c (Proc.devRef .tc main_arg1) = m ((c.tc : Thread nD τ).loc main_arg1) := by
  unfold Vfin
  rw [StableHlo.after_of_forall_not_mem (b := Proc.devRef .tc main_arg1) hostOps1 (Vout m c) after_keeps_arg1]
  unfold Vout
  rw [Function.update_of_ne (by decide)]
  exact StableHlo.after_of_forall_not_mem (b := Proc.devRef .tc main_arg1) hostOps0 (V₀ m c) before_keeps_arg1

theorem mem_arg0 : (Proc.devRef .tc main_arg0 : DevRef τ sig) ∈ (allRefs : Finset (DevRef τ sig)) := by decide
theorem mem_arg1 : (Proc.devRef .tc main_arg1 : DevRef τ sig) ∈ (allRefs : Finset (DevRef τ sig)) := by decide
theorem mem_result : (Proc.devRef .tc main_v50 : DevRef τ sig) ∈ (allRefs : Finset (DevRef τ sig)) := by decide

/-- The program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ mem_arg0).trans (Vfin_arg0 m c), (h c _ mem_arg1).trans (Vfin_arg1 m c)⟩) (run_main m ρ)

end Cert.Kernel.KFrame

end
-- ==== Proof.KRuns.lean ====
/-
  What the three kinds of grid point share: the two conditions the body branches on, decided over the grid, the
  windows' staging memrefs at a point, and where the result window is idle.

  The grid point t stands for row tile t / 8 and column tile t % 8. The body resets the accumulator at the first
  column tile (t % 8 = 0) and copies it into the result's block at the last (t % 8 = 7).
-/
import proofs.«144959_j9036611191122_2_alg».proof.Proof.Gen.KernelIdeal.Launch
import proofs.«144959_j9036611191122_2_alg».proof.Proof.Gen.KernelIdeal.Skeleton
import proofs.«144959_j9036611191122_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions -/

/-- The body is at the first column tile: it resets the accumulator. -/
abbrev atFirst (i : grid0.Coords) : Prop := (Scalar.cmpi .ne (Scalar.extui (Scalar.cmpi .eq (BitVec.ofNat 32 (i 1).val) 0#32)) 0#32) = 1#1
/-- That is the points with t % 8 = 0. -/
theorem atFirst_iff : ∀ t : Fin cfg0.N, atFirst (grid0.coords t) ↔ t.val % 8 = 0 :=
  (by decide +kernel : ∀ t : Fin grid0.N, atFirst (grid0.coords t) ↔ t.val % 8 = 0)

/-- The body is at the last column tile: it copies the accumulator into the result's block. -/
abbrev atLast (i : grid0.Coords) : Prop := k0_cond2 i = 1#1
/-- That is the points with t % 8 = 7. -/
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_rows : ∀ t : Fin cfg0.N, cfg0.idle 0 (grid0.coords t) = false := by decide +kernel
theorem live_cols : ∀ t : Fin cfg0.N, cfg0.idle 1 (grid0.coords t) = false := by decide +kernel
theorem live_rinv : ∀ t : Fin cfg0.N, cfg0.idle 2 (grid0.coords t) = false := by decide +kernel
theorem live_cinv : ∀ t : Fin cfg0.N, cfg0.idle 3 (grid0.coords t) = false := by decide +kernel
/-- Away from the last column tile the body stores nothing into the result's block, -/
theorem idle_out : ∀ t : Fin cfg0.N, ¬atLast (grid0.coords t) → cfg0.idle 4 (grid0.coords t) = true := by decide +kernel
/-- and the block is not written back there; -/
theorem noFlush_out : ∀ t : Fin cfg0.N, ¬atLast (grid0.coords t) → (cfg0.win 4).flush t = false := by decide +kernel
/-- at the last column tile it stores the whole block. -/
theorem live_out : ∀ t : Fin cfg0.N, atLast (grid0.coords t) → cfg0.idle 4 (grid0.coords t) = false := by decide +kernel

/-! ## The memrefs the body is called with -/

abbrev mRows (t : Fin cfg0.N) : Memref sig .tc .vmem S1024x512 .f32 := win0_0.stage (cfg0.slots t 0)
abbrev hRows (t : Fin cfg0.N) : (mRows t).IsWhole := hstage0_0 ((cfg0.slots t 0).cast nbuf0_0)
abbrev mCols (t : Fin cfg0.N) : Memref sig .tc .vmem S1024x512 .f32 := win0_1.stage (cfg0.slots t 1)
abbrev hCols (t : Fin cfg0.N) : (mCols t).IsWhole := hstage0_1 ((cfg0.slots t 1).cast nbuf0_1)
abbrev mRinv (t : Fin cfg0.N) : Memref sig .tc .vmem S1024x1 .f32 := win0_2.stage (cfg0.slots t 2)
abbrev hRinv (t : Fin cfg0.N) : (mRinv t).IsWhole := hstage0_2 ((cfg0.slots t 2).cast nbuf0_2)
abbrev mCinv (t : Fin cfg0.N) : Memref sig .tc .vmem S1024x1 .f32 := win0_3.stage (cfg0.slots t 3)
abbrev hCinv (t : Fin cfg0.N) : (mCinv t).IsWhole := hstage0_3 ((cfg0.slots t 3).cast nbuf0_3)
abbrev mOut (t : Fin cfg0.N) : Memref sig .tc .vmem S1024x1 .f32 := win0_4.stage (cfg0.slots t 4)
abbrev hOut (t : Fin cfg0.N) : (mOut t).IsWhole := hstage0_4 ((cfg0.slots t 4).cast nbuf0_4)
/-- The accumulator: a whole scoped buffer of the kernel's own. -/
abbrev mAcc : Memref sig .tc .vmem S1024x1 .f32 := Memref.whole cc0_scratch0
/-- Its view, through which its contents are stated. -/
abbrev vAcc : View sig .tc .vmem S1024x1 .f32 := mAcc.view
/-- One staging buffer of the result window, through which its contents are stated. -/
abbrev vOut : View sig .tc .vmem S1024x1 .f32 := (Memref.whole cc0_stg4_0 : Memref sig .tc .vmem S1024x1 .f32).view

end Cert.KernelIdeal.KFrame

end
-- ==== Proof.KRunFirst.lean ====
/-
  The body at the first column tile: it resets the accumulator, adds the tile's four chunk sums to it and stores
  nothing into the result's block.
-/
import proofs.«144959_j9036611191122_2_alg».proof.Proof.KRuns

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at such a point, on whole staging memrefs holding the inputs' blocks: it ends with the inputs as
    they were and the accumulator (and, where it stores it, the result's block) overwritten by the listed pieces,
    which the symbolic run finds. -/
noncomputable def runFirst (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : atFirst i) (hc1 : ¬atLast i)
    (x0 : Vec F S1024x512 .f32) (x1 : Vec F S1024x512 .f32) (x2 : Vec F S1024x1 .f32) (x3 : Vec F S1024x1 .f32) :
    Σ' (LO : List (View.Piece (Elt F) S1024x1 .f32)), { LA : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LA)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨[], ?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%f6, %hf6, H6⟩, ⟨%da, %fa, -, HA⟩, Hk⟩
    obtain rfl := harg2.eq_unread hf0; obtain rfl := harg3.eq_unread hf1; obtain rfl := harg4.eq_unread hf2; obtain rfl := harg5.eq_unread hf3; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HA

end Cert.KernelIdeal.KFrame

end
-- ==== Proof.KRunMid.lean ====
/-
  The body at a column tile that is neither the first nor the last: it adds the tile's four chunk sums to the
  accumulator the tile before left and stores nothing into the result's block.
-/
import proofs.«144959_j9036611191122_2_alg».proof.Proof.KRuns

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at such a point, on whole staging memrefs holding the inputs' blocks: it ends with the inputs as
    they were and the accumulator (and, where it stores it, the result's block) overwritten by the listed pieces,
    which the symbolic run finds. -/
noncomputable def runMid (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : ¬atLast i)
    (x0 : Vec F S1024x512 .f32) (x1 : Vec F S1024x512 .f32) (x2 : Vec F S1024x1 .f32) (x3 : Vec F S1024x1 .f32) (xs : Vec F S1024x1 .f32) :
    Σ' (LO : List (View.Piece (Elt F) S1024x1 .f32)), { LA : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LA)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨[], ?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%f6, %hf6, H6⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf6; obtain rfl := harg7.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HA

end Cert.KernelIdeal.KFrame

end
-- ==== Proof.KRunLast.lean ====
/-
  The body at the last column tile: it adds the tile's four chunk sums to the accumulator the tile before left
  and copies the accumulator into the result's block.
-/
import proofs.«144959_j9036611191122_2_alg».proof.Proof.KRuns

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at such a point, on whole staging memrefs holding the inputs' blocks: it ends with the inputs as
    they were and the accumulator (and, where it stores it, the result's block) overwritten by the listed pieces,
    which the symbolic run finds. -/
noncomputable def runLast (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : atLast i)
    (x0 : Vec F S1024x512 .f32) (x1 : Vec F S1024x512 .f32) (x2 : Vec F S1024x1 .f32) (x3 : Vec F S1024x1 .f32) (xs : Vec F S1024x1 .f32) :
    Σ' (LO : List (View.Piece (Elt F) S1024x1 .f32)), { LA : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc0__rowsum_kernel i arg2 harg2 arg3 harg3 arg4 harg4 arg5 harg5 arg6 harg6 arg7 harg7) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%d6, %f6, -, H6⟩, ⟨%fa, %hfa, HA⟩, Hk⟩
    obtain rfl := harg2.eq_unread hf0; obtain rfl := harg3.eq_unread hf1; obtain rfl := harg4.eq_unread hf2; obtain rfl := harg5.eq_unread hf3; obtain rfl := harg7.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact HA

end Cert.KernelIdeal.KFrame

end
-- ==== Proof.KData.lean ====
/-
  What the accumulator and the result's block hold after each grid point, the proof data of the pipeline, and the
  body's obligation at every point.

  After point t the accumulator holds the sum, over the column tiles of t's row tile up to t's, of the four chunk
  sums; the result's block receives it at the last column tile. Each input window's staging buffer holds its block
  of the array at every point, fetched there or kept from the point before.
-/
import proofs.«144959_j9036611191122_2_alg».proof.Proof.KRunFirst
import proofs.«144959_j9036611191122_2_alg».proof.Proof.KRunMid
import proofs.«144959_j9036611191122_2_alg».proof.Proof.KRunLast

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- A core's buffers at launch, as a valuation; -/
abbrev V₀ (c : Dev nD) : Valuation τ sig (Elt F) := fun b => m (c, b)
/-- and when the region is entered: the operations before it have run. -/
abbrev V (c : Dev nD) (b : Ref sig .tc) : Buf (Elt F) ((c : Thread nD τ).loc b) := StableHlo.after hostOps0 (V₀ m c) (Proc.devRef .tc b)

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each kind of point leaves: the result's block and the accumulator -/

def leftFirst (c : Dev nD) (t : Fin cfg0.N) (h0 : t.val % 8 = 0) (h1 : ¬t.val % 8 = 7) : Vec F S1024x1 .f32 × Vec F S1024x1 .f32 :=
  (vOut.read (Elt F) (vOut.writes (Elt F) vOut.junk (runFirst c (grid0.coords t) (mRows t) (hRows t) (mCols t) (hCols t) (mRinv t) (hRinv t) (mCinv t) (hCinv t) (mOut t) (hOut t) mAcc (Memref.isWhole_whole _) ((atFirst_iff t).mpr h0) (fun h => h1 ((atLast_iff t).mp h)) (blk m c 0 t) (blk m c 1 t) (blk m c 2 t) (blk m c 3 t)).1),
   vAcc.read (Elt F) (vAcc.writes (Elt F) vAcc.junk (runFirst c (grid0.coords t) (mRows t) (hRows t) (mCols t) (hCols t) (mRinv t) (hRinv t) (mCinv t) (hCinv t) (mOut t) (hOut t) mAcc (Memref.isWhole_whole _) ((atFirst_iff t).mpr h0) (fun h => h1 ((atLast_iff t).mp h)) (blk m c 0 t) (blk m c 1 t) (blk m c 2 t) (blk m c 3 t)).2.1))

def leftMid (c : Dev nD) (t : Fin cfg0.N) (h0 : ¬t.val % 8 = 0) (h1 : ¬t.val % 8 = 7) (xs : Vec F S1024x1 .f32) : Vec F S1024x1 .f32 × Vec F S1024x1 .f32 :=
  (vOut.read (Elt F) (vOut.writes (Elt F) vOut.junk (runMid c (grid0.coords t) (mRows t) (hRows t) (mCols t) (hCols t) (mRinv t) (hRinv t) (mCinv t) (hCinv t) (mOut t) (hOut t) mAcc (Memref.isWhole_whole _) (fun h => h0 ((atFirst_iff t).mp h)) (fun h => h1 ((atLast_iff t).mp h)) (blk m c 0 t) (blk m c 1 t) (blk m c 2 t) (blk m c 3 t) xs).1),
   vAcc.read (Elt F) (vAcc.writes (Elt F) vAcc.junk (runMid c (grid0.coords t) (mRows t) (hRows t) (mCols t) (hCols t) (mRinv t) (hRinv t) (mCinv t) (hCinv t) (mOut t) (hOut t) mAcc (Memref.isWhole_whole _) (fun h => h0 ((atFirst_iff t).mp h)) (fun h => h1 ((atLast_iff t).mp h)) (blk m c 0 t) (blk m c 1 t) (blk m c 2 t) (blk m c 3 t) xs).2.1))

def leftLast (c : Dev nD) (t : Fin cfg0.N) (h0 : ¬t.val % 8 = 0) (h1 : t.val % 8 = 7) (xs : Vec F S1024x1 .f32) : Vec F S1024x1 .f32 × Vec F S1024x1 .f32 :=
  (vOut.read (Elt F) (vOut.writes (Elt F) vOut.junk (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).1),
   vAcc.read (Elt F) (vAcc.writes (Elt F) vAcc.junk (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).2.1))

/-- The pieces each run leaves in the accumulator tile it (one whole store last), so they cover it. -/
theorem coverAcc_first (c : Dev nD) (t : Fin cfg0.N) (h0 : t.val % 8 = 0) (h1 : ¬t.val % 8 = 7) (y : S1024x1.Idx) :
    ∃ pc ∈ (runFirst c (grid0.coords t) (mRows t) (hRows t) (mCols t) (hCols t) (mRinv t) (hRinv t) (mCinv t) (hCinv t) (mOut t) (hOut t) mAcc (Memref.isWhole_whole _) ((atFirst_iff t).mpr h0) (fun h => h1 ((atLast_iff t).mp h)) (blk m c 0 t) (blk m c 1 t) (blk m c 2 t) (blk m c 3 t)).2.1, y ∈ pc.1.set :=
  View.cover_of_tiledL _ S1024x1.size (by sl_kernel_rfl) y
theorem coverAcc_mid (c : Dev nD) (t : Fin cfg0.N) (h0 : ¬t.val % 8 = 0) (h1 : ¬t.val % 8 = 7) (xs : Vec F S1024x1 .f32) (y : S1024x1.Idx) :
    ∃ pc ∈ (runMid c (grid0.coords t) (mRows t) (hRows t) (mCols t) (hCols t) (mRinv t) (hRinv t) (mCinv t) (hCinv t) (mOut t) (hOut t) mAcc (Memref.isWhole_whole _) (fun h => h0 ((atFirst_iff t).mp h)) (fun h => h1 ((atLast_iff t).mp h)) (blk m c 0 t) (blk m c 1 t) (blk m c 2 t) (blk m c 3 t) xs).2.1, y ∈ pc.1.set :=
  View.cover_of_tiledL _ S1024x1.size (by sl_kernel_rfl) y
theorem coverAcc_last (c : Dev nD) (t : Fin cfg0.N) (h0 : ¬t.val % 8 = 0) (h1 : t.val % 8 = 7) (xs : Vec F S1024x1 .f32) (y : S1024x1.Idx) :
    ∃ pc ∈ (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).2.1, y ∈ pc.1.set :=
  View.cover_of_tiledL _ S1024x1.size (by sl_kernel_rfl) y
/-- At the last column tile the one store into the result's block covers it. -/
theorem coverOut_last (c : Dev nD) (t : Fin cfg0.N) (h0 : ¬t.val % 8 = 0) (h1 : t.val % 8 = 7) (xs : Vec F S1024x1 .f32) (y : S1024x1.Idx) :
    ∃ pc ∈ (runLast c (grid0.coords t) (mRows t) (hRows t) (mCols t) (hCols t) (mRinv t) (hRinv t) (mCinv t) (hCinv t) (mOut t) (hOut t) mAcc (Memref.isWhole_whole _) (fun h => h0 ((atFirst_iff t).mp h)) ((atLast_iff t).mpr h1) (blk m c 0 t) (blk m c 1 t) (blk m c 2 t) (blk m c 3 t) xs).1, y ∈ pc.1.set :=
  View.cover_of_tiledL _ S1024x1.size (by sl_kernel_rfl) y

/-! ## The accumulation over the grid -/

/-- What the result's staging buffer and the accumulator hold after the body at position n: the kind of point
    decides the run, the accumulator handed to it being what position n - 1 left. -/
def leftAt (c : Dev nD) : (n : ℕ) → n < cfg0.N → Vec F S1024x1 .f32 × Vec F S1024x1 .f32
  | 0, hn => leftFirst m c ⟨0, hn⟩ (Nat.zero_mod _) (by show ¬ 0 % 8 = 7; omega)
  | n + 1, hn =>
    if h0 : (n + 1) % 8 = 0 then
      if h1 : (n + 1) % 8 = 7 then False.elim (by omega)
      else leftFirst m c ⟨n + 1, hn⟩ h0 h1
    else
      if h1 : (n + 1) % 8 = 7 then leftLast m c ⟨n + 1, hn⟩ h0 h1 (leftAt c n (Nat.lt_of_succ_lt hn)).2
      else leftMid m c ⟨n + 1, hn⟩ h0 h1 (leftAt c n (Nat.lt_of_succ_lt hn)).2

theorem leftAt_first (c : Dev nD) (t : Fin cfg0.N) (h0 : t.val % 8 = 0) (h1 : ¬t.val % 8 = 7) :
    leftAt m c t.val t.isLt = leftFirst m c t h0 h1 := by
  obtain ⟨n, hn⟩ := t
  cases n with
  | zero => exact rfl
  | succ n => exact (dif_pos h0).trans ((dif_neg h1).trans rfl)

theorem leftAt_mid (c : Dev nD) (t : Fin cfg0.N) (h0 : ¬t.val % 8 = 0) (h1 : ¬t.val % 8 = 7) :
    leftAt m c t.val t.isLt = leftMid m c t h0 h1 (leftAt m c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_neg h1).trans rfl)

theorem leftAt_last (c : Dev nD) (t : Fin cfg0.N) (h0 : ¬t.val % 8 = 0) (h1 : t.val % 8 = 7) :
    leftAt m c t.val t.isLt = leftLast m c t h0 h1 (leftAt m c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_pos h1).trans rfl)

/-- The region's invariant before position n: the accumulator at anything before the first point, afterwards at what
    the point before left in it. -/
def accInv (c : Dev nD) : (n : ℕ) → n ≤ cfg0.N → sProp 𝕄
  | 0, _ => iprop(∃ d, owns (c : Thread nD τ) mAcc fullShare d)
  | n + 1, hn => owns (c : Thread nD τ) mAcc fullShare ((leftAt m c n hn).2)

theorem accInv_zero (c : Dev nD) (n : ℕ) (h : n ≤ cfg0.N) (hz : n = 0) : accInv m c n h = iprop(∃ d, owns (c : Thread nD τ) mAcc fullShare d) := by
  subst hz; rfl
theorem accInv_succ (c : Dev nD) (n : ℕ) (hn : n < cfg0.N) :
    accInv m c (n + 1) hn = owns (c : Thread nD τ) mAcc fullShare ((leftAt m c n hn).2) := rfl
theorem accInv_pos (c : Dev nD) (n : ℕ) (h : n ≤ cfg0.N) (hz : n ≠ 0) :
    accInv m c n h = owns (c : Thread nD τ) mAcc fullShare ((leftAt m c (n - 1) (by omega)).2) := by
  cases n with
  | zero => exact absurd rfl hz
  | succ n => rfl

/-! ## The pipeline's proof data -/

/-- The proof data on core c: the arrays as the region finds them; after the body each input's buffer at its block
    and the result's at what the accumulation says; the accumulator's invariant; nothing owed; each of the two arrays
    that two windows read is shared between them in halves. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => (leftAt m c t.val t.isLt).1
  Φ t := accInv m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_rows (c : Dev nD) (t : Fin cfg0.N) : (dats m 0 c).after 0 t = blk m c 0 t := by dsimp only [dats]
theorem after_cols (c : Dev nD) (t : Fin cfg0.N) : (dats m 0 c).after 1 t = blk m c 1 t := by dsimp only [dats]
theorem after_rinv (c : Dev nD) (t : Fin cfg0.N) : (dats m 0 c).after 2 t = blk m c 2 t := by dsimp only [dats]
theorem after_cinv (c : Dev nD) (t : Fin cfg0.N) : (dats m 0 c).after 3 t = blk m c 3 t := by dsimp only [dats]
theorem after_out (c : Dev nD) (t : Fin cfg0.N) : (dats m 0 c).after 4 t = (leftAt m c t.val t.isLt).1 := by dsimp only [dats]

/-- An input window's staging buffer holds its block at every point, fetched there or kept from the point before
    (the block index has not moved). -/
theorem before_rows (c : Dev nD) (t : Fin cfg0.N) (d) : (dats m 0 c).before 0 t d = blk m c 0 t :=
  ((dats m 0 c).before_in_eq_fetched 0 rfl (fun _ => rfl) (fun _ _ _ => rfl) (fun t => by rw [after_rows]; unfold Dat.blockOf blk; rw [A_eq]; try rfl) t d).trans
    (by unfold Dat.fetched Dat.blockOf blk; rw [A_eq]; try rfl)
theorem before_cols (c : Dev nD) (t : Fin cfg0.N) (d) : (dats m 0 c).before 1 t d = blk m c 1 t :=
  ((dats m 0 c).before_in_eq_fetched 1 rfl (fun _ => rfl) (fun _ _ _ => rfl) (fun t => by rw [after_cols]; unfold Dat.blockOf blk; rw [A_eq]; try rfl) t d).trans
    (by unfold Dat.fetched Dat.blockOf blk; rw [A_eq]; try rfl)
theorem before_rinv (c : Dev nD) (t : Fin cfg0.N) (d) : (dats m 0 c).before 2 t d = blk m c 2 t :=
  ((dats m 0 c).before_in_eq_fetched 2 rfl (fun _ => rfl) (fun _ _ _ => rfl) (fun t => by rw [after_rinv]; unfold Dat.blockOf blk; rw [A_eq]; try rfl) t d).trans
    (by unfold Dat.fetched Dat.blockOf blk; rw [A_eq]; try rfl)
theorem before_cinv (c : Dev nD) (t : Fin cfg0.N) (d) : (dats m 0 c).before 3 t d = blk m c 3 t :=
  ((dats m 0 c).before_in_eq_fetched 3 rfl (fun _ => rfl) (fun _ _ _ => rfl) (fun t => by rw [after_cinv]; unfold Dat.blockOf blk; rw [A_eq]; try rfl) t d).trans
    (by unfold Dat.fetched Dat.blockOf blk; rw [A_eq]; try rfl)

end Cert.KernelIdeal.KFrame

end
-- ==== Proof.KBodyOb.lean ====
/-
  The body's obligation at every grid point: from the invariant before the point and the windows' staging buffers
  at what the pipeline left in them, the body runs to the invariant after the point and the buffers at what the proof
  data says. The kind of point (first, middle, last column tile) selects the run.
-/
import proofs.«144959_j9036611191122_2_alg».proof.Proof.KData

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mRows t) fullShare ((dats m 0 c).before 0 t d))
    ∗ (∃ d, owns (c : Thread nD τ) (mCols t) fullShare ((dats m 0 c).before 1 t d))
    ∗ (∃ d, owns (c : Thread nD τ) (mRinv t) fullShare ((dats m 0 c).before 2 t d))
    ∗ (∃ d, owns (c : Thread nD τ) (mCinv t) fullShare ((dats m 0 c).before 3 t d))
    ∗ (∃ d, owns (c : Thread nD τ) (mOut t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols, before_rinv, before_cinv]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (mRows t) fullShare ((dats m 0 c).after 0 t) from by
        unfold Dat.leavesExact; rw [live_rows t], after_rows]
      rw [show (dats m 0 c).leavesExact 1 t = owns (c : Thread nD τ) (mCols t) fullShare ((dats m 0 c).after 1 t) from by
        unfold Dat.leavesExact; rw [live_cols t], after_cols]
      rw [show (dats m 0 c).leavesExact 2 t = owns (c : Thread nD τ) (mRinv t) fullShare ((dats m 0 c).after 2 t) from by
        unfold Dat.leavesExact; rw [live_rinv t], after_rinv]
      rw [show (dats m 0 c).leavesExact 3 t = owns (c : Thread nD τ) (mCinv t) fullShare ((dats m 0 c).after 3 t) from by
        unfold Dat.leavesExact; rw [live_cinv t], after_cinv]
      rw [Dat.leavesExact_idle (dats m 0 c) 4 t (idle_out t (fun h => h1 ((atLast_iff t).mp h))) (noFlush_out t (fun h => h1 ((atLast_iff t).mp h)))]
      rw [leftAt_first m c t h0 h1]
      unfold leftFirst; (try dsimp only)
      by_cases hz : t.val = 0
      · rw [inv_castSucc m c t, accInv_zero m c _ _ hz]
        iintro ⟨HA, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (blk m c 0 t) (blk m c 1 t) (blk m c 2 t) (blk m c 3 t)).2.2 _ Set.univ _)
        isplitl [H0]; · iexact H0
        isplitl [H1]; · iexact H1
        isplitl [H2]; · iexact H2
        isplitl [H3]; · iexact H3
        isplitl [H4]; · iexact H4
        isplitl [HA]; · iexact HA
        iintro ⟨H0, H1, H2, H3, H4, ⟨%ea, HA⟩⟩
        isplitl [HA]
        · unfold owns; iexists _; isplitr
          swap; · iexact HA
          ipureintro; exact View.read_writes_of_cover _ _ _ _ _ (coverAcc_first m c t h0 h1)
        isplitl [Ho]; · iexact Ho
        isplitl [H0]; · iexact H0
        isplitl [H1]; · iexact H1
        isplitl [H2]; · iexact H2
        isplitl [H3]; · iexact H3
        iexists _; iexact H4
      · rw [inv_castSucc m c t, accInv_pos m c _ _ hz]
        iintro ⟨HA, Ho, ⟨%d0, H0⟩, ⟨%d1, H1⟩, ⟨%d2, H2⟩, ⟨%d3, H3⟩, ⟨%d4, H4⟩⟩
        iapply ((runFirst c (grid0.coords t) _ _ _ _ _ _ _ _ _ _ _ _ ((atFirst_iff t).mpr h0) (fun h => h1 ((atLast_iff t).mp h)) (blk m c 0 t) (blk m c 1 t) (blk m c 2 t) (blk m c 3 t)).2.2 _ Set.univ _)
        isplitl [H0]; · iexact H0
        isplitl [H1]; · iexact H1
        isplitl [H2]; · iexact H2
        isplitl [H3]; · iexact H3
        isplitl [H4]; · iexact H4
        isplitl [HA]; · iexists _; iexact HA
        iintro ⟨H0, H1, H2, H3, H4, ⟨%ea, HA⟩⟩
        isplitl [HA]
        · unfold owns; iexists _; isplitr
          swap; · iexact HA
          ipureintro; exact View.read_writes_of_cover _ _ _ _ _ (coverAcc_first m c t h0 h1)
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dats m 0 c).leavesExact 0 t = owns (c : Thread nD τ) (mRows t) fullShare ((dats m 0 c).after 0 t) from by
        unfold Dat.leavesExact; rw [live_rows t], after_rows]
      rw [show (dats m 0 c).leavesExact 1 t = owns (c : Thread nD τ) (mCols t) fullShare ((dats m 0 c).after 1 t) from by
        unfold Dat.leavesExact; rw [live_cols t], after_cols]
      rw [show (dats m 0 c).leavesExact 2 t = owns (c : Thread nD τ) (mRinv t) fullShare ((dats m 0 c).after 2 t) from by
        unfold Dat.leavesExact; rw [live_rinv t], after_rinv]
      rw [show (dats m 0 c).leavesExact 3 t = owns (c : Thread nD τ) (mCinv t) fullShare ((dats m 0 c).after 3 t) from by
        unfold Dat.leavesExact; rw [live_cinv t], after_cinv]
      rw [show (dats m 0 c).leavesExact 4 t = owns (c : Thread nD τ) (mOut t) fullShare ((dats m 0 c).after 4 t) from by
        unfold Dat.leavesExact; rw [live_out t ((atLast_iff t).mpr h1)], after_out]
      rw [leftAt_last m c t h0 h1]
      unfold leftLast; (try dsimp only)
      rw [inv_castSucc m c t, accInv_pos m c _ _ hz]
      iintro ⟨HA, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((atFirst_iff t).mp h)) ((atLast_iff t).mpr h1) (blk m c 0 t) (blk m c 1 t) (blk m c 2 t) (blk m c 3 t) _).2.2 Set.univ _)
      isplitl [H0]; · iexact H0
      isplitl [H1]; · iexact H1
      isplitl [H2]; · iexact H2
      isplitl [H3]; · iexact H3
      isplitl [H4]; · iexists _; iexact H4
      isplitl [HA]; · iexact HA
      iintro ⟨H0, H1, H2, H3, ⟨%e4, H4⟩, ⟨%ea, HA⟩⟩
      isplitl [HA]
      · unfold owns; iexists _; isplitr
        swap; · iexact HA
        ipureintro; exact View.read_writes_of_cover _ _ _ _ _ (coverAcc_last m c t h0 h1 _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut_last m c t h0 h1 _)
    · rw [show (dats m 0 c).leavesExact 0 t = owns (c : Thread nD τ) (mRows t) fullShare ((dats m 0 c).after 0 t) from by
        unfold Dat.leavesExact; rw [live_rows t], after_rows]
      rw [show (dats m 0 c).leavesExact 1 t = owns (c : Thread nD τ) (mCols t) fullShare ((dats m 0 c).after 1 t) from by
        unfold Dat.leavesExact; rw [live_cols t], after_cols]
      rw [show (dats m 0 c).leavesExact 2 t = owns (c : Thread nD τ) (mRinv t) fullShare ((dats m 0 c).after 2 t) from by
        unfold Dat.leavesExact; rw [live_rinv t], after_rinv]
      rw [show (dats m 0 c).leavesExact 3 t = owns (c : Thread nD τ) (mCinv t) fullShare ((dats m 0 c).after 3 t) from by
        unfold Dat.leavesExact; rw [live_cinv t], after_cinv]
      rw [Dat.leavesExact_idle (dats m 0 c) 4 t (idle_out t (fun h => h1 ((atLast_iff t).mp h))) (noFlush_out t (fun h => h1 ((atLast_iff t).mp h)))]
      rw [leftAt_mid m c t h0 h1]
      unfold leftMid; (try dsimp only)
      rw [inv_castSucc m c t, accInv_pos m c _ _ hz]
      iintro ⟨HA, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((atFirst_iff t).mp h)) (fun h => h1 ((atLast_iff t).mp h)) (blk m c 0 t) (blk m c 1 t) (blk m c 2 t) (blk m c 3 t) _).2.2 _ Set.univ _)
      isplitl [H0]; · iexact H0
      isplitl [H1]; · iexact H1
      isplitl [H2]; · iexact H2
      isplitl [H3]; · iexact H3
      isplitl [H4]; · iexact H4
      isplitl [HA]; · iexact HA
      iintro ⟨H0, H1, H2, H3, H4, ⟨%ea, HA⟩⟩
      isplitl [HA]
      · unfold owns; iexists _; isplitr
        swap; · iexact HA
        ipureintro; exact View.read_writes_of_cover _ _ _ _ _ (coverAcc_mid m c t h0 h1 _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.KFrame

end
-- ==== Proof.KLaunch.lean ====
/-
  The launch: the program is the host operations before the region, the region, the host operations after it, each a
  segment with the thread state it runs from and to.

  Before the region the core holds every unscoped buffer whole. At the region's entry the three arrays the windows
  read or write are taken out: the raw rows and the inverse norms are each read by two windows, which hold them in
  halves; the result is held whole. At the exit the halves are joined again (an input's array is as it was), the
  result's buffer holds what the region computed, and the operations after the region run within all of them.
-/
import proofs.«144959_j9036611191122_2_alg».proof.Proof.KBodyOb

set_option maxRecDepth 16384
set_option maxHeartbeats 1000000

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev Lv : GSem nD τ sig → Finset Unit := fun _ => ∅
abbrev lvl : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev owesNone (c : Dev nD) : sProp 𝕄 := iprop(∃ W, owes (c : Thread nD τ) (0 : CellTallies nD τ sig Unit) W)

/-- The unscoped buffers. -/
abbrev allRefs : Finset (DevRef τ sig) := Pipeline.ucRefs τ sig

abbrev rRows : DevRef τ sig := Proc.devRef .tc main_v20
abbrev rInv : DevRef τ sig := Proc.devRef .tc main_v21
abbrev rOut : DevRef τ sig := Proc.devRef .tc main_v22

/-- The three arrays of the pipeline. -/
def arrRefs : Finset (DevRef τ sig) := {rRows, rInv, rOut}

/-- The buffers when the region is entered, as a valuation. -/
abbrev Vin (c : Dev nD) : Valuation τ sig (Elt F) := StableHlo.after hostOps0 (V₀ m c)

/-- The buffers when the region is left: the result's buffer holds what the region computed. -/
def Vout (c : Dev nD) : Valuation τ sig (Elt F) :=
  Function.update (Vin m c) rOut ((dats m 0 c).arrAt 4 cfg0.N)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The operations before the region, over the unscoped buffers. -/
def segBefore : Pipeline.HostSeg (Name := ℕ) (U := UR sig nD τ) (pcfgs (F := F)) defs₀ Variants.none Lv lvl :=
  Pipeline.HostSeg.ofOps _ _ _ _ _ allRefs hostOps0 (fun op h => Pipeline.sub_ucRefs op ((List.forall_iff_forall_mem.mp hostOps0_sub) op h))
    (fun op h => (List.forall_iff_forall_mem.mp hostOps0_fresh) op h) (V₀ m) owesNone

/-- The operations after the region, over the unscoped buffers. -/
def segAfter : Pipeline.HostSeg (Name := ℕ) (U := UR sig nD τ) (pcfgs (F := F)) defs₀ Variants.none Lv lvl :=
  Pipeline.HostSeg.ofOps _ _ _ _ _ allRefs hostOps1 (fun op h => Pipeline.sub_ucRefs op ((List.forall_iff_forall_mem.mp hostOps1_sub) op h))
    (fun op h => (List.forall_iff_forall_mem.mp hostOps1_fresh) op h) (Vout m) owesNone

theorem arrRefs_sub : arrRefs ⊆ (allRefs : Finset (DevRef τ sig)) := by decide

/-- At the region's entry the unscoped buffers are the pipeline's arrays — the raw rows and the inverse norms each
    split in halves between the two windows that read them, the result whole — and the other buffers. -/
theorem entry_split (c : Dev nD) :
    (StableHlo.held (c : Thread nD τ) allRefs (Vin m c) : sProp 𝕄)
      ⊢ iprop((dats m 0 c).arrays (fun w => (dats m 0 c).arrAt w 0) ∗ StableHlo.held (c : Thread nD τ) (allRefs \ arrRefs) (Vin m c)) := by
  rw [StableHlo.held_sub_split (c : Thread nD τ) arrRefs_sub (Vin m c)]
  refine sep_mono ?_ .rfl
  unfold StableHlo.held arrRefs Dat.arrays
  rw [bigSep_insert (by decide), bigSep_insert (by decide), bigSep_singleton, bigSep_W0]
  rw [(arr_whole0 0).set_eq_univ, (arr_whole0 2).set_eq_univ, (arr_whole0 4).set_eq_univ]
  dsimp only
  rw [show (dats m 0 c).arrAt 0 0 = Vin m c rRows from rfl, show (dats m 0 c).arrAt 1 0 = Vin m c rRows from rfl,
    show (dats m 0 c).arrAt 2 0 = Vin m c rInv from rfl, show (dats m 0 c).arrAt 3 0 = Vin m c rInv from rfl,
    show (dats m 0 c).arrAt 4 0 = Vin m c rOut from rfl]
  show iprop(_ ∗ _ ∗ _) ⊢ _
  iintro ⟨Hr, Hi, Ho⟩
  ihave Hr' := (pointsTo_share (PosShare.mem_left_op_right fullShare)).1 $$ Hr
  icases Hr' with ⟨Hr1, Hr2⟩
  ihave Hi' := (pointsTo_share (PosShare.mem_left_op_right fullShare)).1 $$ Hi
  icases Hi' with ⟨Hi1, Hi2⟩
  isplitl [Hr1]; · iexact Hr1
  isplitl [Hr2]; · iexact Hr2
  isplitl [Hi1]; · iexact Hi1
  isplitl [Hi2]; · iexact Hi2
  iexact Ho

theorem rOut_mem : rOut ∈ (arrRefs : Finset (DevRef τ sig)) := by decide

/-- At the region's exit the halves are joined again — an input's array is as the region found it — and with the
    result's buffer at what the region computed and the other buffers they are the unscoped buffers. -/
theorem exit_join (c : Dev nD) :
    iprop((dats m 0 c).arrays (fun w => (dats m 0 c).arrAt w cfg0.N) ∗ StableHlo.held (c : Thread nD τ) (allRefs \ arrRefs) (Vin m c))
      ⊢ (StableHlo.held (c : Thread nD τ) allRefs (Vout m c) : sProp 𝕄) := by
  rw [StableHlo.held_sub_split (c : Thread nD τ) arrRefs_sub (Vout m c)]
  refine BIClass.sep_mono ?_ (Entails.of_eq (StableHlo.held_congr (c : Thread nD τ) fun b hb => ?_))
  · unfold StableHlo.held arrRefs Dat.arrays
    rw [bigSep_insert (by decide), bigSep_insert (by decide), bigSep_singleton, bigSep_W0]
    rw [(arr_whole0 0).set_eq_univ, (arr_whole0 2).set_eq_univ, (arr_whole0 4).set_eq_univ]
    dsimp only
    rw [(dats m 0 c).arrAt_in 0 rfl, (dats m 0 c).arrAt_in 1 rfl, (dats m 0 c).arrAt_in 2 rfl, (dats m 0 c).arrAt_in 3 rfl]
    rw [A_eq m c 0, A_eq m c 1, A_eq m c 2, A_eq m c 3]
    rw [show V m c (Pipeline.arrRef spec0 0) = Vin m c rRows from rfl, show V m c (Pipeline.arrRef spec0 2) = Vin m c rInv from rfl]
    rw [show Vout m c rRows = Vin m c rRows from Function.update_of_ne (by decide) _ _,
      show Vout m c rInv = Vin m c rInv from Function.update_of_ne (by decide) _ _,
      show Vout m c rOut = (dats m 0 c).arrAt 4 cfg0.N from Function.update_self _ _ _]
    show _ ⊢ iprop(_ ∗ _ ∗ _)
    iintro ⟨H0, H1, H2, H3, H4⟩
    ihave Hr := (pointsTo_share (PosShare.mem_left_op_right fullShare)).2 $$ [H0 H1]
    · isplitl [H0]; · iexact H0
      iexact H1
    ihave Hi := (pointsTo_share (PosShare.mem_left_op_right fullShare)).2 $$ [H2 H3]
    · isplitl [H2]; · iexact H2
      iexact H3
    isplitl [Hr]; · iexact Hr
    isplitl [Hi]; · iexact Hi
    iexact H4
  · unfold Vout
    rw [Function.update_of_ne]
    intro h; subst h
    exact (Finset.mem_sdiff.mp hb).2 rOut_mem

set_option backward.isDefEq.respectTransparency.types false in
/-- The region: the decided layout (its windows share arrays), no semaphore of the kernel's own, the body's obligation;
    entered from what the operations before it left, left with the result's buffer at what it computed. -/
def region : Pipeline.RegionSeg (pcfgs (F := F)) adm (dats m) () defs₀ Variants.none Lv lvl 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lv lvl 0 fun _ _ => rfl
  pre c := iprop(StableHlo.held (c : Thread nD τ) allRefs (Vin m c) ∗ owesNone c)
  post c := iprop(StableHlo.held (c : Thread nD τ) allRefs (Vout m c) ∗ owesNone c)
  X _ := BI.emp
  Y _ := BI.emp
  Z c := StableHlo.held (c : Thread nD τ) (allRefs \ arrRefs) (Vin m c)
  hentry c := by
    rw [Pipeline.ownSems0_none]
    iintro ⟨⟨Hh, HO⟩, -, -⟩
    ihave H := (entry_split m c) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(∃ d, owns (c : Thread nD τ) mAcc fullShare d) from rfl, scopedRest0_eq]
    simp only [mAcc, owns_whole]
    iintro ⟨-, -, Hr⟩; iexact Hr
  hout c := by
    rw [Pipeline.ownSems0_none, scopedRest0_eq,
      show (dats m 0 c).Φ (Fin.last cfg0.N) = accInv m c cfg0.N (Nat.le_refl _) from rfl,
      accInv_pos m c _ _ (by rw [show cfg0.N = 64 from N_0]; decide)]
    simp only [mAcc, owns_whole]
    iintro Hr
    isplitr; · iempintro
    isplitr; · iempintro
    iexists _; iexact Hr
  hexit c := by
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- The program as the list of the three segments. -/
abbrev segs : List (Pipeline.Seg (pcfgs (F := F)) adm (dats m) () defs₀ Variants.none Lv lvl) :=
  [.host (segBefore m), .region (region m), .host (segAfter m)]

/-- The buffers at the end. -/
abbrev Vfin (c : Dev nD) : Valuation τ sig (Elt F) := StableHlo.after hostOps1 (Vout m c)

set_option backward.isDefEq.respectTransparency.types false in
/-- From any memory with zero counters every weakly fair execution of the program on the TensorCores terminates,
    nothing faulting, and every unscoped buffer ends at what the three segments leave in it. -/
theorem run_main : θ_run defs (onTc (τ := τ) (main (F := F))) ⟨m, fun _ => 0, ρ⟩
    (fun r => ∀ c : Dev nD, ∀ b ∈ (allRefs : Finset (DevRef τ sig)), r.2.mem ((c.tc : Thread nD τ).1, b) = Vfin m c b) :=
  Pipeline.θ_run_regions_kit (pcfgs (F := F)) adm (dats m) () cellOf_inj emb₁ defs₀ Variants.none Lv lvl m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) allRefs (V₀ m c) ∗ owesNone c))
    (Tₙ := fun c => StableHlo.held (c : Thread nD τ) allRefs (Vfin m c))
    (hch := ⟨fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) allRefs (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (allRefs : Finset (DevRef τ sig)), s.mem ((c.tc : Thread nD τ).1, b) = Vfin m c b)
    (hfin := fun c s' => by
      unfold StableHlo.held
      iintro H
      ihave Hr := (pointsTo_read_all (allRefs : Finset (DevRef τ sig)) (fun b => ((c.tc : Thread nD τ).1, b)) (Vfin m c) s') $$ H
      icases Hr with ⟨%hr, HSI⟩
      imodintro
      isplitr; · ipureintro; exact hr
      iexact HSI)
    (hQ := fun _ h => h)

end Cert.KernelIdeal.KFrame

end
-- ==== Proof.KArgs.lean ====
/-
  The argument arrays end as they were launched: no host operation writes them and the region's windows only read
  the arrays built from them. With that the run is the frame claim.
-/
import proofs.«144959_j9036611191122_2_alg».proof.Proof.KLaunch

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem before_keeps_arg0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem before_keeps_arg1 : ∀ op ∈ (hostOps0 : List (HloOp τ sig (Elt F))), Proc.devRef .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem after_keeps_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem after_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (simp only [StableHlo.nullary_writes, StableHlo.unary_writes, StableHlo.binary_writes, StableHlo.ternary_writes, StableHlo.reshape_writes, Finset.mem_singleton]; exact StableHlo.devRef_ne_of_ne (by decide))

theorem Vfin_arg0 (c : Dev nD) : Vfin m c (Proc.devRef .tc main_arg0) = m ((c.tc : Thread nD τ).loc main_arg0) := by
  unfold Vfin
  rw [StableHlo.after_of_forall_not_mem (b := Proc.devRef .tc main_arg0) hostOps1 (Vout m c) after_keeps_arg0]
  unfold Vout
  rw [Function.update_of_ne (by decide)]
  exact StableHlo.after_of_forall_not_mem (b := Proc.devRef .tc main_arg0) hostOps0 (V₀ m c) before_keeps_arg0

theorem Vfin_arg1 (c : Dev nD) : Vfin m c (Proc.devRef .tc main_arg1) = m ((c.tc : Thread nD τ).loc main_arg1) := by
  unfold Vfin
  rw [StableHlo.after_of_forall_not_mem (b := Proc.devRef .tc main_arg1) hostOps1 (Vout m c) after_keeps_arg1]
  unfold Vout
  rw [Function.update_of_ne (by decide)]
  exact StableHlo.after_of_forall_not_mem (b := Proc.devRef .tc main_arg1) hostOps0 (V₀ m c) before_keeps_arg1

theorem mem_arg0 : (Proc.devRef .tc main_arg0 : DevRef τ sig) ∈ (allRefs : Finset (DevRef τ sig)) := by decide
theorem mem_arg1 : (Proc.devRef .tc main_arg1 : DevRef τ sig) ∈ (allRefs : Finset (DevRef τ sig)) := by decide
theorem mem_result : (Proc.devRef .tc main_v50 : DevRef τ sig) ∈ (allRefs : Finset (DevRef τ sig)) := by decide

/-- The program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ mem_arg0).trans (Vfin_arg0 m c), (h c _ mem_arg1).trans (Vfin_arg1 m c)⟩) (run_main m ρ)

end Cert.KernelIdeal.KFrame

end
-- ==== Proof.KValue.lean ====
/-
  What the body's runs leave, as one term of the blocks they load.

  One pass of the body loads the row tile and its inverse norms whole, the column tile and its inverse norms in four
  chunks of 256 rows, and between the chunks reads back the accumulator it has just stored. Read through those
  stores and loads, the value stored last into the accumulator is ONE term of the four blocks and the accumulator the
  pass started from: the four accumulation steps composed. At the first column tile the pass starts from the cleared
  accumulator; at the last the result's block receives the same value.
-/
import proofs.«144959_j9036611191122_2_alg».proof.Proof.KData
import Idealize.ShloMosaic.Lib.Pipeline.Value

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The body's stored value as one term of what it loads -/

theorem hz : (![0, 0] : Fin 2 → Nat) = fun _ => 0 := funext fun a => by fin_cases a <;> rfl

/-- Chunk ch of a column tile: its rows 256 * ch … 256 * ch + 255, as the body loads them. -/
abbrev chunkLd (x1 : Vec F S1024x512 .f32) (ch : Fin 4) : Vec F S256x512 .f32 :=
  View.ld x1 (Rect.unit (s := S1024x512) (k0_off1 (BitVec.ofNat 32 ch.val)) S256x512.size (k0_off1_inb ch))

/-- The inverse norms of chunk ch of a column tile, as the body loads them. -/
abbrev cinvLd (x3 : Vec F S1024x1 .f32) (ch : Fin 4) : Vec F S256x1 .f32 :=
  View.ld x3 (Rect.unit (s := S1024x1) (k0_off2 (BitVec.ofNat 32 ch.val)) S256x1.size (k0_off2_inb ch))

/-- What one pass of the body stores last into the accumulator, of the row tile x0, the column tile x1, their
    inverse norms x2 and x3, and the accumulator acc it starts from. -/
def bodyTerm (i : grid0.Coords) (x0 x1 : Vec F S1024x512 .f32) (x2 x3 : Vec F S1024x1 .f32) (acc : Vec F S1024x1 .f32) :
    Vec F S1024x1 .f32 :=
  k0_pay15 (BitVec.ofNat 32 (i 1).val) (k0_pay2 x0 x2) (k0_pay3 i) (k0_pay4 i) (chunkLd x1 3) (cinvLd x3 3)
    (k0_pay14
      (k0_pay12 (k0_pay10 (BitVec.ofNat 32 (i 1).val) (k0_pay3 i) (k0_pay4 i)) (k0_pay11 (k0_pay2 x0 x2) (chunkLd x1 1) (cinvLd x3 1))
        (k0_pay9 (k0_pay4 i) (k0_pay5 x0 x2 (chunkLd x1 0) (cinvLd x3 0)) (k0_pay6 i) (k0_pay7 i) (k0_pay8 i) acc))
      (k0_pay13 (BitVec.ofNat 32 (i 1).val) (k0_pay2 x0 x2) (k0_pay3 i) (k0_pay4 i) (chunkLd x1 2) (cinvLd x3 2)))

/-! ## What each kind of run leaves, as that term -/

set_option maxHeartbeats 1000000 in
/-- Between the first and the last column tile: the accumulator ends at the body's term of the accumulator it found. -/
theorem runMid_acc (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : ¬atLast i)
    (x0 x1 : Vec F S1024x512 .f32) (x2 x3 : Vec F S1024x1 .f32) (xs : Vec F S1024x1 .f32) :
    View.canon (runMid c i arg2 harg2 arg3 harg3 arg4 harg4 arg5 harg5 arg6 harg6 arg7 harg7 hc0 hc1 x0 x1 x2 x3 xs).2.1 = bodyTerm i x0 x1 x2 x3 xs := by
  unfold runMid
  dsimp only
  sl_unfold_words
  rw [View.canon_cons_unit_zero (S := S1024x1) hz]
  simp only [View.readCov_cons_toLoadRect, View.readAt_eq_ld, harg2.read_unread, harg3.read_unread, harg4.read_unread,
    harg5.read_unread, harg7.read_unread, View.ld_unit_zero (S := S1024x512) hz, View.ld_unit_zero (S := S1024x1) hz]
  rfl

set_option maxHeartbeats 1000000 in
/-- At the first column tile: the accumulator ends at the body's term of the cleared accumulator. -/
theorem runFirst_acc (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : atFirst i) (hc1 : ¬atLast i)
    (x0 x1 : Vec F S1024x512 .f32) (x2 x3 : Vec F S1024x1 .f32) :
    View.canon (runFirst c i arg2 harg2 arg3 harg3 arg4 harg4 arg5 harg5 arg6 harg6 arg7 harg7 hc0 hc1 x0 x1 x2 x3).2.1 = bodyTerm i x0 x1 x2 x3 k0_pay1 := by
  unfold runFirst
  dsimp only
  sl_unfold_words
  rw [View.canon_cons_unit_zero (S := S1024x1) hz]
  simp only [View.readCov_cons_toLoadRect, View.readAt_eq_ld, harg2.read_unread, harg3.read_unread, harg4.read_unread,
    harg5.read_unread, harg7.read_unread, View.ld_unit_zero (S := S1024x512) hz, View.ld_unit_zero (S := S1024x1) hz]
  rfl

set_option maxHeartbeats 1000000 in
/-- At the last column tile the accumulator ends at the same term, -/
theorem runLast_acc (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : atLast i)
    (x0 x1 : Vec F S1024x512 .f32) (x2 x3 : Vec F S1024x1 .f32) (xs : Vec F S1024x1 .f32) :
    View.canon (runLast c i arg2 harg2 arg3 harg3 arg4 harg4 arg5 harg5 arg6 harg6 arg7 harg7 hc0 hc1 x0 x1 x2 x3 xs).2.1 = bodyTerm i x0 x1 x2 x3 xs := by
  unfold runLast
  dsimp only
  sl_unfold_words
  rw [View.canon_cons_unit_zero (S := S1024x1) hz]
  simp only [View.readCov_cons_toLoadRect, View.readAt_eq_ld, harg2.read_unread, harg3.read_unread, harg4.read_unread,
    harg5.read_unread, harg7.read_unread, View.ld_unit_zero (S := S1024x512) hz, View.ld_unit_zero (S := S1024x1) hz]
  rfl

set_option maxHeartbeats 1000000 in
/-- and the result's block receives it. -/
theorem runLast_out (c : Dev nD) (i : grid0.Coords)
    (arg2 : Memref sig .tc .vmem S1024x512 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬atFirst i) (hc1 : atLast i)
    (x0 x1 : Vec F S1024x512 .f32) (x2 x3 : Vec F S1024x1 .f32) (xs : Vec F S1024x1 .f32) :
    View.canon (runLast c i arg2 harg2 arg3 harg3 arg4 harg4 arg5 harg5 arg6 harg6 arg7 harg7 hc0 hc1 x0 x1 x2 x3 xs).1 = bodyTerm i x0 x1 x2 x3 xs := by
  unfold runLast
  dsimp only
  sl_unfold_words
  rw [View.canon_unit_zero (S := S1024x1) hz]
  simp only [View.readCov_cons_toLoadRect, View.readAt_eq_ld, harg2.read_unread, harg3.read_unread, harg4.read_unread,
    harg5.read_unread, harg7.read_unread, View.ld_unit_zero (S := S1024x512) hz, View.ld_unit_zero (S := S1024x1) hz]
  rfl

/-! ## What each kind of grid point leaves -/

/-- Between the first and the last column tile the accumulator is left at the body's term of the point's blocks and the
    accumulator handed on. -/
theorem leftMid_snd (c : Dev nD) (t : Fin cfg0.N) (h0 : ¬t.val % 8 = 0) (h1 : ¬t.val % 8 = 7) (xs : Vec F S1024x1 .f32) :
    (leftMid m c t h0 h1 xs).2
      = bodyTerm (grid0.coords t) (blk m c 0 t) (blk m c 1 t) (blk m c 2 t) (blk m c 3 t) xs := by
  unfold leftMid
  dsimp only
  rw [View.read_writes_junk_eq_canon]
  exact runMid_acc c (grid0.coords t) (mRows t) (hRows t) (mCols t) (hCols t) (mRinv t) (hRinv t) (mCinv t) (hCinv t)
    (mOut t) (hOut t) mAcc (Memref.isWhole_whole _) _ _ (blk m c 0 t) (blk m c 1 t) (blk m c 2 t) (blk m c 3 t) xs

/-- At the first column tile it is left at the body's term of the point's blocks and the cleared accumulator. -/
theorem leftFirst_snd (c : Dev nD) (t : Fin cfg0.N) (h0 : t.val % 8 = 0) (h1 : ¬t.val % 8 = 7) :
    (leftFirst m c t h0 h1).2
      = bodyTerm (grid0.coords t) (blk m c 0 t) (blk m c 1 t) (blk m c 2 t) (blk m c 3 t) k0_pay1 := by
  unfold leftFirst
  dsimp only
  rw [View.read_writes_junk_eq_canon]
  exact runFirst_acc c (grid0.coords t) (mRows t) (hRows t) (mCols t) (hCols t) (mRinv t) (hRinv t) (mCinv t) (hCinv t)
    (mOut t) (hOut t) mAcc (Memref.isWhole_whole _) _ _ (blk m c 0 t) (blk m c 1 t) (blk m c 2 t) (blk m c 3 t)

/-- At the last column tile the accumulator is left at the same term, -/
theorem leftLast_snd (c : Dev nD) (t : Fin cfg0.N) (h0 : ¬t.val % 8 = 0) (h1 : t.val % 8 = 7) (xs : Vec F S1024x1 .f32) :
    (leftLast m c t h0 h1 xs).2
      = bodyTerm (grid0.coords t) (blk m c 0 t) (blk m c 1 t) (blk m c 2 t) (blk m c 3 t) xs := by
  unfold leftLast
  dsimp only
  rw [View.read_writes_junk_eq_canon]
  exact runLast_acc c (grid0.coords t) (mRows t) (hRows t) (mCols t) (hCols t) (mRinv t) (hRinv t) (mCinv t) (hCinv t)
    (mOut t) (hOut t) mAcc (Memref.isWhole_whole _) _ _ (blk m c 0 t) (blk m c 1 t) (blk m c 2 t) (blk m c 3 t) xs

/-- and so is the result's block. -/
theorem leftLast_fst (c : Dev nD) (t : Fin cfg0.N) (h0 : ¬t.val % 8 = 0) (h1 : t.val % 8 = 7) (xs : Vec F S1024x1 .f32) :
    (leftLast m c t h0 h1 xs).1
      = bodyTerm (grid0.coords t) (blk m c 0 t) (blk m c 1 t) (blk m c 2 t) (blk m c 3 t) xs := by
  unfold leftLast
  dsimp only
  rw [View.read_writes_junk_eq_canon]
  exact runLast_out c (grid0.coords t) (mRows t) (hRows t) (mCols t) (hCols t) (mRinv t) (hRinv t) (mCinv t) (hCinv t)
    (mOut t) (hOut t) mAcc (Memref.isWhole_whole _) _ _ (blk m c 0 t) (blk m c 1 t) (blk m c 2 t) (blk m c 3 t) xs

end Cert.KernelIdeal.KFrame

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«144959_j9036611191122_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KSpec.lean ====
/-
  The masked, scaled exponential row sum of one column chunk, as a function of the loaded tiles.

  A row tile holds 1024 rows of 512 entries (x3) with one inverse norm per row (x5); a column chunk holds 256
  rows of 512 entries (y) with one inverse norm per row (w). Row p of the tile is global row 1024*i0 + p; row q
  of chunk ch of column tile i1 is global row 1024*i1 + 256*ch + q. The similarity of the two normalised rows is
  the sum over k of (x3(p,k) * x5(p,0)) * (y(q,k) * w(q,0)); it is scaled by 1/D = 134217728/13421773 and
  exponentiated. The chunk's contribution to row p is the sum of these exponentials over the 256 columns q,
  leaving out the column that is the row itself and the column that is the row's positive partner
  (row + 4096 mod 8192).
-/
import Idealize.ShloMosaic.PureOps.Ideal
import Idealize.ShloMosaic.Lib.ValueIdx

noncomputable section

namespace Cert.Spec.Ker

open Idealize.ShloMosaic Idealize.ShloMosaic.ValueIdx

/-- The scale 1/D as an extended real. -/
def invTau : EReal := ((134217728 / 13421773 : ℝ) : EReal)

/-- The scaled similarity of row p of the row tile and row q of the column chunk. -/
def sim (x3 : (⟨2, ![1024, 512]⟩ : Shape).Idx → EReal) (x5 : (⟨2, ![1024, 1]⟩ : Shape).Idx → EReal)
    (y : (⟨2, ![256, 512]⟩ : Shape).Idx → EReal) (w : (⟨2, ![256, 1]⟩ : Shape).Idx → EReal)
    (p : Fin 1024) (q : Fin 256) : EReal :=
  (∑ k : Fin 512, (x3 (ix2 p k) * x5 (ix2 p (0 : Fin 1))) * (y (ix2 q k) * w (ix2 q (0 : Fin 1)))) * invTau

/-- Column q of chunk ch of column tile i1 is excluded from row p of row tile i0: it is the row itself, or
    the row's positive partner. -/
def excluded (i0 i1 ch : ℕ) (p : Fin 1024) (q : Fin 256) : Prop :=
  1024 * i0 + p.val = 1024 * i1 + 256 * ch + q.val ∨ 1024 * i1 + 256 * ch + q.val = (1024 * i0 + p.val + 4096) % 8192

instance (i0 i1 ch : ℕ) (p : Fin 1024) (q : Fin 256) : Decidable (excluded i0 i1 ch p q) := by
  unfold excluded; infer_instance

/-- The chunk's contribution to row p. -/
def chunk (i0 i1 ch : ℕ) (x3 : (⟨2, ![1024, 512]⟩ : Shape).Idx → EReal) (x5 : (⟨2, ![1024, 1]⟩ : Shape).Idx → EReal)
    (y : (⟨2, ![256, 512]⟩ : Shape).Idx → EReal) (w : (⟨2, ![256, 1]⟩ : Shape).Idx → EReal) (p : Fin 1024) : EReal :=
  ∑ q : Fin 256, if excluded i0 i1 ch p q then 0 else Ideal.exp (sim x3 x5 y w p q)

end Cert.Spec.Ker

end
-- ==== Proof.KBodyWords.lean ====
/-
  The integer words of the row-sum body, as natural numbers.

  The body numbers rows and columns globally. A row word is 1024 * (row tile) + (row inside the tile); a
  column word is 1024 * (column tile) + 256 * (chunk) + (column inside the chunk); the positive partner of
  row r < 8192 is r + 4096 reduced below 8192 by one conditional subtraction. All of these are below 2^14, so
  the 32-bit words are the naturals themselves, and two such words are equal exactly when the naturals are.
-/
import Idealize.ShloMosaic.PureOps.Ideal
import Idealize.ShloMosaic.Lib.ValueIdx

namespace Cert.KernelIdeal.KBody

open Idealize.ShloMosaic

/-- The row word: tile number times 1024 plus the row inside the tile. -/
theorem rowWord (a p : ℕ) :
    IntOp.addi (Scalar.muli (BitVec.ofNat 32 a) 1024#32) (BitVec.ofNat 32 p) = BitVec.ofNat 32 (1024 * a + p) := by
  unfold IntOp.addi Scalar.muli IntOp.muli
  rw [Nat.mul_comm 1024 a, BitVec.ofNat_add, BitVec.ofNat_mul]

/-- The column word: tile number times 1024 plus chunk number times 256 plus the column inside the chunk. -/
theorem colWord (a ch q : ℕ) :
    IntOp.addi (Scalar.addi (Scalar.muli (BitVec.ofNat 32 a) 1024#32) (Scalar.muli (BitVec.ofNat 32 ch) 256#32)) (BitVec.ofNat 32 q)
      = BitVec.ofNat 32 (1024 * a + 256 * ch + q) := by
  unfold IntOp.addi Scalar.addi IntOp.addi Scalar.muli IntOp.muli
  rw [Nat.mul_comm 1024 a, Nat.mul_comm 256 ch, BitVec.ofNat_add, BitVec.ofNat_add, BitVec.ofNat_mul, BitVec.ofNat_mul]

/-- The positive partner's word: r + 4096, less 8192 when that is at least 8192, is (r + 4096) mod 8192 for r < 8192. -/
theorem posWord (r : ℕ) (hr : r < 8192) :
    Scalar.select (IntOp.cmpi .sge (IntOp.addi (BitVec.ofNat 32 r) 4096#32) 8192#32)
        (IntOp.subi (IntOp.addi (BitVec.ofNat 32 r) 4096#32) 8192#32) (IntOp.addi (BitVec.ofNat 32 r) 4096#32)
      = BitVec.ofNat 32 ((r + 4096) % 8192) := by
  have e : IntOp.addi (BitVec.ofNat 32 r) 4096#32 = BitVec.ofNat 32 (r + 4096) := by
    unfold IntOp.addi; rw [BitVec.ofNat_add]
  rw [e]
  unfold Scalar.select IntOp.cmpi IntOp.subi
  by_cases h : r + 4096 < 8192
  · have : ¬ ((8192#32).sle (BitVec.ofNat 32 (r + 4096)) = true) := by
      simp [BitVec.sle, BitVec.toInt_eq_toNat_cond]; omega
    simp [this]
    congr 1; omega
  · have : ((8192#32).sle (BitVec.ofNat 32 (r + 4096)) = true) := by
      simp [BitVec.sle, BitVec.toInt_eq_toNat_cond]; omega
    simp [this]
    apply BitVec.eq_of_toNat_eq
    simp [BitVec.toNat_sub]; omega

/-- Two words of naturals below 2^32 are equal exactly when the naturals are. -/
theorem ofNat_beq (a b : ℕ) (ha : a < 2 ^ 32) (hb : b < 2 ^ 32) :
    (BitVec.ofNat 32 a == BitVec.ofNat 32 b) = decide (a = b) := by
  by_cases h : a = b
  · subst h; simp
  · have : BitVec.ofNat 32 a ≠ BitVec.ofNat 32 b := fun e => h (by
      have := congrArg BitVec.toNat e
      simp [BitVec.toNat_ofNat] at this; omega)
    simp [this, h]

/-- The exclusion bit: "row word = column word, or column word = partner word" is set exactly when one of the two
    equalities holds between the naturals. -/
theorem mask_iff (a b c : ℕ) (ha : a < 2 ^ 32) (hb : b < 2 ^ 32) (hc : c < 2 ^ 32) :
    IntOp.ori (IntOp.cmpi .eq (BitVec.ofNat 32 a) (BitVec.ofNat 32 b)) (IntOp.cmpi .eq (BitVec.ofNat 32 b) (BitVec.ofNat 32 c)) = 1#1
      ↔ (a = b ∨ b = c) := by
  have hbool : ∀ x y : Bool, (BitVec.ofBool x ||| BitVec.ofBool y = 1#1) ↔ (x = true ∨ y = true) := by decide
  unfold IntOp.ori IntOp.cmpi
  simp only [ofNat_beq a b ha hb, ofNat_beq b c hb hc]
  rw [hbool, decide_eq_true_eq, decide_eq_true_eq]

end Cert.KernelIdeal.KBody
-- ==== Proof.KBodyStep.lean ====
/-
  One chunk's step of the row-sum body, read at a row.

  The body treats its four column chunks alike: the normalised row tile is multiplied with the transposed
  normalised chunk, the products are scaled by 1/D and exponentiated, the entries whose column is the row itself
  or the row's positive partner are replaced by zero, each row is summed over the chunk's 256 columns, and the
  column of row sums is added to the accumulator. The pieces of that step are named here once, each is read at an
  index, and the step at row p is the accumulator at p plus the chunk's masked sum.
-/
import proofs.«144959_j9036611191122_2_alg».proof.Proof.Gen.KernelIdeal.Skeleton
import Idealize.ShloMosaic.Lib.ValueLayout
import proofs.«144959_j9036611191122_2_alg».proof.Proof.LibColumnLayout
import proofs.«144959_j9036611191122_2_alg».proof.Proof.LibPlainMatmul
import proofs.«144959_j9036611191122_2_alg».proof.Proof.KSpec
import proofs.«144959_j9036611191122_2_alg».proof.Proof.KBodyWords

noncomputable section

namespace Cert.KernelIdeal.KBody

open Idealize.ShloMosaic Idealize.ShloMosaic.ValueIdx Cert.KernelIdeal Cert.KernelIdeal.Gen

/-! ## The pieces of a step -/

/-- The global column numbers of chunk `c` of column tile `arg1`, as a row of 256 words. -/
def colWords (arg1 c : BitVec 32) : IVec S1x256 32 :=
  addi (broadcast S1x256 (Scalar.addi (Scalar.muli arg1 1024#32) (Scalar.muli c 256#32)))
    (iota .tc S1x256 32 [1] iota_S1x256_d1_w32)

/-- The exclusion mask of a chunk: the column is the row, or the column is the row's partner. -/
def mask (v13 v20 : IVec S1024x1 32) (col : IVec S1x256 32) : IVec S1024x256 1 :=
  ori (cmpi .eq (broadcastTo S1024x256 v13 broadcasts_S1024x1_S1024x256) (broadcastTo S1024x256 col broadcasts_S1x256_S1024x256))
    (cmpi .eq (broadcastTo S1024x256 col broadcasts_S1x256_S1024x256) (broadcastTo S1024x256 v20 broadcasts_S1024x1_S1024x256))

/-- The similarities of the normalised row tile with a chunk: the chunk scaled by its inverse norms, transposed, and
    multiplied from the left by the row tile. -/
def scores (v9 : FVec Ideal S1024x512 .bf16) (y : Vec Ideal S256x512 .f32) (w : Vec Ideal S256x1 .f32) :
    FVec Ideal S1024x256 .f32 :=
  matmul dot_S1024x512_S512x256_S1024x256_1_0_0_1_n_n none v9
    (transpose S512x256 [1, 0]
      (truncf .bf16 (mulf (shapeCast S256x512 y shapeCasts_S256x512_S256x512)
        (broadcastTo S256x512 (shapeCast S256x1 w shapeCasts_S256x1_S256x1) broadcasts_S256x1_S256x512)) bitsLt_bf16_f32)
      transposes_S256x512_p1_0_S512x256)
    (constant S1024x256 .f32 0x00000000#32)

/-- The scaled exponentials of the similarities. -/
def expo (s : FVec Ideal S1024x256 .f32) : FVec Ideal S1024x256 .f32 :=
  exp (mulf s (broadcast S1024x256 (Named.named κ "inv_tau" 0x41200000#32)))

/-- The masked row sums of a chunk added to the accumulator. -/
def accum (m : IVec S1024x256 1) (e : FVec Ideal S1024x256 .f32) (acc : Vec Ideal S1024x1 .f32) : FVec Ideal S1024x1 .f32 :=
  shapeCast S1024x1
    (addf acc (shapeCast S1024x1
      (multiReduction .add [1] S1024 (select m (broadcast S1024x256 (Scalar.ofBits .f32 0x00000000#32)) e) 0x00000000#32
        reduces_S1024x256_S1024 (.inl rfl) rfl) shapeCasts_S1024_S1024x1))
    shapeCasts_S1024x1_S1024x1

/-! ## The body's payloads are these pieces -/

theorem pay9_eq (i : grid0.Coords) (v3 : Vec Ideal S1024x512 .f32) (v5 : Vec Ideal S1024x1 .f32)
    (v24 : Vec Ideal S256x512 .f32) (v27 : Vec Ideal S256x1 .f32) (acc : Vec Ideal S1024x1 .f32) :
    k0_pay9 (F := Ideal) (k0_pay4 i) (k0_pay5 v3 v5 v24 v27) (k0_pay6 i) (k0_pay7 i) (k0_pay8 i) acc
      = accum (mask (k0_pay3 i) (k0_pay4 i) (colWords (BitVec.ofNat 32 (i 1).val) 0#32))
          (expo (scores (k0_pay2 v3 v5) v24 v27)) acc := rfl

theorem pay12_eq (arg1 : BitVec 32) (v9 : FVec Ideal S1024x512 .bf16) (v13 v20 : IVec S1024x1 32)
    (v61 : Vec Ideal S256x512 .f32) (v64 : Vec Ideal S256x1 .f32) (acc : Vec Ideal S1024x1 .f32) :
    k0_pay12 (F := Ideal) (k0_pay10 arg1 v13 v20) (k0_pay11 v9 v61 v64) acc
      = accum (mask v13 v20 (colWords arg1 1#32)) (expo (scores v9 v61 v64)) acc := rfl

theorem pay14_eq (arg1 : BitVec 32) (v9 : FVec Ideal S1024x512 .bf16) (v13 v20 : IVec S1024x1 32)
    (v98 : Vec Ideal S256x512 .f32) (v101 : Vec Ideal S256x1 .f32) (acc : Vec Ideal S1024x1 .f32) :
    k0_pay14 (F := Ideal) acc (k0_pay13 arg1 v9 v13 v20 v98 v101)
      = accum (mask v13 v20 (colWords arg1 2#32)) (expo (scores v9 v98 v101)) acc := rfl

theorem pay15_eq (arg1 : BitVec 32) (v9 : FVec Ideal S1024x512 .bf16) (v13 v20 : IVec S1024x1 32)
    (v135 : Vec Ideal S256x512 .f32) (v138 : Vec Ideal S256x1 .f32) (acc : Vec Ideal S1024x1 .f32) :
    k0_pay15 (F := Ideal) arg1 v9 v13 v20 v135 v138 acc
      = accum (mask v13 v20 (colWords arg1 3#32)) (expo (scores v9 v135 v138)) acc := rfl

end Cert.KernelIdeal.KBody

end
-- ==== Proof.KBodyRead.lean ====
/-
  The pieces of a chunk's step read at an index, and the step at a row.

  At row p of the row tile and column q of a chunk: the normalised row tile is x3(p,k) * x5(p,0); the similarity is
  the sum over k of that times y(q,k) * w(q,0); the named scale is 1/D; the mask bit compares the row's global
  number with the column's, and the column's with the partner's; the accumulator gains the sum over q of the
  exponentials that are not masked.
-/
import proofs.«144959_j9036611191122_2_alg».proof.Proof.KBodyStep

noncomputable section

namespace Cert.KernelIdeal.KBody

open Idealize.ShloMosaic Idealize.ShloMosaic.ValueIdx Cert.KernelIdeal Cert.KernelIdeal.Gen Cert.Spec.Ker

/-! ## The float pieces -/

/-- The named scale is 1/D. -/
theorem inv_tau : Named.named (F := Ideal) κ "inv_tau" (φ := .f32) 0x41200000#32 = invTau :=
  IdealRules.named_const.ideal_named_scalar _ _ _ _ rfl

/-- The cleared accumulator is zero at every row. -/
theorem pay1_apply (p : Fin 1024) : k0_pay1 (F := Ideal) (ix2 p (0 : Fin 1)) = 0 := by
  unfold k0_pay1
  rw [shapeCast_self]
  exact Ideal.ofBits_zero_f32

/-- The normalised row tile at (p, k): the entry times the row's inverse norm. -/
theorem pay2_apply (v3 : Vec Ideal S1024x512 .f32) (v5 : Vec Ideal S1024x1 .f32) (p : Fin 1024) (k : Fin 512) :
    k0_pay2 (F := Ideal) v3 v5 (ix2 p k) = v3 (ix2 p k) * v5 (ix2 p (0 : Fin 1)) := by
  unfold k0_pay2
  show shapeCast S1024x512 v3 shapeCasts_S1024x512_S1024x512 (ix2 p k)
      * broadcastTo S1024x512 (shapeCast S1024x1 v5 shapeCasts_S1024x1_S1024x1) broadcasts_S1024x1_S1024x512 (ix2 p k) = _
  rw [shapeCast_self, shapeCast_self, Cert.LibColumnLayout.broadcastTo_a1_ab_apply]

/-- The similarities at (p, q): the sum over k of the row tile's entry times the chunk's normalised entry. -/
theorem scores_apply (v9 : FVec Ideal S1024x512 .bf16) (y : Vec Ideal S256x512 .f32) (w : Vec Ideal S256x1 .f32)
    (p : Fin 1024) (q : Fin 256) :
    scores v9 y w (ix2 p q) = ∑ l : Fin 512, v9 (ix2 p l) * (y (ix2 q l) * w (ix2 q (0 : Fin 1))) := by
  unfold scores
  refine (PlainMatmul.plain_matmul_zero_apply 1024 512 256 none v9 _ p q).trans ?_
  refine Finset.sum_congr rfl fun l _ => congrArg (v9 (ix2 p l) * ·) ?_
  refine (transpose_ix2_apply _ _ l q).trans ?_
  show shapeCast S256x512 y shapeCasts_S256x512_S256x512 (ix2 q l)
      * broadcastTo S256x512 (shapeCast S256x1 w shapeCasts_S256x1_S256x1) broadcasts_S256x1_S256x512 (ix2 q l) = _
  rw [shapeCast_self, shapeCast_self, Cert.LibColumnLayout.broadcastTo_a1_ab_apply]

/-- The accumulation at row p: the accumulator plus the sum over the chunk's columns of the unmasked entries. -/
theorem accum_apply (m : IVec S1024x256 1) (e : FVec Ideal S1024x256 .f32) (acc : Vec Ideal S1024x1 .f32) (p : Fin 1024) :
    accum m e acc (ix2 p (0 : Fin 1))
      = acc (ix2 p (0 : Fin 1)) + ∑ q : Fin 256, if m (ix2 p q) = 1#1 then 0 else e (ix2 p q) := by
  unfold accum
  rw [shapeCast_self]
  refine congrArg (acc (ix2 p (0 : Fin 1)) + ·) ?_
  refine (Cert.LibColumnLayout.shapeCast_a_a1_apply _ _ p (0 : Fin 1)).trans ?_
  refine (Cert.LibColumnLayout.multiReduction_add_rows_apply _ _ _ _ _ p).trans ?_
  refine Finset.sum_congr rfl fun q _ => ?_
  show (if m (ix2 p q) = 1#1 then Ideal.ofBits .f32 0x00000000#32 else e (ix2 p q)) = _
  rw [Ideal.ofBits_zero_f32]

/-! ## The integer pieces -/

/-- The row numbers: row p of row tile i 0 is global row 1024 * i 0 + p. -/
theorem pay3_apply (i : grid0.Coords) (p : Fin 1024) :
    k0_pay3 i (ix2 p (0 : Fin 1)) = BitVec.ofNat 32 (1024 * (i 0).val + p.val) := by
  unfold k0_pay3
  show IntOp.addi (Scalar.muli (BitVec.ofNat 32 (i 0).val) 1024#32)
      (iota .tc S1024x1 32 [0] iota_S1024x1_d0_w32 (ix2 p (0 : Fin 1))) = _
  rw [iota_single_apply]
  exact rowWord (i 0).val p.val

/-- The partner numbers: the partner of global row r is (r + 4096) mod 8192. -/
theorem pay4_apply (i : grid0.Coords) (p : Fin 1024) :
    k0_pay4 i (ix2 p (0 : Fin 1)) = BitVec.ofNat 32 ((1024 * (i 0).val + p.val + 4096) % 8192) := by
  unfold k0_pay4
  show Scalar.select (IntOp.cmpi .sge (IntOp.addi (k0_pay3 i (ix2 p (0 : Fin 1))) 4096#32) 8192#32)
      (IntOp.subi (IntOp.addi (k0_pay3 i (ix2 p (0 : Fin 1))) 4096#32) 8192#32)
      (IntOp.addi (k0_pay3 i (ix2 p (0 : Fin 1))) 4096#32) = _
  rw [pay3_apply]
  have h0 : (i 0).val < 8 := (i 0).isLt
  have hp := p.isLt
  exact posWord _ (by omega)

/-- The column numbers: column q of chunk ch of column tile a is global row 1024 * a + 256 * ch + q. -/
theorem colWords_apply (a ch : ℕ) (q : Fin 256) :
    colWords (BitVec.ofNat 32 a) (BitVec.ofNat 32 ch) (ix2 (0 : Fin 1) q) = BitVec.ofNat 32 (1024 * a + 256 * ch + q.val) := by
  unfold colWords
  show IntOp.addi (Scalar.addi (Scalar.muli (BitVec.ofNat 32 a) 1024#32) (Scalar.muli (BitVec.ofNat 32 ch) 256#32))
      (iota .tc S1x256 32 [1] iota_S1x256_d1_w32 (ix2 (0 : Fin 1) q)) = _
  rw [iota_single_apply]
  exact colWord a ch q.val

/-- The first chunk's column numbers, as the body's first part computes them. -/
theorem pay6_apply (i : grid0.Coords) (q : Fin 256) :
    k0_pay6 i (ix2 (0 : Fin 1) q) = BitVec.ofNat 32 (1024 * (i 1).val + 256 * 0 + q.val) :=
  colWords_apply (i 1).val 0 q

/-- The mask bit at (p, q): the row's number against the column's, or the column's against the partner's. -/
theorem mask_apply (v13 v20 : IVec S1024x1 32) (col : IVec S1x256 32) (p : Fin 1024) (q : Fin 256) :
    mask v13 v20 col (ix2 p q)
      = IntOp.ori (IntOp.cmpi .eq (v13 (ix2 p (0 : Fin 1))) (col (ix2 (0 : Fin 1) q)))
          (IntOp.cmpi .eq (col (ix2 (0 : Fin 1) q)) (v20 (ix2 p (0 : Fin 1)))) := by
  unfold mask
  show IntOp.ori
      (IntOp.cmpi .eq (broadcastTo S1024x256 v13 broadcasts_S1024x1_S1024x256 (ix2 p q))
        (broadcastTo S1024x256 col broadcasts_S1x256_S1024x256 (ix2 p q)))
      (IntOp.cmpi .eq (broadcastTo S1024x256 col broadcasts_S1x256_S1024x256 (ix2 p q))
        (broadcastTo S1024x256 v20 broadcasts_S1024x1_S1024x256 (ix2 p q))) = _
  rw [Cert.LibColumnLayout.broadcastTo_a1_ab_apply v13, Cert.LibColumnLayout.broadcastTo_a1_ab_apply v20,
    broadcastTo_1b_ab_apply col]

/-! ## The step at a row -/

/-- One chunk's step at row p: the accumulator at p plus the chunk's masked sum of scaled exponentials. The row
    tile's normalised entries, the row numbers and the partner numbers enter as what they are at row p. -/
theorem step_apply (a0 a1 ch : ℕ) (ha0 : a0 < 8) (ha1 : a1 < 8) (hch : ch < 4)
    (v3 : Vec Ideal S1024x512 .f32) (v5 : Vec Ideal S1024x1 .f32) (v9 : FVec Ideal S1024x512 .bf16)
    (v13 v20 : IVec S1024x1 32) (y : Vec Ideal S256x512 .f32) (w : Vec Ideal S256x1 .f32)
    (acc : Vec Ideal S1024x1 .f32) (p : Fin 1024)
    (h9 : ∀ k : Fin 512, v9 (ix2 p k) = v3 (ix2 p k) * v5 (ix2 p (0 : Fin 1)))
    (h13 : v13 (ix2 p (0 : Fin 1)) = BitVec.ofNat 32 (1024 * a0 + p.val))
    (h20 : v20 (ix2 p (0 : Fin 1)) = BitVec.ofNat 32 ((1024 * a0 + p.val + 4096) % 8192)) :
    accum (mask v13 v20 (colWords (BitVec.ofNat 32 a1) (BitVec.ofNat 32 ch))) (expo (scores v9 y w)) acc (ix2 p (0 : Fin 1))
      = acc (ix2 p (0 : Fin 1)) + chunk a0 a1 ch v3 v5 y w p := by
  rw [accum_apply]
  refine congrArg (acc (ix2 p (0 : Fin 1)) + ·) ?_
  unfold chunk
  refine Finset.sum_congr rfl fun q _ => ?_
  have hp := p.isLt
  have hq := q.isLt
  have hm : (mask v13 v20 (colWords (BitVec.ofNat 32 a1) (BitVec.ofNat 32 ch)) (ix2 p q) = 1#1) ↔ excluded a0 a1 ch p q := by
    rw [mask_apply, colWords_apply, h13, h20]
    exact mask_iff _ _ _ (by omega) (by omega) (by omega)
  have he : expo (scores v9 y w) (ix2 p q) = Ideal.exp (sim v3 v5 y w p q) := by
    show Ideal.exp (scores v9 y w (ix2 p q) * Named.named (F := Ideal) κ "inv_tau" (φ := .f32) 0x41200000#32) = _
    rw [inv_tau, scores_apply]
    unfold sim
    simp only [h9]
  rw [he]
  exact if_congr hm rfl rfl

end Cert.KernelIdeal.KBody

end
-- ==== Proof.KBody.lean ====
/-
  The row-sum body at a row: the incoming accumulator plus the four chunks' masked sums.

  One pass of the body at grid point (i 0, i 1) reads the accumulator, and four times over — once per chunk of 256
  columns of its column tile — adds the chunk's masked sum of scaled exponentials and stores the accumulator back.
  Each of the four stored values is, at row p, the accumulator it read plus its chunk's contribution; composed, the
  value stored last is the accumulator that came in plus the contributions of chunks 0, 1, 2, 3 in that order of
  addition.
-/
import proofs.«144959_j9036611191122_2_alg».proof.Proof.KBodyRead

noncomputable section

namespace Cert.KernelIdeal.KBody

open Idealize.ShloMosaic Idealize.ShloMosaic.ValueIdx Cert.KernelIdeal Cert.KernelIdeal.Gen Cert.Spec.Ker

variable (i : grid0.Coords) (v3 : Vec Ideal S1024x512 .f32) (v5 : Vec Ideal S1024x1 .f32)

/-- The first stored value at row p: the accumulator read plus chunk 0's contribution. -/
theorem store0_apply (v24 : Vec Ideal S256x512 .f32) (v27 : Vec Ideal S256x1 .f32) (acc : Vec Ideal S1024x1 .f32) (p : Fin 1024) :
    k0_pay9 (F := Ideal) (k0_pay4 i) (k0_pay5 v3 v5 v24 v27) (k0_pay6 i) (k0_pay7 i) (k0_pay8 i) acc (ix2 p (0 : Fin 1))
      = acc (ix2 p (0 : Fin 1)) + chunk (i 0).val (i 1).val 0 v3 v5 v24 v27 p := by
  rw [pay9_eq]
  exact step_apply (i 0).val (i 1).val 0 (i 0).isLt (i 1).isLt (by omega) v3 v5 _ _ _ v24 v27 acc p
    (pay2_apply v3 v5 p) (pay3_apply i p) (pay4_apply i p)

/-- The second stored value at row p: the accumulator read plus chunk 1's contribution. -/
theorem store1_apply (v61 : Vec Ideal S256x512 .f32) (v64 : Vec Ideal S256x1 .f32) (acc : Vec Ideal S1024x1 .f32) (p : Fin 1024) :
    k0_pay12 (F := Ideal) (k0_pay10 (BitVec.ofNat 32 (i 1).val) (k0_pay3 i) (k0_pay4 i)) (k0_pay11 (k0_pay2 v3 v5) v61 v64) acc
        (ix2 p (0 : Fin 1))
      = acc (ix2 p (0 : Fin 1)) + chunk (i 0).val (i 1).val 1 v3 v5 v61 v64 p := by
  rw [pay12_eq]
  exact step_apply (i 0).val (i 1).val 1 (i 0).isLt (i 1).isLt (by omega) v3 v5 _ _ _ v61 v64 acc p
    (pay2_apply v3 v5 p) (pay3_apply i p) (pay4_apply i p)

/-- The third stored value at row p: the accumulator read plus chunk 2's contribution. -/
theorem store2_apply (v98 : Vec Ideal S256x512 .f32) (v101 : Vec Ideal S256x1 .f32) (acc : Vec Ideal S1024x1 .f32) (p : Fin 1024) :
    k0_pay14 (F := Ideal) acc (k0_pay13 (BitVec.ofNat 32 (i 1).val) (k0_pay2 v3 v5) (k0_pay3 i) (k0_pay4 i) v98 v101)
        (ix2 p (0 : Fin 1))
      = acc (ix2 p (0 : Fin 1)) + chunk (i 0).val (i 1).val 2 v3 v5 v98 v101 p := by
  rw [pay14_eq]
  exact step_apply (i 0).val (i 1).val 2 (i 0).isLt (i 1).isLt (by omega) v3 v5 _ _ _ v98 v101 acc p
    (pay2_apply v3 v5 p) (pay3_apply i p) (pay4_apply i p)

/-- The fourth stored value at row p: the accumulator read plus chunk 3's contribution. -/
theorem store3_apply (v135 : Vec Ideal S256x512 .f32) (v138 : Vec Ideal S256x1 .f32) (acc : Vec Ideal S1024x1 .f32) (p : Fin 1024) :
    k0_pay15 (F := Ideal) (BitVec.ofNat 32 (i 1).val) (k0_pay2 v3 v5) (k0_pay3 i) (k0_pay4 i) v135 v138 acc (ix2 p (0 : Fin 1))
      = acc (ix2 p (0 : Fin 1)) + chunk (i 0).val (i 1).val 3 v3 v5 v135 v138 p := by
  rw [pay15_eq]
  exact step_apply (i 0).val (i 1).val 3 (i 0).isLt (i 1).isLt (by omega) v3 v5 _ _ _ v135 v138 acc p
    (pay2_apply v3 v5 p) (pay3_apply i p) (pay4_apply i p)

/-- The body's four accumulations composed, at row p. -/
theorem body_apply (v24 v61 v98 v135 : Vec Ideal S256x512 .f32) (v27 v64 v101 v138 : Vec Ideal S256x1 .f32)
    (acc : Vec Ideal S1024x1 .f32) (p : Fin 1024) :
    k0_pay15 (F := Ideal) (BitVec.ofNat 32 (i 1).val) (k0_pay2 v3 v5) (k0_pay3 i) (k0_pay4 i) v135 v138
        (k0_pay14
          (k0_pay12 (k0_pay10 (BitVec.ofNat 32 (i 1).val) (k0_pay3 i) (k0_pay4 i)) (k0_pay11 (k0_pay2 v3 v5) v61 v64)
            (k0_pay9 (k0_pay4 i) (k0_pay5 v3 v5 v24 v27) (k0_pay6 i) (k0_pay7 i) (k0_pay8 i) acc))
          (k0_pay13 (BitVec.ofNat 32 (i 1).val) (k0_pay2 v3 v5) (k0_pay3 i) (k0_pay4 i) v98 v101))
        (ix2 p (0 : Fin 1))
      = acc (ix2 p (0 : Fin 1))
        + chunk (i 0).val (i 1).val 0 v3 v5 v24 v27 p
        + chunk (i 0).val (i 1).val 1 v3 v5 v61 v64 p
        + chunk (i 0).val (i 1).val 2 v3 v5 v98 v101 p
        + chunk (i 0).val (i 1).val 3 v3 v5 v135 v138 p := by
  rw [store3_apply, store2_apply, store1_apply, store0_apply]

end Cert.KernelIdeal.KBody

end
-- ==== Proof.TileSpec.lean ====
/-
  The region's result as a formula of the two arrays its windows read.

  Z : [8192, 512] is the array of raw rows and W : [8192] the array of inverse norms. Row tile i holds rows
  1024*i … 1024*i + 1023; chunk ch of column tile j holds rows 1024*j + 256*ch … + 255. The accumulator of row tile i
  starts at zero and receives, column tile after column tile, the four chunk sums; after the eighth it is the row sum.
-/
import proofs.«144959_j9036611191122_2_alg».proof.Proof.KSpec

noncomputable section

namespace Cert.Spec.Tile

open Idealize.ShloMosaic Idealize.ShloMosaic.ValueIdx Cert.Spec.Ker

/-- Row tile i of the raw rows. -/
def rowsT (Z : Fin 8192 → Fin 512 → EReal) (i : Fin 8) : (⟨2, ![1024, 512]⟩ : Shape).Idx → EReal :=
  fun y => Z ⟨1024 * i.val + (y 0).val, by have := (y 0).isLt; have hi := i.isLt; simp only [Matrix.cons_val_zero] at this; omega⟩
    ⟨(y 1).val, by have := (y 1).isLt; simpa using this⟩

/-- Its inverse norms. -/
def rinvT (W : Fin 8192 → EReal) (i : Fin 8) : (⟨2, ![1024, 1]⟩ : Shape).Idx → EReal :=
  fun y => W ⟨1024 * i.val + (y 0).val, by have := (y 0).isLt; have hi := i.isLt; simp only [Matrix.cons_val_zero] at this; omega⟩

/-- Chunk ch of column tile j of the raw rows. -/
def colsC (Z : Fin 8192 → Fin 512 → EReal) (j : Fin 8) (ch : Fin 4) : (⟨2, ![256, 512]⟩ : Shape).Idx → EReal :=
  fun y => Z ⟨1024 * j.val + 256 * ch.val + (y 0).val, by have := (y 0).isLt; have hj := j.isLt; have hc := ch.isLt; simp only [Matrix.cons_val_zero] at this; omega⟩
    ⟨(y 1).val, by have := (y 1).isLt; simpa using this⟩

/-- Its inverse norms. -/
def cinvC (W : Fin 8192 → EReal) (j : Fin 8) (ch : Fin 4) : (⟨2, ![256, 1]⟩ : Shape).Idx → EReal :=
  fun y => W ⟨1024 * j.val + 256 * ch.val + (y 0).val, by have := (y 0).isLt; have hj := j.isLt; have hc := ch.isLt; simp only [Matrix.cons_val_zero] at this; omega⟩

/-- The sum chunk ch of column tile j adds to row p of row tile i. -/
def chunkOf (Z : Fin 8192 → Fin 512 → EReal) (W : Fin 8192 → EReal) (i j : Fin 8) (ch : Fin 4) (p : Fin 1024) : EReal :=
  chunk i.val j.val ch.val (rowsT Z i) (rinvT W i) (colsC Z j ch) (cinvC W j ch) p

/-- The accumulator of row p of row tile i after n column tiles. -/
def accUpTo (Z : Fin 8192 → Fin 512 → EReal) (W : Fin 8192 → EReal) (i : Fin 8) (p : Fin 1024) : ℕ → EReal
  | 0 => 0
  | n + 1 => if h : n < 8 then
      accUpTo Z W i p n + chunkOf Z W i ⟨n, h⟩ 0 p + chunkOf Z W i ⟨n, h⟩ 1 p + chunkOf Z W i ⟨n, h⟩ 2 p + chunkOf Z W i ⟨n, h⟩ 3 p
    else accUpTo Z W i p n

/-- The row sum the region leaves at global row r. -/
def rowsum (Z : Fin 8192 → Fin 512 → EReal) (W : Fin 8192 → EReal) (r : Fin 8192) : EReal :=
  accUpTo Z W ⟨r.val / 1024, by have := r.isLt; omega⟩ ⟨r.val % 1024, Nat.mod_lt _ (by norm_num)⟩ 8

end Cert.Spec.Tile

end
-- ==== Proof.KValueTile.lean ====
/-
  The accumulator over a row tile's column tiles, as a formula of the two arrays the windows read.

  At grid point t the row windows hold row tile t / 8 of the stacked rows and of the inverse norms, the column windows
  column tile t % 8; chunk ch of the column tile is its rows 256 * ch … 256 * ch + 255. So the body's term at the
  point is the accumulator handed on plus the four chunk sums of column tile t % 8 for row tile t / 8, and by
  induction along the grid the accumulator after point t is the running total after t % 8 + 1 column tiles.
-/
import proofs.«144959_j9036611191122_2_alg».proof.Proof.KValue
import proofs.«144959_j9036611191122_2_alg».proof.Proof.KBody
import proofs.«144959_j9036611191122_2_alg».proof.Proof.TileSpec

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Spec

/-! ## Where the blocks sit in their arrays -/

section Blocks
variable {F : FTy → Type} [FloatOps F] [Named F]
variable (m : (ℓ : Loc nD τ sig) → Buf (Elt F) ℓ)

/-- The grid point t is row tile t / 8 and column tile t % 8. -/
theorem coords_facts : ∀ t : Fin cfg0.N, (grid0.coords t 0).val = t.val / 8 ∧ (grid0.coords t 1).val = t.val % 8 :=
  (by decide +kernel : ∀ t : Fin grid0.N, _)

/-- The windows' block indices at point t: the row windows and the result's at (t / 8, 0), the column windows at (t % 8, 0). -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = 0 :=
  (by decide +kernel : ∀ t : Fin grid0.N, _)

/-- The row tile's block at (y0, y1) is the stacked rows at (1024 * (t / 8) + y0, y1). -/
theorem blk0_apply (c : Dev nD) (t : Fin cfg0.N) (y : S1024x512.Idx) (r : Fin 8192) (k : Fin 512)
    (hr : r.val = 1024 * (t.val / 8) + (y 0).val) (hk : k.val = (y 1).val) :
    blk m c 0 t y = V m c main_v20 (ix2 r k) := by
  have hi := idx_facts t
  unfold blk
  rw [View.read_apply]
  show V m c main_v20 (((cfg0.win 0).blk t).view.emb y) = V m c main_v20 (ix2 r k)
  refine congrArg (V m c main_v20) ?_
  funext a; apply Fin.ext
  match a with
  | ⟨0, _⟩ => show win0_0.index t (0 : Fin 2) * 1024 + 1 * (y 0).val = r.val; rw [hi.1, hr]; omega
  | ⟨1, _⟩ => show win0_0.index t (1 : Fin 2) * 512 + 1 * (y 1).val = k.val; rw [hi.2.1, hk]; omega

/-- The column tile's block at (y0, y1) is the stacked rows at (1024 * (t % 8) + y0, y1). -/
theorem blk1_apply (c : Dev nD) (t : Fin cfg0.N) (y : S1024x512.Idx) (r : Fin 8192) (k : Fin 512)
    (hr : r.val = 1024 * (t.val % 8) + (y 0).val) (hk : k.val = (y 1).val) :
    blk m c 1 t y = V m c main_v20 (ix2 r k) := by
  have hi := idx_facts t
  unfold blk
  rw [View.read_apply]
  show V m c main_v20 (((cfg0.win 1).blk t).view.emb y) = V m c main_v20 (ix2 r k)
  refine congrArg (V m c main_v20) ?_
  funext a; apply Fin.ext
  match a with
  | ⟨0, _⟩ => show win0_1.index t (0 : Fin 2) * 1024 + 1 * (y 0).val = r.val; rw [hi.2.2.1, hr]; omega
  | ⟨1, _⟩ => show win0_1.index t (1 : Fin 2) * 512 + 1 * (y 1).val = k.val; rw [hi.2.2.2.1, hk]; omega

/-- The row tile's inverse norms at (y0, 0) are the stacked inverse norms at 1024 * (t / 8) + y0. -/
theorem blk2_apply (c : Dev nD) (t : Fin cfg0.N) (y : S1024x1.Idx) (r : Fin 8192)
    (hr : r.val = 1024 * (t.val / 8) + (y 0).val) :
    blk m c 2 t y = V m c main_v21 (ix2 r (0 : Fin 1)) := by
  have hi := idx_facts t
  have hy : (y 1).val = 0 := by have : (y 1).val < 1 := (y 1).isLt; omega
  unfold blk
  rw [View.read_apply]
  show V m c main_v21 (((cfg0.win 2).blk t).view.emb y) = V m c main_v21 (ix2 r (0 : Fin 1))
  refine congrArg (V m c main_v21) ?_
  funext a; apply Fin.ext
  match a with
  | ⟨0, _⟩ => show win0_2.index t (0 : Fin 2) * 1024 + 1 * (y 0).val = r.val; rw [hi.2.2.2.2.1, hr]; omega
  | ⟨1, _⟩ => show win0_2.index t (1 : Fin 2) * 1 + 1 * (y 1).val = 0; rw [hi.2.2.2.2.2.1, hy]

/-- The column tile's inverse norms at (y0, 0) are the stacked inverse norms at 1024 * (t % 8) + y0. -/
theorem blk3_apply (c : Dev nD) (t : Fin cfg0.N) (y : S1024x1.Idx) (r : Fin 8192)
    (hr : r.val = 1024 * (t.val % 8) + (y 0).val) :
    blk m c 3 t y = V m c main_v21 (ix2 r (0 : Fin 1)) := by
  have hi := idx_facts t
  have hy : (y 1).val = 0 := by have : (y 1).val < 1 := (y 1).isLt; omega
  unfold blk
  rw [View.read_apply]
  show V m c main_v21 (((cfg0.win 3).blk t).view.emb y) = V m c main_v21 (ix2 r (0 : Fin 1))
  refine congrArg (V m c main_v21) ?_
  funext a; apply Fin.ext
  match a with
  | ⟨0, _⟩ => show win0_3.index t (0 : Fin 2) * 1024 + 1 * (y 0).val = r.val; rw [hi.2.2.2.2.2.2.1, hr]; omega
  | ⟨1, _⟩ => show win0_3.index t (1 : Fin 2) * 1 + 1 * (y 1).val = 0; rw [hi.2.2.2.2.2.2.2.1, hy]

end Blocks

/-! ## The blocks as tiles of the two arrays, on the extended reals -/

section AtIdeal
variable (m : (ℓ : Loc nD τ sig) → Buf (Elt Ideal) ℓ)

/-- The stacked raw rows as the region finds them. -/
abbrev Zarr (c : Dev nD) : Fin 8192 → Fin 512 → EReal := fun r k => V m c main_v20 (ix2 r k)
/-- The stacked inverse norms as the region finds them. -/
abbrev Warr (c : Dev nD) : Fin 8192 → EReal := fun r => V m c main_v21 (ix2 r (0 : Fin 1))

theorem rows_eq (c : Dev nD) (t : Fin cfg0.N) (i : Fin 8) (hi : i.val = t.val / 8) :
    blk m c 0 t = Tile.rowsT (Zarr m c) i := by
  funext y
  exact blk0_apply m c t y _ _ (by show 1024 * i.val + (y 0).val = _; rw [hi]) rfl

theorem rinv_eq (c : Dev nD) (t : Fin cfg0.N) (i : Fin 8) (hi : i.val = t.val / 8) :
    blk m c 2 t = Tile.rinvT (Warr m c) i := by
  funext y
  exact blk2_apply m c t y _ (by show 1024 * i.val + (y 0).val = _; rw [hi])

/-- The offsets of the body's chunk loads: chunk ch starts at row 256 * ch. -/
theorem off1_facts : ∀ ch : Fin 4, k0_off1 (BitVec.ofNat 32 ch.val) 0 = 256 * ch.val ∧ k0_off1 (BitVec.ofNat 32 ch.val) 1 = 0 := by
  decide
theorem off2_facts : ∀ ch : Fin 4, k0_off2 (BitVec.ofNat 32 ch.val) 0 = 256 * ch.val ∧ k0_off2 (BitVec.ofNat 32 ch.val) 1 = 0 := by
  decide

theorem chunk_eq (c : Dev nD) (t : Fin cfg0.N) (j : Fin 8) (hj : j.val = t.val % 8) (ch : Fin 4) :
    chunkLd (blk m c 1 t) ch = Tile.colsC (Zarr m c) j ch := by
  funext y
  show blk m c 1 t ((Rect.unit (s := S1024x512) (k0_off1 (BitVec.ofNat 32 ch.val)) S256x512.size (k0_off1_inb ch)).idx y) = _
  refine blk1_apply m c t _ _ _ ?_ ?_
  · show 1024 * j.val + 256 * ch.val + (y 0).val = 1024 * (t.val % 8) + (k0_off1 (BitVec.ofNat 32 ch.val) 0 + 1 * (y 0).val)
    rw [(off1_facts ch).1, hj]; omega
  · show (y 1).val = k0_off1 (BitVec.ofNat 32 ch.val) 1 + 1 * (y 1).val
    rw [(off1_facts ch).2]; omega

theorem cinv_eq (c : Dev nD) (t : Fin cfg0.N) (j : Fin 8) (hj : j.val = t.val % 8) (ch : Fin 4) :
    cinvLd (blk m c 3 t) ch = Tile.cinvC (Warr m c) j ch := by
  funext y
  show blk m c 3 t ((Rect.unit (s := S1024x1) (k0_off2 (BitVec.ofNat 32 ch.val)) S256x1.size (k0_off2_inb ch)).idx y) = _
  refine blk3_apply m c t _ _ ?_
  show 1024 * j.val + 256 * ch.val + (y 0).val = 1024 * (t.val % 8) + (k0_off2 (BitVec.ofNat 32 ch.val) 0 + 1 * (y 0).val)
  rw [(off2_facts ch).1, hj]; omega

/-! ## The body's term at a point, and the accumulator along the grid -/

/-- The body's term at a row: the accumulator it starts from plus the four chunk sums of what it loads. -/
theorem bodyTerm_apply (i : grid0.Coords) (x0 x1 : Vec Ideal S1024x512 .f32) (x2 x3 acc : Vec Ideal S1024x1 .f32) (p : Fin 1024) :
    bodyTerm (F := Ideal) i x0 x1 x2 x3 acc (ix2 p (0 : Fin 1))
      = acc (ix2 p (0 : Fin 1))
        + Ker.chunk (i 0).val (i 1).val 0 x0 x2 (chunkLd x1 0) (cinvLd x3 0) p
        + Ker.chunk (i 0).val (i 1).val 1 x0 x2 (chunkLd x1 1) (cinvLd x3 1) p
        + Ker.chunk (i 0).val (i 1).val 2 x0 x2 (chunkLd x1 2) (cinvLd x3 2) p
        + Ker.chunk (i 0).val (i 1).val 3 x0 x2 (chunkLd x1 3) (cinvLd x3 3) p := by
  unfold bodyTerm
  exact KBody.body_apply i x0 x2 (chunkLd x1 0) (chunkLd x1 1) (chunkLd x1 2) (chunkLd x1 3)
    (cinvLd x3 0) (cinvLd x3 1) (cinvLd x3 2) (cinvLd x3 3) acc p

/-- One chunk sum over the point's blocks is the chunk sum of the two arrays' tiles. -/
theorem chunk_at (c : Dev nD) (t : Fin cfg0.N) (i j : Fin 8) (hi : i.val = t.val / 8) (hj : j.val = t.val % 8) (ch : Fin 4)
    (p : Fin 1024) :
    Ker.chunk (grid0.coords t 0).val (grid0.coords t 1).val ch.val (blk m c 0 t) (blk m c 2 t)
        (chunkLd (blk m c 1 t) ch) (cinvLd (blk m c 3 t) ch) p
      = Tile.chunkOf (Zarr m c) (Warr m c) i j ch p := by
  unfold Tile.chunkOf
  rw [(coords_facts t).1, (coords_facts t).2, ← hi, ← hj, rows_eq m c t i hi, rinv_eq m c t i hi, chunk_eq m c t j hj ch,
    cinv_eq m c t j hj ch]

/-- The body's term at point t and row p: the accumulator handed on plus the four chunk sums of column tile t % 8 for
    row tile t / 8. -/
theorem point_apply (c : Dev nD) (t : Fin cfg0.N) (i j : Fin 8) (hi : i.val = t.val / 8) (hj : j.val = t.val % 8)
    (acc : Vec Ideal S1024x1 .f32) (p : Fin 1024) :
    bodyTerm (grid0.coords t) (blk m c 0 t) (blk m c 1 t) (blk m c 2 t) (blk m c 3 t) acc (ix2 p (0 : Fin 1))
      = acc (ix2 p (0 : Fin 1)) + Tile.chunkOf (Zarr m c) (Warr m c) i j 0 p + Tile.chunkOf (Zarr m c) (Warr m c) i j 1 p
        + Tile.chunkOf (Zarr m c) (Warr m c) i j 2 p + Tile.chunkOf (Zarr m c) (Warr m c) i j 3 p := by
  refine (bodyTerm_apply (grid0.coords t) (blk m c 0 t) (blk m c 1 t) (blk m c 2 t) (blk m c 3 t) acc p).trans ?_
  rw [← chunk_at m c t i j hi hj 0 p, ← chunk_at m c t i j hi hj 1 p, ← chunk_at m c t i j hi hj 2 p,
    ← chunk_at m c t i j hi hj 3 p]
  rfl

/-! ## The running total along the grid -/

theorem accUpTo_succ (Z : Fin 8192 → Fin 512 → EReal) (W : Fin 8192 → EReal) (i : Fin 8) (p : Fin 1024) (n : ℕ) (h : n < 8) :
    Tile.accUpTo Z W i p (n + 1)
      = Tile.accUpTo Z W i p n + Tile.chunkOf Z W i ⟨n, h⟩ 0 p + Tile.chunkOf Z W i ⟨n, h⟩ 1 p
        + Tile.chunkOf Z W i ⟨n, h⟩ 2 p + Tile.chunkOf Z W i ⟨n, h⟩ 3 p := by
  rw [Tile.accUpTo, dif_pos h]

/-- At a first column tile the accumulator is left at the running total after one column tile. -/
theorem first_case (c : Dev nD) (t : Fin cfg0.N) (h0 : t.val % 8 = 0) (i : Fin 8) (hi : i.val = t.val / 8) (p : Fin 1024) :
    (leftAt m c t.val t.isLt).2 (ix2 p (0 : Fin 1)) = Tile.accUpTo (Zarr m c) (Warr m c) i p (t.val % 8 + 1) := by
  have h1 : ¬t.val % 8 = 7 := by omega
  have e1 : (leftAt m c t.val t.isLt).2
      = bodyTerm (grid0.coords t) (blk m c 0 t) (blk m c 1 t) (blk m c 2 t) (blk m c 3 t) (k0_pay1 (F := Ideal)) := by
    rw [leftAt_first m c t h0 h1]; exact leftFirst_snd m c t h0 h1
  have e0 : Tile.accUpTo (Zarr m c) (Warr m c) i p 0 = 0 := by rw [Tile.accUpTo]
  rw [e1]
  refine (point_apply m c t i ⟨0, by decide⟩ hi (by show 0 = _; omega) (k0_pay1 (F := Ideal)) p).trans ?_
  rw [KBody.pay1_apply, h0, accUpTo_succ _ _ _ _ 0 (by decide), e0]

/-- At a later column tile it is left at the running total after one more column tile than before. -/
theorem next_case (c : Dev nD) (t : Fin cfg0.N) (h0 : ¬t.val % 8 = 0) (i : Fin 8) (hi : i.val = t.val / 8) (p : Fin 1024)
    (ih : (leftAt m c (t.val - 1) (Nat.lt_of_le_of_lt (Nat.sub_le _ _) t.isLt)).2 (ix2 p (0 : Fin 1))
      = Tile.accUpTo (Zarr m c) (Warr m c) i p ((t.val - 1) % 8 + 1)) :
    (leftAt m c t.val t.isLt).2 (ix2 p (0 : Fin 1)) = Tile.accUpTo (Zarr m c) (Warr m c) i p (t.val % 8 + 1) := by
  have hlt : t.val % 8 < 8 := Nat.mod_lt _ (by decide)
  have hpred : (t.val - 1) % 8 + 1 = t.val % 8 := by omega
  rw [hpred] at ih
  by_cases h1 : t.val % 8 = 7
  · rw [leftAt_last m c t h0 h1, leftLast_snd]
    refine (point_apply m c t i ⟨t.val % 8, hlt⟩ hi rfl _ p).trans ?_
    rw [ih, accUpTo_succ _ _ _ _ (t.val % 8) hlt]
  · rw [leftAt_mid m c t h0 h1, leftMid_snd]
    refine (point_apply m c t i ⟨t.val % 8, hlt⟩ hi rfl _ p).trans ?_
    rw [ih, accUpTo_succ _ _ _ _ (t.val % 8) hlt]

/-- THE ACCUMULATOR AFTER POINT n, at row p: the running total of row tile n / 8 after n % 8 + 1 column tiles. -/
theorem leftAt_acc (c : Dev nD) (n : ℕ) : ∀ (hn : n < cfg0.N) (i : Fin 8) (hi : i.val = n / 8) (p : Fin 1024),
    (leftAt m c n hn).2 (ix2 p (0 : Fin 1)) = Tile.accUpTo (Zarr m c) (Warr m c) i p (n % 8 + 1) := by
  induction n with
  | zero => intro hn i hi p; exact first_case m c ⟨0, hn⟩ (Nat.zero_mod _) i hi p
  | succ n ih =>
    intro hn i hi p
    by_cases h0 : (n + 1) % 8 = 0
    · exact first_case m c ⟨n + 1, hn⟩ h0 i hi p
    · exact next_case m c ⟨n + 1, hn⟩ h0 i hi p (ih (Nat.lt_of_succ_lt hn) i (by omega) p)

/-- At a last column tile the result's block receives the same: the row sums of the row tile. -/
theorem leftAt_out (c : Dev nD) (t : Fin cfg0.N) (h1 : t.val % 8 = 7) (i : Fin 8) (hi : i.val = t.val / 8) (p : Fin 1024) :
    (leftAt m c t.val t.isLt).1 (ix2 p (0 : Fin 1)) = Tile.accUpTo (Zarr m c) (Warr m c) i p 8 := by
  have h0 : ¬t.val % 8 = 0 := by omega
  have e := leftAt_acc m c t.val t.isLt i hi p
  rw [leftAt_last m c t h0 h1, leftLast_snd] at e
  rw [leftAt_last m c t h0 h1, leftLast_fst, e, h1]

end AtIdeal

end Cert.KernelIdeal.KFrame

end
-- ==== Proof.KValueArr.lean ====
/-
  The array of row sums after the region.

  The result window's block at grid point t is rows 1024 * (t / 8) … + 1023 of the [8192, 1] array; it is written back
  at the last column tile of each row tile, when it holds the row tile's running totals after all eight column tiles:
  the row sums. The eight written blocks tile the array, so the array ends holding the row sum of every row.
-/
import proofs.«144959_j9036611191122_2_alg».proof.Proof.KValueTile

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Spec

variable (m : (ℓ : Loc nD τ sig) → Buf (Elt Ideal) ℓ)

/-- The array of row sums: at row r the running total of r's row tile after all eight column tiles. -/
def rowsArr (c : Dev nD) : Buf (Elt Ideal) ((cfg0.win 4).arr.view.loc (c.tc : Thread nD τ)) :=
  fun (idx : S8192x1.Idx) => Tile.rowsum (Zarr m c) (Warr m c) ⟨(idx 0).val, idx2_lt0 idx⟩

/-- What a last column tile's point writes back is its block of the array of row sums. -/
theorem flushed_eq (c : Dev nD) (t : Fin cfg0.N) (hf : (cfg0.win 4).flush t = true) :
    (dats m 0 c).flushed 4 t = ((cfg0.win 4).blk t).view.read (Elt Ideal) (rowsArr m c) := by
  have hN : cfg0.N = 64 := N_0
  have h1 : t.val % 8 = 7 := (flush0_4 t).mp hf
  have hi := idx_facts t
  have hlt : t.val / 8 < 8 := by have := t.isLt; omega
  show (cfg0.win 4).cut (grid0.coords t) ((dats m 0 c).after 4 t) = _
  rw [after_out]
  funext y
  obtain ⟨p, u, rfl⟩ : ∃ (p : Fin 1024) (u : Fin 1), y = ix2 p u := ⟨y 0, y 1, eq_ix2 y⟩
  obtain rfl : u = 0 := Subsingleton.elim _ _
  rw [View.read_apply]
  show (leftAt m c t.val t.isLt).1 (ix2 p (0 : Fin 1)) = rowsArr m c (((cfg0.win 4).blk t).view.emb (ix2 p (0 : Fin 1)))
  rw [leftAt_out m c t h1 ⟨t.val / 8, hlt⟩ rfl p]
  unfold rowsArr Tile.rowsum
  have e0 : ((((cfg0.win 4).blk t).view.emb (ix2 p (0 : Fin 1))) 0).val = 1024 * (t.val / 8) + p.val := by
    show win0_4.index t (0 : Fin 2) * 1024 + 1 * p.val = _
    rw [hi.2.2.2.2.2.2.2.2.1]; omega
  have hp := p.isLt
  congr 1
  · exact Fin.ext (by show t.val / 8 = _ / 1024; rw [e0]; omega)
  · exact Fin.ext (by show p.val = _ % 1024; rw [e0]; omega)

/-- An index of the array is in point t's block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v22).slice (win0_4.rect t)).set ↔ _
  rw [View.set_slice_whole, Rect.mem_set_unit]
  exact Iff.rfl

/-- Every row is in the block written back at the last column tile of its row tile. -/
theorem cover4 (i : S8192x1.Idx) : ∃ t : Fin cfg0.N, (cfg0.win 4).flush t = true ∧ i ∈ ((cfg0.win 4).blk t).view.set := by
  have hN : cfg0.N = 64 := N_0
  have h0 : (i 0).val < 8192 := idx2_lt0 i
  have h1 : (i 1).val < 1 := idx2_lt1 i
  refine ⟨⟨8 * ((i 0).val / 1024) + 7, by omega⟩, (flush0_4 _).mpr (by show (8 * ((i 0).val / 1024) + 7) % 8 = 7; omega), ?_⟩
  rw [mem_blk4]
  have hi := idx_facts ⟨8 * ((i 0).val / 1024) + 7, by omega⟩
  intro a
  match a with
  | ⟨0, _⟩ =>
    show win0_4.index _ (0 : Fin 2) * 1024 ≤ (i 0).val ∧ (i 0).val < win0_4.index _ (0 : Fin 2) * 1024 + 1024
    rw [hi.2.2.2.2.2.2.2.2.1]
    show (8 * ((i 0).val / 1024) + 7) / 8 * 1024 ≤ (i 0).val ∧ (i 0).val < (8 * ((i 0).val / 1024) + 7) / 8 * 1024 + 1024
    omega
  | ⟨1, _⟩ =>
    show win0_4.index _ (1 : Fin 2) * 1 ≤ (i 1).val ∧ (i 1).val < win0_4.index _ (1 : Fin 2) * 1 + 1
    rw [hi.2.2.2.2.2.2.2.2.2]
    omega

/-- THE ARRAY AFTER THE REGION: the row sum of every row. -/
theorem final4 (c : Dev nD) : (dats m 0 c).arrAt 4 cfg0.N = rowsArr m c :=
  (dats m 0 c).arrAt_eq_of_cover 4 (rowsArr m c) (fun t hf => flushed_eq m c t hf) cover4

/-- At row r: the row sum of r. -/
theorem final4_apply (c : Dev nD) (r : Fin 8192) :
    (dats m 0 c).arrAt 4 cfg0.N (ix2 r (0 : Fin 1)) = Tile.rowsum (Zarr m c) (Warr m c) r := by
  rw [final4]
  rfl

end Cert.KernelIdeal.KFrame

end
-- ==== Proof.KHostRun.lean ====
/-
  The kernel program's host operations before and after its region, run at the ideal instance from any buffer
  contents, as composed pure terms.

  Before the region: each argument's rows get the reciprocal `1 / max (sqrt (0 + Σ x²)) eps` of their floored
  norm as a column `[4096,1]`; the normalised arrays are the arguments times those reciprocals; the two raw
  arguments are stacked into `[8192,512]` and the two columns of reciprocals into `[8192,1]`.

  After the region: the row sums `[8192,1]` are flattened; `exp ((0 + Σ_k u(p,k)·v(p,k)) / D)` is taken of each
  normalised array with itself (stacked: the rows' own similarities) and of the first with the second (stacked
  with itself: the positive pairs' similarities); the negatives are the own similarities plus the row sums; the
  row loss is `-log (positive / negative)`; the rows as `[2,4096]` are summed over the first axis, divided by
  `8192`, summed, divided by `4096`.
-/
import proofs.«144959_j9036611191122_2_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem
  Idealize.ShloMosaic.StableHlo

/-! ## Before the region -/

/-- The row norms of `x`, floored: `max (sqrt (0 + Σ_k x(p,k)²)) eps` as a column `[4096,1]`. -/
def rowNorm (x : FVec Ideal S4096x512 .f32) : FVec Ideal S4096x1 .f32 :=
  maximumf
    (Host.sqrt (F := Ideal) (broadcastInDim S4096x1 ![0] bcast_S4096_S4096x1_0
      (Host.reduceAdd (F := Ideal) (mulf x x) (constant (F := Ideal) S_ .f32 0x00000000#32) reducesTo_S4096x512_S4096_d1 h_S_)))
    (broadcastInDim S4096x1 ![] bcast_S_S4096x1 (constant (F := Ideal) S_ .f32 0x2B8CBCCC#32))

/-- The reciprocals of the floored row norms, as a column `[4096,1]`. -/
def rowInv (x : FVec Ideal S4096x512 .f32) : FVec Ideal S4096x1 .f32 :=
  Host.divf (F := Ideal) (broadcastInDim S4096x1 ![] bcast_S_S4096x1 (constant (F := Ideal) S_ .f32 0x3F800000#32))
    (rowNorm x)

/-- `x` with each row multiplied by the reciprocal of its floored norm. -/
def normalized (x : FVec Ideal S4096x512 .f32) : FVec Ideal S4096x512 .f32 :=
  mulf x (broadcastInDim S4096x512 ![0, 1] bcast_S4096x1_S4096x512_0_1 (rowInv x))

/-- The two raw arrays stacked along the rows. -/
def rawStack (a0 a1 : FVec Ideal S4096x512 .f32) : FVec Ideal S8192x512 .f32 :=
  concatenate S8192x512 0 [⟨S4096x512, a0⟩, ⟨S4096x512, a1⟩] concatenates_S4096x512_S4096x512_S8192x512_d0

/-- The two columns of reciprocals stacked along the rows. -/
def invStack (a0 a1 : FVec Ideal S4096x512 .f32) : FVec Ideal S8192x1 .f32 :=
  concatenate S8192x1 0 [⟨S4096x1, rowInv a0⟩, ⟨S4096x1, rowInv a1⟩] concatenates_S4096x1_S4096x1_S8192x1_d0

/-! ## After the region -/

/-- Row by row, `exp ((0 + Σ_k u(p,k)·v(p,k)) / D)`. -/
def expDot (u v : FVec Ideal S4096x512 .f32) : FVec Ideal S4096 .f32 :=
  Host.exp (F := Ideal)
    (Host.divf (F := Ideal)
      (Host.reduceAdd (F := Ideal) (mulf u v) (constant (F := Ideal) S_ .f32 0x00000000#32) reducesTo_S4096x512_S4096_d1 h_S_)
      (broadcastInDim S4096 ![] bcast_S_S4096 (constant (F := Ideal) S_ .f32 0x3DCCCCCD#32)))

/-- The rows' own similarities, stacked: the first array's rows, then the second's. -/
def ownSim (z0 z1 : FVec Ideal S4096x512 .f32) : FVec Ideal S8192 .f32 :=
  concatenate S8192 0 [⟨S4096, expDot z0 z0⟩, ⟨S4096, expDot z1 z1⟩] concatenates_S4096_S4096_S8192_d0

/-- The positive pairs' similarities, stacked with themselves. -/
def pairSim (z0 z1 : FVec Ideal S4096x512 .f32) : FVec Ideal S8192 .f32 :=
  concatenate S8192 0 [⟨S4096, expDot z0 z1⟩, ⟨S4096, expDot z0 z1⟩] concatenates_S4096_S4096_S8192_d0

/-- The per-row loss `-log (positive / (own + row sum))`. -/
def rowLossT (z0 z1 : FVec Ideal S4096x512 .f32) (rs : FVec Ideal S8192x1 .f32) : FVec Ideal S8192 .f32 :=
  Host.negf (F := Ideal) (Host.log (F := Ideal) (Host.divf (F := Ideal) (pairSim z0 z1)
    (addf (ownSim z0 z1) (shapeCast S8192 rs shapeCasts_S8192x1_S8192))))

/-- The program's result: the row losses as `[2,4096]`, summed over the first axis, divided by `8192`, summed,
    divided by `4096`. -/
def tail (z0 z1 : FVec Ideal S4096x512 .f32) (rs : FVec Ideal S8192x1 .f32) : FVec Ideal S_ .f32 :=
  Host.divf (F := Ideal)
    (Host.reduceAdd (F := Ideal)
      (Host.divf (F := Ideal)
        (Host.reduceAdd (F := Ideal) (shapeCast S2x4096 (rowLossT z0 z1 rs) shapeCasts_S8192_S2x4096)
          (constant (F := Ideal) S_ .f32 0x00000000#32) reducesTo_S2x4096_S4096_d0 h_S_)
        (broadcastInDim S4096 ![] bcast_S_S4096 (constant (F := Ideal) S_ .f32 0x46000000#32)))
      (constant (F := Ideal) S_ .f32 0x00000000#32) reducesTo_S4096_S_d0 h_S_)
    (constant (F := Ideal) S_ .f32 0x45800000#32)

/-! ## The runs -/

section Runs

attribute [local irreducible] Host.reduceAdd concatenate broadcastInDim shapeCast

set_option maxRecDepth 16384 in
set_option maxHeartbeats 4000000 in
/-- The operations before the region leave the stacked raw arrays in their buffer. -/
theorem v20_eq (V : Valuation τ sig (Elt Ideal)) :
    after (hostOps0 (F := Ideal)) V (Proc.devRef .tc main_v20)
      = rawStack (V (Proc.devRef .tc main_arg0)) (V (Proc.devRef .tc main_arg1)) := by
  after_results_simp
  rfl

set_option maxRecDepth 16384 in
set_option maxHeartbeats 4000000 in
/-- … and the stacked reciprocals in theirs. -/
theorem v21_eq (V : Valuation τ sig (Elt Ideal)) :
    after (hostOps0 (F := Ideal)) V (Proc.devRef .tc main_v21)
      = invStack (V (Proc.devRef .tc main_arg0)) (V (Proc.devRef .tc main_arg1)) := by
  after_results_simp
  rfl

set_option maxRecDepth 16384 in
set_option maxHeartbeats 4000000 in
/-- … the first normalised array in its buffer, -/
theorem v9_eq (V : Valuation τ sig (Elt Ideal)) :
    after (hostOps0 (F := Ideal)) V (Proc.devRef .tc main_v9) = normalized (V (Proc.devRef .tc main_arg0)) := by
  after_results_simp
  rfl

set_option maxRecDepth 16384 in
set_option maxHeartbeats 4000000 in
/-- … and the second in its. -/
theorem v19_eq (V : Valuation τ sig (Elt Ideal)) :
    after (hostOps0 (F := Ideal)) V (Proc.devRef .tc main_v19) = normalized (V (Proc.devRef .tc main_arg1)) := by
  after_results_simp
  rfl

set_option maxHeartbeats 4000000 in
/-- The operations before the region write neither argument. -/
theorem arg0_kept0 (V : Valuation τ sig (Elt Ideal)) :
    after (hostOps0 (F := Ideal)) V (Proc.devRef .tc main_arg0) = V (Proc.devRef .tc main_arg0) := by
  after_results_simp

set_option maxHeartbeats 4000000 in
theorem arg1_kept0 (V : Valuation τ sig (Elt Ideal)) :
    after (hostOps0 (F := Ideal)) V (Proc.devRef .tc main_arg1) = V (Proc.devRef .tc main_arg1) := by
  after_results_simp

set_option maxRecDepth 16384 in
set_option maxHeartbeats 4000000 in
/-- The operations after the region leave `tail` of the two normalised arrays' and the row sums' buffers in the
    result buffer. -/
theorem v50_eq (Vo : Valuation τ sig (Elt Ideal)) :
    after (hostOps1 (F := Ideal)) Vo (Proc.devRef .tc main_v50)
      = tail (Vo (Proc.devRef .tc main_v9)) (Vo (Proc.devRef .tc main_v19)) (Vo (Proc.devRef .tc main_v22)) := by
  after_results_simp
  rfl

set_option maxHeartbeats 4000000 in
/-- The operations after the region write none of the arguments, the stacked arrays, the normalised arrays and
    the row sums. -/
theorem arg0_kept1 (Vo : Valuation τ sig (Elt Ideal)) :
    after (hostOps1 (F := Ideal)) Vo (Proc.devRef .tc main_arg0) = Vo (Proc.devRef .tc main_arg0) := by
  after_results_simp

set_option maxHeartbeats 4000000 in
theorem arg1_kept1 (Vo : Valuation τ sig (Elt Ideal)) :
    after (hostOps1 (F := Ideal)) Vo (Proc.devRef .tc main_arg1) = Vo (Proc.devRef .tc main_arg1) := by
  after_results_simp

set_option maxHeartbeats 4000000 in
theorem v20_kept1 (Vo : Valuation τ sig (Elt Ideal)) :
    after (hostOps1 (F := Ideal)) Vo (Proc.devRef .tc main_v20) = Vo (Proc.devRef .tc main_v20) := by
  after_results_simp

set_option maxHeartbeats 4000000 in
theorem v21_kept1 (Vo : Valuation τ sig (Elt Ideal)) :
    after (hostOps1 (F := Ideal)) Vo (Proc.devRef .tc main_v21) = Vo (Proc.devRef .tc main_v21) := by
  after_results_simp

set_option maxHeartbeats 4000000 in
theorem v9_kept1 (Vo : Valuation τ sig (Elt Ideal)) :
    after (hostOps1 (F := Ideal)) Vo (Proc.devRef .tc main_v9) = Vo (Proc.devRef .tc main_v9) := by
  after_results_simp

set_option maxHeartbeats 4000000 in
theorem v19_kept1 (Vo : Valuation τ sig (Elt Ideal)) :
    after (hostOps1 (F := Ideal)) Vo (Proc.devRef .tc main_v19) = Vo (Proc.devRef .tc main_v19) := by
  after_results_simp

set_option maxHeartbeats 4000000 in
theorem v22_kept1 (Vo : Valuation τ sig (Elt Ideal)) :
    after (hostOps1 (F := Ideal)) Vo (Proc.devRef .tc main_v22) = Vo (Proc.devRef .tc main_v22) := by
  after_results_simp

end Runs

end Cert.KernelIdeal.KHost

end
-- ==== Proof.RefSpec.lean ====
/-
  The reference's loss, index by index, as formulas over the extended reals. No program is imported: the two
  arguments are arrays `[4096,512]` of extended reals, and every stage is a function of literal indices.

  Rows are normalised by their Euclidean norm floored at `eps`; the two normalised arrays are stacked into
  `z : [8192,512]`; `sim r c = exp ((Σ_k z(r,k)·z(c,k)) / D)`; row `r`'s positive partner is row
  `(r + 4096) mod 8192`; the negatives are the whole row sum less the positive; the loss of a row is
  `-log (positive / negative)`; rows `b` and `4096 + b` are added, divided by `8192`, the `4096` quotients added and
  divided by `4096`.
-/
import Idealize.ShloMosaic.PureOps.Ideal
import Idealize.ShloMosaic.Lib.ValueIdx

noncomputable section

namespace Cert.Spec.Ref

open Idealize.ShloMosaic Idealize.ShloMosaic.ValueIdx

/-- An argument array: `[4096,512]` extended reals. -/
abbrev Arr : Type := (⟨2, ![4096, 512]⟩ : Shape).Idx → EReal

/-- The floor of a row norm, as the f32 word the program holds. -/
def eps : EReal := Ideal.ofBits .f32 0x2B8CBCCC#32

/-- The temperature the reference divides by, as the f32 word the program holds (13421773 / 134217728). -/
def tau : EReal := Ideal.ofBits .f32 0x3DCCCCCD#32

/-- The floored norm of row `p`: `max (sqrt (Σ_k x(p,k)²)) eps`. -/
def nrm (x : Arr) (p : Fin 4096) : EReal :=
  max (Ideal.sqrt (∑ k : Fin 512, x (ix2 p k) * x (ix2 p k))) eps

/-- The stacked normalised rows: rows `0 … 4095` are the first array's, `4096 … 8191` the second's. -/
def zr (a0 a1 : Arr) (r : Fin 8192) (k : Fin 512) : EReal :=
  if h : r.val < 4096 then Ideal.div (a0 (ix2 ⟨r.val, h⟩ k)) (nrm a0 ⟨r.val, h⟩)
  else Ideal.div (a1 (ix2 ⟨r.val - 4096, by omega⟩ k)) (nrm a1 ⟨r.val - 4096, by omega⟩)

/-- The inner product of rows `r` and `c` of the stacked array. -/
def dotz (a0 a1 : Arr) (r c : Fin 8192) : EReal := ∑ k : Fin 512, zr a0 a1 r k * zr a0 a1 c k

/-- The similarity `exp ((z_r · z_c) / tau)`. -/
def sim (a0 a1 : Arr) (r c : Fin 8192) : EReal := Ideal.exp (Ideal.div (dotz a0 a1 r c) tau)

/-- Row `r`'s partner: `(r + 4096) mod 8192`. -/
def pos (r : Fin 8192) : Fin 8192 := ⟨(r.val + 4096) % 8192, Nat.mod_lt _ (by decide)⟩

/-- The positive pair's similarity of row `r`. -/
def posR (a0 a1 : Arr) (r : Fin 8192) : EReal := sim a0 a1 r (pos r)

/-- The negatives of row `r`: the whole row sum less the positive. -/
def negR (a0 a1 : Arr) (r : Fin 8192) : EReal := (∑ c : Fin 8192, sim a0 a1 r c) - posR a0 a1 r

/-- The loss of row `r`. -/
def rowLoss (a0 a1 : Arr) (r : Fin 8192) : EReal := -(Ideal.log (Ideal.div (posR a0 a1 r) (negR a0 a1 r)))

/-- Row `h · 4096 + b`: the `b`-th row of half `h`. -/
def rowOf (h : Fin 2) (b : Fin 4096) : Fin 8192 := ⟨h.val * 4096 + b.val, by omega⟩

/-- The reference's result. -/
def loss (a0 a1 : Arr) : EReal :=
  Ideal.div
    (∑ b : Fin 4096, Ideal.div (∑ h : Fin 2, rowLoss a0 a1 (rowOf h b)) (Ideal.ofBits .f32 0x46000000#32))
    (Ideal.ofBits .f32 0x45800000#32)

end Cert.Spec.Ref

end
-- ==== Proof.KProgSpec.lean ====
/-
  The kernel program's result, index by index, as formulas over the extended reals. No program is imported: the
  two arguments are arrays `[4096,512]` of extended reals, and every stage is a function of literal indices.

  Each row gets the reciprocal `1 / max (sqrt (Σ_k x(p,k)²)) eps` of its floored norm. The two raw arrays are
  stacked into `[8192,512]`, and so are the reciprocals. The stacked rows are cut into 8 row tiles of 1024 rows;
  for a row tile, the columns are visited as 8 column tiles of 1024, each in 4 chunks of 256. A chunk adds to
  row `p` of the row tile the sum, over its 256 columns other than the row itself and the row's partner, of
  `exp ((Σ_k (x(p,k)·inv(p))·(y(q,k)·inv(q))) · (1/D))`. A running total starts at zero and adds the four chunks of
  each column tile one after the other. To this row sum is added the row's own similarity
  `exp ((Σ_k zn(k)²) / D)`; the positive pair's similarity is `exp ((Σ_k zn₀(b,k)·zn₁(b,k)) / D)` with
  `b = r mod 4096`; the loss of a row is `-log (positive / negative)`; rows `b` and `4096 + b` are added, divided by
  `8192`, the `4096` quotients added and divided by `4096`.
-/
import proofs.«144959_j9036611191122_2_alg».proof.Proof.RefSpec
import proofs.«144959_j9036611191122_2_alg».proof.Proof.KSpec

noncomputable section

namespace Cert.Spec.KerProg

open Idealize.ShloMosaic Idealize.ShloMosaic.ValueIdx
open Cert.Spec

/-- The number one, as the f32 word the program holds. -/
def one : EReal := Ideal.ofBits .f32 0x3F800000#32

/-- The reciprocal of the floored norm of row `p`: `1 / max (sqrt (Σ_k x(p,k)²)) eps`. -/
def inv (x : Ref.Arr) (p : Fin 4096) : EReal := Ideal.div one (Ref.nrm x p)

/-- The normalised entry: the raw entry times the reciprocal of its row's floored norm. -/
def zn (x : Ref.Arr) (p : Fin 4096) (k : Fin 512) : EReal := x (ix2 p k) * inv x p

/-- The two raw arrays stacked: rows `0 … 4095` are the first array's, `4096 … 8191` the second's. -/
def raw (a0 a1 : Ref.Arr) (r : Fin 8192) (k : Fin 512) : EReal :=
  if h : r.val < 4096 then a0 (ix2 ⟨r.val, h⟩ k) else a1 (ix2 ⟨r.val - 4096, by omega⟩ k)

/-- The reciprocals of the floored norms, stacked the same way. -/
def invs (a0 a1 : Ref.Arr) (r : Fin 8192) : EReal :=
  if h : r.val < 4096 then inv a0 ⟨r.val, h⟩ else inv a1 ⟨r.val - 4096, by omega⟩

/-- Row tile `i` of the stacked raw array: its row `p` is stacked row `1024 * i + p`. -/
def rowsT (a0 a1 : Ref.Arr) (i : Fin 8) : (⟨2, ![1024, 512]⟩ : Shape).Idx → EReal :=
  fun y => raw a0 a1 ⟨1024 * i.val + (y 0).val, by have := idx2_lt0 y; omega⟩ ⟨(y 1).val, idx2_lt1 y⟩

/-- The reciprocals of row tile `i`, one per row. -/
def rinvT (a0 a1 : Ref.Arr) (i : Fin 8) : (⟨2, ![1024, 1]⟩ : Shape).Idx → EReal :=
  fun y => invs a0 a1 ⟨1024 * i.val + (y 0).val, by have := idx2_lt0 y; omega⟩

/-- Chunk `ch` of column tile `j` of the stacked raw array: its row `q` is stacked row `1024 * j + 256 * ch + q`. -/
def colsC (a0 a1 : Ref.Arr) (j : Fin 8) (ch : Fin 4) : (⟨2, ![256, 512]⟩ : Shape).Idx → EReal :=
  fun y => raw a0 a1 ⟨1024 * j.val + 256 * ch.val + (y 0).val, by have := idx2_lt0 y; omega⟩
    ⟨(y 1).val, idx2_lt1 y⟩

/-- The reciprocals of that chunk, one per row. -/
def cinvC (a0 a1 : Ref.Arr) (j : Fin 8) (ch : Fin 4) : (⟨2, ![256, 1]⟩ : Shape).Idx → EReal :=
  fun y => invs a0 a1 ⟨1024 * j.val + 256 * ch.val + (y 0).val, by have := idx2_lt0 y; omega⟩

/-- The running total of row `p` of row tile `i` after the first `n` column tiles: it starts at zero and each
    column tile adds its four chunks one after the other. -/
def accUpTo (a0 a1 : Ref.Arr) (i : Fin 8) (p : Fin 1024) : ℕ → EReal
  | 0 => 0
  | j + 1 =>
    if h : j < 8 then
      accUpTo a0 a1 i p j
        + Ker.chunk i.val j 0 (rowsT a0 a1 i) (rinvT a0 a1 i) (colsC a0 a1 ⟨j, h⟩ 0) (cinvC a0 a1 ⟨j, h⟩ 0) p
        + Ker.chunk i.val j 1 (rowsT a0 a1 i) (rinvT a0 a1 i) (colsC a0 a1 ⟨j, h⟩ 1) (cinvC a0 a1 ⟨j, h⟩ 1) p
        + Ker.chunk i.val j 2 (rowsT a0 a1 i) (rinvT a0 a1 i) (colsC a0 a1 ⟨j, h⟩ 2) (cinvC a0 a1 ⟨j, h⟩ 2) p
        + Ker.chunk i.val j 3 (rowsT a0 a1 i) (rinvT a0 a1 i) (colsC a0 a1 ⟨j, h⟩ 3) (cinvC a0 a1 ⟨j, h⟩ 3) p
    else accUpTo a0 a1 i p j

/-- The row sum of stacked row `r`: the running total of its row tile after all eight column tiles. -/
def rowsum (a0 a1 : Ref.Arr) (r : Fin 8192) : EReal :=
  accUpTo a0 a1 ⟨r.val / 1024, by omega⟩ ⟨r.val % 1024, Nat.mod_lt _ (by decide)⟩ 8

/-- The similarity of stacked row `r` with itself. -/
def diag (a0 a1 : Ref.Arr) (r : Fin 8192) : EReal :=
  if h : r.val < 4096 then
    Ideal.exp (Ideal.div (∑ k : Fin 512, zn a0 ⟨r.val, h⟩ k * zn a0 ⟨r.val, h⟩ k) Ref.tau)
  else
    Ideal.exp (Ideal.div
      (∑ k : Fin 512, zn a1 ⟨r.val - 4096, by omega⟩ k * zn a1 ⟨r.val - 4096, by omega⟩ k) Ref.tau)

/-- The positive pair's similarity of stacked row `r`: rows `b = r mod 4096` of the two normalised arrays. -/
def posK (a0 a1 : Ref.Arr) (r : Fin 8192) : EReal :=
  if h : r.val < 4096 then
    Ideal.exp (Ideal.div (∑ k : Fin 512, zn a0 ⟨r.val, h⟩ k * zn a1 ⟨r.val, h⟩ k) Ref.tau)
  else
    Ideal.exp (Ideal.div
      (∑ k : Fin 512, zn a0 ⟨r.val - 4096, by omega⟩ k * zn a1 ⟨r.val - 4096, by omega⟩ k) Ref.tau)

/-- The negatives of row `r`: its own similarity plus its row sum. -/
def negK (a0 a1 : Ref.Arr) (r : Fin 8192) : EReal := diag a0 a1 r + rowsum a0 a1 r

/-- The loss of row `r`. -/
def rowLoss (a0 a1 : Ref.Arr) (r : Fin 8192) : EReal := -(Ideal.log (Ideal.div (posK a0 a1 r) (negK a0 a1 r)))

/-- The kernel program's result. -/
def loss (a0 a1 : Ref.Arr) : EReal :=
  Ideal.div
    (∑ b : Fin 4096, Ideal.div (∑ h : Fin 2, rowLoss a0 a1 (Ref.rowOf h b)) (Ideal.ofBits .f32 0x46000000#32))
    (Ideal.ofBits .f32 0x45800000#32)

end Cert.Spec.KerProg

end
-- ==== Proof.KHost.lean ====
/-
  The kernel program's host side read down to formulas, index by index, at the ideal instance and from any
  buffer contents.

  Before the region: the stacked raw arrays and the stacked reciprocals of the floored norms are the formulas'
  `raw` and `invs`; the two normalised arrays are `zn`; the arguments are left as they were. After the region: if
  the normalised arrays' buffers hold `zn` and the row sums' buffer holds `rowsum`, the result buffer holds the
  formulas' `loss` at its one index. Each host sum reads as its initial value `0` plus the sum over the reduced
  axis, and the `0` is dropped (`0 + x = x` on the extended reals).
-/
import proofs.«144959_j9036611191122_2_alg».proof.Proof.KHostRun
import proofs.«144959_j9036611191122_2_alg».proof.Proof.KProgSpec
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.KHost

open Cert.KernelIdeal Cert.KernelIdeal.Gen Idealize.ShloMosaic Idealize.ShloMosaic.ValueIdx
  Idealize.ShloMosaic.StableHlo
open Cert.Spec

/-! ## Readings shared by both sides of the region -/

/-- A scalar constant broadcast to any shape reads the constant's value everywhere. -/
theorem splat_const_apply {t : Shape} (dims : Fin S_.rank → Fin t.rank) (h : S_.BroadcastsInDim t dims) (w : BitVec 32)
    (j : t.Idx) : broadcastInDim t dims h (constant (F := Ideal) S_ .f32 w) j = Ideal.ofBits .f32 w := rfl

/-- The sum over a row of the products of two arrays' entries. -/
theorem rowDot_apply (u v : FVec Ideal S4096x512 .f32) (p : Fin 4096) :
    Host.reduceAdd (F := Ideal) (mulf u v) (constant (F := Ideal) S_ .f32 0x00000000#32) reducesTo_S4096x512_S4096_d1 h_S_ (ix1 p)
      = ∑ k : Fin 512, u (ix2 p k) * v (ix2 p k) := by
  unfold Host.reduceAdd
  rw [Ideal.hostReduceAdd_def,
    Ideal.hostReduceAdd_single reducesTo_S4096x512_S4096_d1 (by decide : S4096x512.Reduces [1] S4096)]
  show Ideal.ofBits .f32 0x00000000#32 + _ = _
  rw [Ideal.ofBits_zero_f32, zero_add]
  show ∑ k : Fin 512, _ = _
  refine Finset.sum_congr rfl fun k _ => ?_
  have e : (by decide : S4096x512.Reduces [1] S4096).lift (ix1 p) k = ix2 p k := by
    funext a; apply Fin.ext
    match a with
    | ⟨0, _⟩ => rfl
    | ⟨1, _⟩ => rfl
  rw [e]; rfl

/-! ## Before the region -/

/-- The floored norm of row `p`, wherever on the unit axis it is read. -/
theorem rowNorm_apply (x : FVec Ideal S4096x512 .f32) (p : Fin 4096) (q : Fin 1) :
    rowNorm x (ix2 p q) = Ref.nrm x p := by
  unfold rowNorm Ref.nrm Ref.eps
  rw [maximumf_apply, splat_const_apply]
  show max (Ideal.sqrt (broadcastInDim (s := S4096) S4096x1 ![0] bcast_S4096_S4096x1_0 _ (ix2 p q))) _ = _
  rw [broadcastInDim_apply (s := S4096) ![0] bcast_S4096_S4096x1_0 _ (ix2 p q) (ix1 p)
    (fun a => match a with | ⟨0, _⟩ => rfl), rowDot_apply]

/-- The reciprocal of the floored norm of row `p`. -/
theorem rowInv_apply (x : FVec Ideal S4096x512 .f32) (p : Fin 4096) (q : Fin 1) :
    rowInv x (ix2 p q) = KerProg.inv x p := by
  unfold rowInv KerProg.inv KerProg.one
  show Ideal.div (broadcastInDim (s := S_) S4096x1 ![] bcast_S_S4096x1 (constant (F := Ideal) S_ .f32 0x3F800000#32) (ix2 p q))
    (rowNorm x (ix2 p q)) = _
  rw [splat_const_apply, rowNorm_apply]

/-- A normalised entry: the entry times the reciprocal of its row's floored norm. -/
theorem normalized_apply (x : FVec Ideal S4096x512 .f32) (p : Fin 4096) (k : Fin 512) :
    normalized x (ix2 p k) = KerProg.zn x p k := by
  unfold normalized KerProg.zn
  rw [mulf_apply, broadcastInDim_apply (s := S4096x1) ![0, 1] bcast_S4096x1_S4096x512_0_1 (rowInv x) (ix2 p k) (ix2 p 0)
    (fun a => match a with | ⟨0, _⟩ => rfl | ⟨1, _⟩ => rfl), rowInv_apply]

/-- The stacked raw arrays at row `r`. -/
theorem rawStack_apply (a0 a1 : FVec Ideal S4096x512 .f32) (r : Fin 8192) (k : Fin 512) :
    rawStack a0 a1 (ix2 r k) = KerProg.raw a0 a1 r k := by
  unfold rawStack KerProg.raw
  by_cases h : r.val < 4096
  · rw [dif_pos h, concatenate_pair_apply_left (0 : Fin 2) a0 a1
      concatenates_S4096x512_S4096x512_S8192x512_d0 (ix2 r k) rfl (ix2 ⟨r.val, h⟩ k)
      (fun b => match b with | ⟨0, _⟩ => rfl | ⟨1, _⟩ => rfl)]
  · rw [dif_neg h, concatenate_pair_apply_right (0 : Fin 2) a0 a1
      concatenates_S4096x512_S4096x512_S8192x512_d0 (ix2 r k) rfl rfl (ix2 ⟨r.val - 4096, by omega⟩ k)
      (fun b hb => match b, hb with | ⟨0, _⟩, hb => absurd rfl hb | ⟨1, _⟩, _ => rfl)
      (by show (r.val - 4096) + 4096 = r.val; omega)]

/-- The stacked reciprocals at row `r`. -/
theorem invStack_apply (a0 a1 : FVec Ideal S4096x512 .f32) (r : Fin 8192) (q : Fin 1) :
    invStack a0 a1 (ix2 r q) = KerProg.invs a0 a1 r := by
  unfold invStack KerProg.invs
  by_cases h : r.val < 4096
  · rw [dif_pos h, concatenate_pair_apply_left (0 : Fin 2) (rowInv a0) (rowInv a1)
      concatenates_S4096x1_S4096x1_S8192x1_d0 (ix2 r q) rfl (ix2 ⟨r.val, h⟩ q)
      (fun b => match b with | ⟨0, _⟩ => rfl | ⟨1, _⟩ => rfl), rowInv_apply]
  · rw [dif_neg h, concatenate_pair_apply_right (0 : Fin 2) (rowInv a0) (rowInv a1)
      concatenates_S4096x1_S4096x1_S8192x1_d0 (ix2 r q) rfl rfl (ix2 ⟨r.val - 4096, by omega⟩ q)
      (fun b hb => match b, hb with | ⟨0, _⟩, hb => absurd rfl hb | ⟨1, _⟩, _ => rfl)
      (by show (r.val - 4096) + 4096 = r.val; omega), rowInv_apply]

/-- BEFORE THE REGION, index by index: the stacked raw arrays' buffer, -/
theorem raw_read (V : Valuation τ sig (Elt Ideal)) (r : Fin 8192) (k : Fin 512) :
    (after (hostOps0 (F := Ideal)) V (Proc.devRef .tc main_v20) : FVec Ideal S8192x512 .f32) (ix2 r k)
      = KerProg.raw (V (Proc.devRef .tc main_arg0)) (V (Proc.devRef .tc main_arg1)) r k := by
  rw [v20_eq]; exact rawStack_apply _ _ r k

/-- the stacked reciprocals' buffer, -/
theorem invs_read (V : Valuation τ sig (Elt Ideal)) (r : Fin 8192) :
    (after (hostOps0 (F := Ideal)) V (Proc.devRef .tc main_v21) : FVec Ideal S8192x1 .f32) (ix2 r (0 : Fin 1))
      = KerProg.invs (V (Proc.devRef .tc main_arg0)) (V (Proc.devRef .tc main_arg1)) r := by
  rw [v21_eq]; exact invStack_apply _ _ r 0

/-- the first normalised array's buffer, -/
theorem zn0_read (V : Valuation τ sig (Elt Ideal)) (p : Fin 4096) (k : Fin 512) :
    (after (hostOps0 (F := Ideal)) V (Proc.devRef .tc main_v9) : FVec Ideal S4096x512 .f32) (ix2 p k)
      = KerProg.zn (V (Proc.devRef .tc main_arg0)) p k := by
  rw [v9_eq]; exact normalized_apply _ p k

/-- and the second's. -/
theorem zn1_read (V : Valuation τ sig (Elt Ideal)) (p : Fin 4096) (k : Fin 512) :
    (after (hostOps0 (F := Ideal)) V (Proc.devRef .tc main_v19) : FVec Ideal S4096x512 .f32) (ix2 p k)
      = KerProg.zn (V (Proc.devRef .tc main_arg1)) p k := by
  rw [v19_eq]; exact normalized_apply _ p k

/-! ## After the region -/

/-- `exp` of a row's inner product over the temperature. -/
theorem expDot_apply (u v : FVec Ideal S4096x512 .f32) (p : Fin 4096) :
    expDot u v (ix1 p) = Ideal.exp (Ideal.div (∑ k : Fin 512, u (ix2 p k) * v (ix2 p k)) Ref.tau) := by
  unfold expDot Ref.tau
  show Ideal.exp (Ideal.div
    (Host.reduceAdd (F := Ideal) (mulf u v) (constant (F := Ideal) S_ .f32 0x00000000#32) reducesTo_S4096x512_S4096_d1 h_S_ (ix1 p))
    (broadcastInDim (s := S_) S4096 ![] bcast_S_S4096 (constant (F := Ideal) S_ .f32 0x3DCCCCCD#32) (ix1 p))) = _
  rw [splat_const_apply, rowDot_apply]

variable (a0 a1 : Ref.Arr) (z0 z1 : FVec Ideal S4096x512 .f32) (rs : FVec Ideal S8192x1 .f32)

/-- The rows' own similarities, when the two arrays are the normalised ones. -/
theorem ownSim_apply (h0 : ∀ p k, z0 (ix2 p k) = KerProg.zn a0 p k) (h1 : ∀ p k, z1 (ix2 p k) = KerProg.zn a1 p k)
    (r : Fin 8192) : ownSim z0 z1 (ix1 r) = KerProg.diag a0 a1 r := by
  unfold ownSim KerProg.diag
  by_cases h : r.val < 4096
  · rw [dif_pos h, concatenate_pair_apply_left (0 : Fin 1) (expDot z0 z0) (expDot z1 z1)
      concatenates_S4096_S4096_S8192_d0 (ix1 r) rfl (ix1 ⟨r.val, h⟩)
      (fun b => match b with | ⟨0, _⟩ => rfl), expDot_apply]
    simp only [h0]
  · rw [dif_neg h, concatenate_pair_apply_right (0 : Fin 1) (expDot z0 z0) (expDot z1 z1)
      concatenates_S4096_S4096_S8192_d0 (ix1 r) rfl rfl (ix1 ⟨r.val - 4096, by omega⟩)
      (fun b hb => match b, hb with | ⟨0, _⟩, hb => absurd rfl hb)
      (by show (r.val - 4096) + 4096 = r.val; omega), expDot_apply]
    simp only [h1]

/-- The positive pairs' similarities. -/
theorem pairSim_apply (h0 : ∀ p k, z0 (ix2 p k) = KerProg.zn a0 p k) (h1 : ∀ p k, z1 (ix2 p k) = KerProg.zn a1 p k)
    (r : Fin 8192) : pairSim z0 z1 (ix1 r) = KerProg.posK a0 a1 r := by
  unfold pairSim KerProg.posK
  by_cases h : r.val < 4096
  · rw [dif_pos h, concatenate_pair_apply_left (0 : Fin 1) (expDot z0 z1) (expDot z0 z1)
      concatenates_S4096_S4096_S8192_d0 (ix1 r) rfl (ix1 ⟨r.val, h⟩)
      (fun b => match b with | ⟨0, _⟩ => rfl), expDot_apply]
    simp only [h0, h1]
  · rw [dif_neg h, concatenate_pair_apply_right (0 : Fin 1) (expDot z0 z1) (expDot z0 z1)
      concatenates_S4096_S4096_S8192_d0 (ix1 r) rfl rfl (ix1 ⟨r.val - 4096, by omega⟩)
      (fun b hb => match b, hb with | ⟨0, _⟩, hb => absurd rfl hb)
      (by show (r.val - 4096) + 4096 = r.val; omega), expDot_apply]
    simp only [h0, h1]

/-- The row sums' column flattened: entry `r` is the column's row `r`. -/
theorem flat_apply (r : Fin 8192) : shapeCast S8192 rs shapeCasts_S8192x1_S8192 (ix1 r) = rs (ix2 r (0 : Fin 1)) :=
  shapeCast_apply rs shapeCasts_S8192x1_S8192 (ix1 r) (ix2 r (0 : Fin 1)) (by
    rw [Shape.rowMajor_val_one, Shape.rowMajor_val_two]
    show r.val * 1 + 0 = r.val
    omega)

/-- The loss of row `r`. -/
theorem rowLossT_apply (h0 : ∀ p k, z0 (ix2 p k) = KerProg.zn a0 p k) (h1 : ∀ p k, z1 (ix2 p k) = KerProg.zn a1 p k)
    (hrs : ∀ r, rs (ix2 r (0 : Fin 1)) = KerProg.rowsum a0 a1 r) (r : Fin 8192) :
    rowLossT z0 z1 rs (ix1 r) = KerProg.rowLoss a0 a1 r := by
  unfold rowLossT KerProg.rowLoss KerProg.negK
  show -(Ideal.log (Ideal.div (pairSim z0 z1 (ix1 r))
    (ownSim z0 z1 (ix1 r) + shapeCast S8192 rs shapeCasts_S8192x1_S8192 (ix1 r)))) = _
  rw [pairSim_apply a0 a1 z0 z1 h0 h1, ownSim_apply a0 a1 z0 z1 h0 h1, flat_apply, hrs]

/-- The rows as two halves: entry `(h, b)` of the `[2,4096]` array is row `h · 4096 + b`. -/
theorem halves_apply (v : FVec Ideal S8192 .f32) (h : Fin 2) (b : Fin 4096) :
    shapeCast S2x4096 v shapeCasts_S8192_S2x4096 (ix2 h b) = v (ix1 (Ref.rowOf h b)) :=
  shapeCast_apply v shapeCasts_S8192_S2x4096 (ix2 h b) (ix1 (Ref.rowOf h b)) (by
    rw [Shape.rowMajor_val_one, Shape.rowMajor_val_two]; rfl)

/-- The sum of the two halves at `b`. -/
theorem pairSum_apply (w : FVec Ideal S2x4096 .f32) (b : Fin 4096) :
    Host.reduceAdd (F := Ideal) w (constant (F := Ideal) S_ .f32 0x00000000#32) reducesTo_S2x4096_S4096_d0 h_S_ (ix1 b)
      = ∑ h : Fin 2, w (ix2 h b) := by
  unfold Host.reduceAdd
  rw [Ideal.hostReduceAdd_def,
    Ideal.hostReduceAdd_single reducesTo_S2x4096_S4096_d0 (by decide : S2x4096.Reduces [0] S4096)]
  show Ideal.ofBits .f32 0x00000000#32 + _ = _
  rw [Ideal.ofBits_zero_f32, zero_add]
  show ∑ h : Fin 2, _ = _
  refine Finset.sum_congr rfl fun h _ => ?_
  have e : (by decide : S2x4096.Reduces [0] S4096).lift (ix1 b) h = ix2 h b := by
    funext a; apply Fin.ext
    match a with
    | ⟨0, _⟩ => rfl
    | ⟨1, _⟩ => rfl
  rw [e]

/-- The sum of a `[4096]` array into a scalar. -/
theorem total_apply (u : FVec Ideal S4096 .f32) (i : S_.Idx) :
    Host.reduceAdd (F := Ideal) u (constant (F := Ideal) S_ .f32 0x00000000#32) reducesTo_S4096_S_d0 h_S_ i
      = ∑ b : Fin 4096, u (ix1 b) := by
  unfold Host.reduceAdd
  rw [Ideal.hostReduceAdd_def, Ideal.hostReduceAdd_total reducesTo_S4096_S_d0 (fun b => b.elim0)]
  show Ideal.ofBits .f32 0x00000000#32 + _ = _
  rw [Ideal.ofBits_zero_f32, zero_add]
  exact Fintype.sum_equiv (⟨fun j => j 0, ix1, fun j => (eq_ix1 j).symm, fun _ => rfl⟩ : S4096.Idx ≃ Fin 4096) _ _
    (fun j => congrArg u (eq_ix1 j))

/-- The composed term after the region, when its three inputs are the normalised arrays and the row sums, is the
    formulas' loss at its one index. -/
theorem tail_eq (h0 : ∀ p k, z0 (ix2 p k) = KerProg.zn a0 p k) (h1 : ∀ p k, z1 (ix2 p k) = KerProg.zn a1 p k)
    (hrs : ∀ r, rs (ix2 r (0 : Fin 1)) = KerProg.rowsum a0 a1 r) :
    tail z0 z1 rs = fun _ => KerProg.loss a0 a1 := by
  funext i
  unfold tail KerProg.loss
  show Ideal.div (Host.reduceAdd (F := Ideal) _ (constant (F := Ideal) S_ .f32 0x00000000#32) reducesTo_S4096_S_d0 h_S_ i)
    (Ideal.ofBits .f32 0x45800000#32) = _
  rw [total_apply]
  refine congrArg (fun s => Ideal.div s _) (Finset.sum_congr rfl fun b _ => ?_)
  show Ideal.div (Host.reduceAdd (F := Ideal) _ (constant (F := Ideal) S_ .f32 0x00000000#32) reducesTo_S2x4096_S4096_d0 h_S_ (ix1 b))
    (broadcastInDim (s := S_) S4096 ![] bcast_S_S4096 (constant (F := Ideal) S_ .f32 0x46000000#32) (ix1 b)) = _
  rw [splat_const_apply, pairSum_apply]
  refine congrArg (fun s => Ideal.div s _) (Finset.sum_congr rfl fun h _ => ?_)
  rw [halves_apply, rowLossT_apply a0 a1 z0 z1 rs h0 h1 hrs]

/-- AFTER THE REGION: from any contents whose normalised arrays' buffers hold the formulas' normalised entries and
    whose row sums' buffer holds the formulas' row sums, the result buffer holds the formulas' loss. -/
theorem loss_read (Vo : Valuation τ sig (Elt Ideal))
    (h9 : ∀ p k, (Vo (Proc.devRef .tc main_v9) : FVec Ideal S4096x512 .f32) (ix2 p k) = KerProg.zn a0 p k)
    (h19 : ∀ p k, (Vo (Proc.devRef .tc main_v19) : FVec Ideal S4096x512 .f32) (ix2 p k) = KerProg.zn a1 p k)
    (h22 : ∀ r, (Vo (Proc.devRef .tc main_v22) : FVec Ideal S8192x1 .f32) (ix2 r (0 : Fin 1)) = KerProg.rowsum a0 a1 r) :
    (after (hostOps1 (F := Ideal)) Vo (Proc.devRef .tc main_v50) : FVec Ideal S_ .f32) = fun _ => KerProg.loss a0 a1 := by
  rw [v50_eq]
  exact tail_eq a0 a1 _ _ _ h9 h19 h22

end Cert.KernelIdeal.KHost

end
-- ==== Proof.TileBridge.lean ====
/-
  The row sum written over a generic array of raw rows and a generic array of inverse norms, taken at the stacked
  raw rows and the stacked reciprocals of the floored norms, is the kernel program's row sum: the tiles are the same
  functions of the same stacked rows, and the two running totals add the same chunks in the same order.
-/
import proofs.«144959_j9036611191122_2_alg».proof.Proof.TileSpec
import proofs.«144959_j9036611191122_2_alg».proof.Proof.KProgSpec

noncomputable section

namespace Cert.SpecEq

open Idealize.ShloMosaic Idealize.ShloMosaic.ValueIdx
open Cert.Spec

/-- After any number of column tiles the two running totals agree. -/
theorem accUpTo_tile (a0 a1 : Ref.Arr) (i : Fin 8) (p : Fin 1024) (n : ℕ) :
    Tile.accUpTo (KerProg.raw a0 a1) (KerProg.invs a0 a1) i p n = KerProg.accUpTo a0 a1 i p n := by
  induction n with
  | zero => rfl
  | succ n ih =>
    show (if h : n < 8 then _ else _) = (if h : n < 8 then _ else _)
    by_cases h : n < 8
    · rw [dif_pos h, dif_pos h, ih]
      rfl
    · rw [dif_neg h, dif_neg h, ih]

/-- The generic row sum at the stacked raw rows and stacked reciprocals is the kernel program's row sum. -/
theorem rowsum_tile (a0 a1 : Ref.Arr) (r : Fin 8192) :
    Tile.rowsum (KerProg.raw a0 a1) (KerProg.invs a0 a1) r = KerProg.rowsum a0 a1 r :=
  accUpTo_tile a0 a1 _ _ 8

end Cert.SpecEq

end
-- ==== Proof.KAlg.lean ====
/-
  The kernel program's result at the ideal instance, as a formula of the two argument arrays.

  The host operations before the region build the stacked raw rows, the stacked inverse norms and the two normalised
  arrays; the region leaves in its result the masked row sums of the scaled exponentials, accumulated tile by tile;
  the host operations after it add the exact diagonal, divide the positive pair's similarity by the sum, and average
  the negated logarithms. Read index by index this is the loss formula of the kernel program.
-/
import proofs.«144959_j9036611191122_2_alg».proof.Proof.KArgs
import proofs.«144959_j9036611191122_2_alg».proof.Proof.KValueArr
import proofs.«144959_j9036611191122_2_alg».proof.Proof.KHost
import proofs.«144959_j9036611191122_2_alg».proof.Proof.TileBridge

noncomputable section

namespace Cert.KernelIdeal.KFrame

open Cert.KernelIdeal Cert.KernelIdeal.Gen
open Idealize.ShloMosaic Idealize.ShloMosaic.TcCoe Idealize.ShloMosaic.ValueIdx
open Idealize.SL.Sem
open Cert.Spec

variable (m : (ℓ : Loc nD τ sig) → Buf (Elt Ideal) ℓ)

/-- The stacked raw rows the region reads are the two argument arrays one above the other. -/
theorem Zarr_eq (c : Dev nD) :
    Zarr m c = KerProg.raw (m ((c.tc : Thread nD τ).loc main_arg0)) (m ((c.tc : Thread nD τ).loc main_arg1)) :=
  funext fun r => funext fun k => Cert.KernelIdeal.KHost.raw_read (V₀ m c) r k

/-- The stacked inverse norms the region reads. -/
theorem Warr_eq (c : Dev nD) :
    Warr m c = KerProg.invs (m ((c.tc : Thread nD τ).loc main_arg0)) (m ((c.tc : Thread nD τ).loc main_arg1)) :=
  funext fun r => Cert.KernelIdeal.KHost.invs_read (V₀ m c) r

/-- The program's result is the kernel program's loss formula of the argument arrays. -/
theorem result_loss (c : Dev nD) :
    (Vfin (F := Ideal) m c (Proc.devRef .tc main_v50) : FVec Ideal S_ .f32)
      = fun _ => KerProg.loss (m ((c.tc : Thread nD τ).loc main_arg0)) (m ((c.tc : Thread nD τ).loc main_arg1)) := by
  refine Cert.KernelIdeal.KHost.loss_read (m ((c.tc : Thread nD τ).loc main_arg0)) (m ((c.tc : Thread nD τ).loc main_arg1)) (Vout m c) ?_ ?_ ?_
  · intro p k
    rw [show Vout m c (Proc.devRef .tc main_v9) = Vin m c (Proc.devRef .tc main_v9) from Function.update_of_ne (by decide) _ _]
    exact Cert.KernelIdeal.KHost.zn0_read (V₀ m c) p k
  · intro p k
    rw [show Vout m c (Proc.devRef .tc main_v19) = Vin m c (Proc.devRef .tc main_v19) from Function.update_of_ne (by decide) _ _]
    exact Cert.KernelIdeal.KHost.zn1_read (V₀ m c) p k
  · intro r
    rw [show Vout m c (Proc.devRef .tc main_v22) = (dats m 0 c).arrAt 4 cfg0.N from Function.update_self _ _ _]
    rw [final4_apply m c r, Zarr_eq, Warr_eq]
    exact Cert.SpecEq.rowsum_tile _ _ r

end Cert.KernelIdeal.KFrame

end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.LibAggregateLinear.lean ====
/-
  General lemmas on the extended reals: a linear map commutes with a weighted
  aggregation when every entry is finite; finiteness of products and of a
  positive base raised to a negative real exponent; and the value of two
  32-bit float words.
-/
import Idealize.ShloMosaic.PureOps.Ideal

noncomputable section

namespace Idealize.ShloMosaic.AggregateLinear

open scoped BigOperators

/-- The coercion of the reals into the extended reals commutes with finite sums:
    the extended real of `∑ i ∈ s, f i` is `∑ i ∈ s, (f i : EReal)`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is the coercion of its real part. -/
theorem eq_coe_toReal {x : EReal} (h : x ≠ ⊤ ∧ x ≠ ⊥) : x = ((x.toReal : ℝ) : EReal) :=
  (EReal.coe_toReal h.1 h.2).symm

/-- The product of two finite extended reals is finite. -/
theorem mul_finite {a b : EReal} (ha : a ≠ ⊤ ∧ a ≠ ⊥) (hb : b ≠ ⊤ ∧ b ≠ ⊥) :
    a * b ≠ ⊤ ∧ a * b ≠ ⊥ := by
  rw [eq_coe_toReal ha, eq_coe_toReal hb, ← EReal.coe_mul]
  exact ⟨EReal.coe_ne_top _, EReal.coe_ne_bot _⟩

/-- A linear map commutes with a weighted aggregation, for finite entries:
    aggregating the images `∑ k, a e k * w k` of the rows `a e` with weights
    `n e` over `e ∈ S` gives the image of the aggregated row
    `k ↦ ∑ e ∈ S, a e k * n e`. Both sides are the double sum
    `∑ e ∈ S, ∑ k, a e k * w k * n e` over the reals. -/
theorem agg_linear {ι κ : Type*} [Fintype κ] (S : Finset ι)
    (a : ι → κ → EReal) (w : κ → EReal) (n : ι → EReal)
    (ha : ∀ e k, a e k ≠ ⊤ ∧ a e k ≠ ⊥) (hw : ∀ k, w k ≠ ⊤ ∧ w k ≠ ⊥)
    (hn : ∀ e, n e ≠ ⊤ ∧ n e ≠ ⊥) :
    ∑ e ∈ S, (∑ k, a e k * w k) * n e = ∑ k, (∑ e ∈ S, a e k * n e) * w k := by
  have hL : ∀ e, (∑ k, a e k * w k) * n e
      = (((∑ k, (a e k).toReal * (w k).toReal) * (n e).toReal : ℝ) : EReal) := by
    intro e
    rw [EReal.coe_mul, coe_sum, ← eq_coe_toReal (hn e)]
    congr 1
    refine Finset.sum_congr rfl fun k _ => ?_
    rw [EReal.coe_mul, ← eq_coe_toReal (ha e k), ← eq_coe_toReal (hw k)]
  have hR : ∀ k, (∑ e ∈ S, a e k * n e) * w k
      = (((∑ e ∈ S, (a e k).toReal * (n e).toReal) * (w k).toReal : ℝ) : EReal) := by
    intro k
    rw [EReal.coe_mul, coe_sum, ← eq_coe_toReal (hw k)]
    congr 1
    refine Finset.sum_congr rfl fun e _ => ?_
    rw [EReal.coe_mul, ← eq_coe_toReal (ha e k), ← eq_coe_toReal (hn e)]
  rw [Finset.sum_congr rfl fun e _ => hL e, Finset.sum_congr rfl fun k _ => hR k,
    ← coe_sum, ← coe_sum]
  congr 1
  simp only [Finset.sum_mul]
  rw [Finset.sum_comm]
  refine Finset.sum_congr rfl fun k _ => Finset.sum_congr rfl fun e _ => ?_
  ring

/-- The same law with the zero each sum starts from written out, as a program
    that accumulates from zero has it. -/
theorem agg_linear_zero {ι κ : Type*} [Fintype κ] (S : Finset ι)
    (a : ι → κ → EReal) (w : κ → EReal) (n : ι → EReal)
    (ha : ∀ e k, a e k ≠ ⊤ ∧ a e k ≠ ⊥) (hw : ∀ k, w k ≠ ⊤ ∧ w k ≠ ⊥)
    (hn : ∀ e, n e ≠ ⊤ ∧ n e ≠ ⊥) :
    (0 : EReal) + ∑ e ∈ S, (∑ k, a e k * w k) * n e
      = ∑ k, ((0 : EReal) + ∑ e ∈ S, a e k * n e) * w k := by
  simp only [zero_add]
  exact agg_linear S a w n ha hw hn

/-- A positive extended-real base raised to a negative real exponent is finite:
    a real base gives a real power, and `⊤` to a negative exponent is `0`. -/
theorem pow_finite {d : EReal} (hd : 0 < d) {y : ℝ} (hy : y < 0) :
    Ideal.pow d (y : EReal) ≠ ⊤ ∧ Ideal.pow d (y : EReal) ≠ ⊥ := by
  induction d using EReal.rec with
  | bot => exact absurd hd (by simp)
  | coe x =>
    rw [Ideal.pow_coe_coe]
    exact ⟨EReal.coe_ne_top _, EReal.coe_ne_bot _⟩
  | top =>
    have h1 : ¬ (0 : EReal) < (y : EReal) := by
      rw [not_lt]; exact_mod_cast hy.le
    have h2 : (y : EReal) ≠ 0 := by exact_mod_cast hy.ne
    rw [Ideal.pow_top, if_neg h1, if_neg h2]
    exact ⟨EReal.zero_ne_top, EReal.zero_ne_bot⟩

/-- The 32-bit float word `0xBF000000` (sign 1, exponent 126, fraction 0) is `-1/2`. -/
theorem ofBits_neg_half : Ideal.ofBits .f32 0xBF000000#32 = ((-(1 / 2) : ℝ) : EReal) := by
  simp [Ideal.ofBits, Ideal.ieee, -EReal.coe_mul]; norm_num

/-- The word `0xBF000000` is a negative real. -/
theorem ofBits_neg_half_neg :
    ∃ y : ℝ, y < 0 ∧ Ideal.ofBits .f32 0xBF000000#32 = (y : EReal) :=
  ⟨-(1 / 2), by norm_num, ofBits_neg_half⟩

/-- The all-zero 32-bit float word is `0`. -/
theorem ofBits_zero : Ideal.ofBits .f32 0x00000000#32 = 0 := by
  simp [Ideal.ofBits, Ideal.ieee]

end Idealize.ShloMosaic.AggregateLinear
-- ==== Proof.LibNtXent.lean ====
/-
  General lemmas on the extended reals for a contrastive loss whose rows are
  normalised, compared by inner products divided by a temperature, and
  exponentiated.

  * a sum over a finite index set with one entry subtracted, rewritten as
    another entry plus the sum over all the indices other than those two;
  * a running total built tile by tile, each tile added chunk by chunk, is the
    one sum over the whole range (only associativity and commutativity of
    addition are used, so no finiteness is assumed);
  * multiplying by a reciprocal is dividing;
  * the extended reals that a few 32-bit float words denote;
  * finite sums, products, square roots, maxima, quotients, exponentials and
    logarithms of real numbers are again real numbers, with their values.
-/
import Idealize.ShloMosaic.PureOps.Ideal
import proofs.«144959_j9036611191122_2_alg».proof.Proof.LibSumChunks
import proofs.«144959_j9036611191122_2_alg».proof.Proof.LibAggregateLinear

noncomputable section

namespace Cert.LibNtXent

open Idealize.ShloMosaic
open scoped BigOperators

/-! ## Sums of real numbers inside the extended reals -/

/-- The extended real of a sum of reals over a whole finite type is the sum of the extended reals. -/
theorem coe_sum_univ {ι : Type*} [Fintype ι] (f : ι → ℝ) :
    ((∑ i, f i : ℝ) : EReal) = ∑ i, (f i : EReal) :=
  AggregateLinear.coe_sum Finset.univ f

/-- Over the reals, a sum over a finite type splits off the entries at two distinct indices `a` and `b`:
    `∑ c, f c = f a + f b + ∑ c, (if c = a ∨ c = b then 0 else f c)`. -/
theorem real_sum_split_pair {ι : Type*} [Fintype ι] [DecidableEq ι] (f : ι → ℝ) {a b : ι} (hab : a ≠ b) :
    ∑ c, f c = f a + f b + ∑ c, (if c = a ∨ c = b then 0 else f c) := by
  have hpt : ∀ c, f c = (if c = a then f c else 0) + (if c = b then f c else 0)
      + (if c = a ∨ c = b then 0 else f c) := by
    intro c
    by_cases h1 : c = a
    · have h2 : c ≠ b := fun h => hab (h1.symm.trans h)
      rw [if_pos h1, if_neg h2, if_pos (Or.inl h1)]; ring
    · by_cases h2 : c = b
      · rw [if_neg h1, if_pos h2, if_pos (Or.inr h2)]; ring
      · rw [if_neg h1, if_neg h2, if_neg (not_or.mpr ⟨h1, h2⟩)]; ring
  calc ∑ c, f c
      = ∑ c, ((if c = a then f c else 0) + (if c = b then f c else 0)
          + (if c = a ∨ c = b then 0 else f c)) := Finset.sum_congr rfl fun c _ => hpt c
    _ = f a + f b + ∑ c, (if c = a ∨ c = b then 0 else f c) := by
      rw [Finset.sum_add_distrib, Finset.sum_add_distrib, Finset.sum_ite_eq', Finset.sum_ite_eq',
        if_pos (Finset.mem_univ a), if_pos (Finset.mem_univ b)]

/-- **Removing a pair.** For real numbers `f c` indexed by `Fin N` and two distinct indices `a`, `b`:
    the whole sum (started from zero) minus the entry at `b` is the entry at `a` plus the sum of the
    entries at all the indices other than `a` and `b`. -/
theorem remove_pair {N : ℕ} (f : Fin N → ℝ) {a b : Fin N} (hab : a ≠ b) :
    (0 + ∑ c, (f c : EReal)) - (f b : EReal)
      = (f a : EReal) + ∑ c, (if c = a ∨ c = b then (0 : EReal) else (f c : EReal)) := by
  have hite : ∀ c, (if c = a ∨ c = b then (0 : EReal) else (f c : EReal))
      = (((if c = a ∨ c = b then 0 else f c : ℝ)) : EReal) := by
    intro c
    by_cases h : c = a ∨ c = b
    · rw [if_pos h, if_pos h, EReal.coe_zero]
    · rw [if_neg h, if_neg h]
  rw [zero_add, Finset.sum_congr rfl fun c _ => hite c, ← coe_sum_univ, ← coe_sum_univ, ← EReal.coe_sub,
    ← EReal.coe_add, real_sum_split_pair f hab]
  congr 1
  ring

/-- The same with the excluded indices told apart by their values, in the orientation
    `a = c` or `c = b`. -/
theorem remove_pair_val {N : ℕ} (f : Fin N → ℝ) {a b : Fin N} (hab : a ≠ b) :
    (0 + ∑ c, (f c : EReal)) - (f b : EReal)
      = (f a : EReal) + ∑ c : Fin N, (if a.val = c.val ∨ c.val = b.val then (0 : EReal) else (f c : EReal)) := by
  rw [remove_pair f hab]
  congr 1
  refine Finset.sum_congr rfl fun c _ => ?_
  have hiff : (c = a ∨ c = b) ↔ (a.val = c.val ∨ c.val = b.val) := by
    constructor
    · rintro (h | h)
      · exact Or.inl (congrArg Fin.val h.symm)
      · exact Or.inr (congrArg Fin.val h)
    · rintro (h | h)
      · exact Or.inl (Fin.ext h.symm)
      · exact Or.inr (Fin.ext h)
  exact if_congr hiff rfl rfl

/-- The same again with the whole sum not started from zero. -/
theorem remove_pair_val' {N : ℕ} (f : Fin N → ℝ) {a b : Fin N} (hab : a ≠ b) :
    (∑ c, (f c : EReal)) - (f b : EReal)
      = (f a : EReal) + ∑ c : Fin N, (if a.val = c.val ∨ c.val = b.val then (0 : EReal) else (f c : EReal)) := by
  have h := remove_pair_val f hab
  rwa [zero_add] at h

/-! ## A running total built tile by tile -/

/-- A running total that starts at zero and adds `T j` at step `j` is, after `n` steps, the sum of the
    first `n` of the `T j`. -/
theorem accumulate_range {M : Type*} [AddCommMonoid M] (A T : ℕ → M) (h0 : A 0 = 0) (n : ℕ)
    (hs : ∀ j, j < n → A (j + 1) = A j + T j) : A n = ∑ j ∈ Finset.range n, T j := by
  induction n with
  | zero => rw [Finset.range_zero, Finset.sum_empty]; exact h0
  | succ n ih =>
    rw [hs n (Nat.lt_succ_self n), Finset.sum_range_succ, ih fun j hj => hs j (Nat.lt_succ_of_lt hj)]

/-- One tile of `1024` consecutive positions, starting at `1024 * j`, summed as four consecutive chunks of
    `256`, each chunk's sum started from zero. -/
theorem tile_eq_chunks (g : Fin 8192 → EReal) (j : ℕ) (hj : j < 8) :
    ∑ k : Fin 1024, g ⟨1024 * j + k.val, by omega⟩
      = (0 + ∑ q : Fin 256, g ⟨1024 * j + 256 * 0 + q.val, by omega⟩)
        + (0 + ∑ q : Fin 256, g ⟨1024 * j + 256 * 1 + q.val, by omega⟩)
        + (0 + ∑ q : Fin 256, g ⟨1024 * j + 256 * 2 + q.val, by omega⟩)
        + (0 + ∑ q : Fin 256, g ⟨1024 * j + 256 * 3 + q.val, by omega⟩) := by
  have e : ∀ (c : ℕ) (hc : c < 4),
      (∑ k : Fin 256, g ⟨1024 * j + (256 * c + k.val), by omega⟩)
        = ∑ q : Fin 256, g ⟨1024 * j + 256 * c + q.val, by omega⟩ := fun c hc =>
    Finset.sum_congr rfl fun q _ => congrArg g (Fin.ext (Nat.add_assoc _ _ _).symm)
  rw [LibSumChunks.sum_four_chunks 256 (by norm_num : 1024 = 4 * 256)
    (fun k : Fin 1024 => g ⟨1024 * j + k.val, by omega⟩)]
  simp only [zero_add]
  rw [e 0 (by norm_num), e 1 (by norm_num), e 2 (by norm_num), e 3 (by norm_num)]

/-- **Tiled accumulation.** A running total `A` over `8192` positions starts at zero and, for each of the
    `8` tiles of `1024` positions, adds the tile's four chunks of `256` one after the other, each chunk
    being zero plus the sum of its entries. After the eight tiles the total is the sum over all `8192`
    positions. No finiteness is assumed. -/
theorem tiled_sum (g : Fin 8192 → EReal) (A : ℕ → EReal) (ch : ℕ → ℕ → EReal)
    (hch : ∀ (j c : ℕ) (hj : j < 8) (hc : c < 4),
      ch j c = 0 + ∑ q : Fin 256, g ⟨1024 * j + 256 * c + q.val, by omega⟩)
    (h0 : A 0 = 0)
    (hs : ∀ j, j < 8 → A (j + 1) = A j + ch j 0 + ch j 1 + ch j 2 + ch j 3) :
    A 8 = ∑ c : Fin 8192, g c := by
  have hA : A 8 = ∑ j ∈ Finset.range 8, (ch j 0 + ch j 1 + ch j 2 + ch j 3) :=
    accumulate_range A (fun j => ch j 0 + ch j 1 + ch j 2 + ch j 3) h0 8 fun j hj => by
      rw [hs j hj]; simp only [add_assoc]
  rw [hA, LibSumChunks.sum_chunks 8 1024 (by norm_num : 8192 = 8 * 1024) g,
    ← Fin.sum_univ_eq_sum_range (fun j => ch j 0 + ch j 1 + ch j 2 + ch j 3) 8]
  refine Finset.sum_congr rfl fun j _ => ?_
  rw [hch j 0 j.isLt (by norm_num), hch j 1 j.isLt (by norm_num), hch j 2 j.isLt (by norm_num),
    hch j 3 j.isLt (by norm_num)]
  exact (tile_eq_chunks g j j.isLt).symm

/-- The same when each chunk is the bare sum of its entries, with no zero in front. -/
theorem tiled_sum' (g : Fin 8192 → EReal) (A : ℕ → EReal) (ch : ℕ → ℕ → EReal)
    (hch : ∀ (j c : ℕ) (hj : j < 8) (hc : c < 4),
      ch j c = ∑ q : Fin 256, g ⟨1024 * j + 256 * c + q.val, by omega⟩)
    (h0 : A 0 = 0)
    (hs : ∀ j, j < 8 → A (j + 1) = A j + ch j 0 + ch j 1 + ch j 2 + ch j 3) :
    A 8 = ∑ c : Fin 8192, g c :=
  tiled_sum g A ch (fun j c hj hc => by rw [hch j c hj hc, zero_add]) h0 hs

/-- The same with the chunks indexed by their tile `j : Fin 8` and their place `c : Fin 4` in the tile. -/
theorem tiled_sum_fin (g : Fin 8192 → EReal) (A : ℕ → EReal) (ch : Fin 8 → Fin 4 → EReal)
    (hch : ∀ (j : Fin 8) (c : Fin 4),
      ch j c = ∑ q : Fin 256, g ⟨1024 * j.val + 256 * c.val + q.val, by omega⟩)
    (h0 : A 0 = 0)
    (hs : ∀ (j : ℕ) (hj : j < 8),
      A (j + 1) = A j + ch ⟨j, hj⟩ 0 + ch ⟨j, hj⟩ 1 + ch ⟨j, hj⟩ 2 + ch ⟨j, hj⟩ 3) :
    A 8 = ∑ c : Fin 8192, g c := by
  refine tiled_sum' g A
    (fun j c => if hj : j < 8 then (if hc : c < 4 then ch ⟨j, hj⟩ ⟨c, hc⟩ else 0) else 0) ?_ h0 ?_
  · intro j c hj hc
    simp only [dif_pos hj, dif_pos hc]
    exact hch ⟨j, hj⟩ ⟨c, hc⟩
  · intro j hj
    rw [hs j hj]
    simp only [dif_pos hj, dif_pos (show (0 : ℕ) < 4 by norm_num), dif_pos (show (1 : ℕ) < 4 by norm_num),
      dif_pos (show (2 : ℕ) < 4 by norm_num), dif_pos (show (3 : ℕ) < 4 by norm_num)]
    rfl

/-! ## Multiplying by a reciprocal -/

/-- Multiplying by the quotient `1 / n` is dividing by `n`, for every extended real `x` and every
    `n` other than zero (both are `x * n⁻¹`). -/
theorem mul_div_one_of_ne_zero (x n : EReal) (hn : n ≠ 0) : x * Ideal.div 1 n = Ideal.div x n := by
  rw [Ideal.div, if_neg hn, one_mul, Ideal.div, if_neg hn]

/-- In particular for a positive finite divisor. -/
theorem mul_div_one (x n : EReal) (hpos : 0 < n) (_hfin : n ≠ ⊤) : x * Ideal.div 1 n = Ideal.div x n :=
  mul_div_one_of_ne_zero x n hpos.ne'

/-! ## The extended reals a few 32-bit float words denote

Each word is read by its fields: sign, eight exponent bits (bias 127) and twenty-three fraction bits. -/

/-- The word `0x3DCCCCCD` (exponent field 123, fraction 5033165) is `13421773 · 2⁻²⁷`, the
    single-precision number nearest one tenth. -/
theorem ofBits_D : Ideal.ofBits .f32 0x3DCCCCCD#32 = ((13421773 / 134217728 : ℝ) : EReal) := by
  simp [Ideal.ofBits, Ideal.ieee, -EReal.coe_mul]; norm_num

/-- The word `0x2B8CBCCC` (exponent field 87, fraction 834764) is `9223372 · 2⁻⁶³`, about `10⁻¹²`. -/
theorem ofBits_eps : Ideal.ofBits .f32 0x2B8CBCCC#32 = ((9223372 / 9223372036854775808 : ℝ) : EReal) := by
  simp [Ideal.ofBits, Ideal.ieee, -EReal.coe_mul]; norm_num

/-- The word `0x46000000` is `2¹³ = 8192`. -/
theorem ofBits_8192 : Ideal.ofBits .f32 0x46000000#32 = ((8192 : ℝ) : EReal) := by
  simp [Ideal.ofBits, Ideal.ieee, -EReal.coe_mul]; norm_num

/-- The word `0x45800000` is `2¹² = 4096`. -/
theorem ofBits_4096 : Ideal.ofBits .f32 0x45800000#32 = ((4096 : ℝ) : EReal) := by
  simp [Ideal.ofBits, Ideal.ieee, -EReal.coe_mul]; norm_num

/-- The word `0x3F800000` is `1`. -/
theorem ofBits_one : Ideal.ofBits .f32 0x3F800000#32 = 1 := by
  simp [Ideal.ofBits, Ideal.ieee, -EReal.coe_mul]; norm_num

/-- The all-zero word is `0`. -/
theorem ofBits_zero : Ideal.ofBits .f32 0x00000000#32 = 0 := by
  simp [Ideal.ofBits, Ideal.ieee]

/-- The word `0x2B8CBCCC` is a positive real number. -/
theorem ofBits_eps_pos : ∃ e : ℝ, 0 < e ∧ Ideal.ofBits .f32 0x2B8CBCCC#32 = (e : EReal) :=
  ⟨9223372 / 9223372036854775808, by norm_num, ofBits_eps⟩

/-- **The reciprocal of the temperature.** Multiplying by the real `134217728 / 13421773` is dividing
    by the word `0x3DCCCCCD`, which is `13421773 / 134217728`: for every extended real, the
    infinities included. -/
theorem mul_inv_tau (g : EReal) :
    g * ((134217728 / 13421773 : ℝ) : EReal) = Ideal.div g (Ideal.ofBits .f32 0x3DCCCCCD#32) := by
  have h : (134217728 / 13421773 : ℝ) = 1 / (13421773 / 134217728 : ℝ) := by norm_num
  rw [ofBits_D, Ideal.div_coe (by norm_num : (13421773 / 134217728 : ℝ) ≠ 0), h]

/-- Multiplying by the quotient of the word for `1` by `n` is dividing by `n`, written with the
    float operations themselves: a product with a host quotient against a host quotient. -/
theorem mulf_hostDivf_one (x n : Ideal .f32) (hn : n ≠ 0) :
    FloatOps.mulf x (FloatOps.hostDivf (F := Ideal) (FloatOps.ofBits .f32 0x3F800000#32) n)
      = FloatOps.hostDivf x n := by
  rw [Ideal.mulf_def, Ideal.hostDivf_def, Ideal.hostDivf_def, Ideal.ofBits_def, ofBits_one]
  exact mul_div_one_of_ne_zero x n hn

/-- The same when the reciprocal is taken by the vector quotient. -/
theorem mulf_divf_one (x n : Ideal .f32) (hn : n ≠ 0) :
    FloatOps.mulf x (FloatOps.divf (F := Ideal) (FloatOps.ofBits .f32 0x3F800000#32) n)
      = FloatOps.hostDivf x n := by
  rw [Ideal.mulf_def, Ideal.divf_def, Ideal.hostDivf_def, Ideal.ofBits_def, ofBits_one]
  exact mul_div_one_of_ne_zero x n hn

/-! ## Values of the operations at real numbers -/

/-- A finite sum of products of reals, inside the extended reals, is the real sum of products. -/
theorem sum_mul_coe {ι : Type*} [Fintype ι] (x y : ι → ℝ) :
    ∑ k, (x k : EReal) * (y k : EReal) = ((∑ k, x k * y k : ℝ) : EReal) := by
  rw [coe_sum_univ]
  exact Finset.sum_congr rfl fun k _ => (EReal.coe_mul _ _).symm

/-- The same started from zero. -/
theorem zero_add_sum_mul_coe {ι : Type*} [Fintype ι] (x y : ι → ℝ) :
    (0 : EReal) + ∑ k, (x k : EReal) * (y k : EReal) = ((∑ k, x k * y k : ℝ) : EReal) := by
  rw [zero_add, sum_mul_coe]

/-- The square root of a real number that is not negative is its real square root. -/
theorem sqrt_coe_of_nonneg {r : ℝ} (h : 0 ≤ r) : Ideal.sqrt (r : EReal) = ((Real.sqrt r : ℝ) : EReal) := by
  rw [Ideal.sqrt_coe, if_neg (not_lt.mpr h)]

/-- The maximum of two reals, inside the extended reals, is the real maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The quotient of a real by a real other than zero is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The logarithm of a positive real is its real logarithm. -/
theorem log_coe_of_pos {r : ℝ} (h : 0 < r) : Ideal.log (r : EReal) = ((Real.log r : ℝ) : EReal) := by
  rw [Ideal.log_coe, if_neg (not_le.mpr h)]

/-- A sum of squares of reals is not negative. -/
theorem sum_sq_nonneg {ι : Type*} [Fintype ι] (x : ι → ℝ) : 0 ≤ ∑ k, x k * x k :=
  Finset.sum_nonneg fun k _ => mul_self_nonneg (x k)

/-- **The norm of a row**, bounded below by `e`: the maximum of `e` and the square root of the sum
    (started from zero) of the squares of the row's real entries, is the real number
    `max (√(∑ x²)) e`. -/
theorem norm_value {ι : Type*} [Fintype ι] (x : ι → ℝ) (e : ℝ) :
    max (Ideal.sqrt (0 + ∑ k, (x k : EReal) * (x k : EReal))) (e : EReal)
      = ((max (Real.sqrt (∑ k, x k * x k)) e : ℝ) : EReal) := by
  rw [zero_add_sum_mul_coe, sqrt_coe_of_nonneg (sum_sq_nonneg x), max_coe]

/-- The same with the sum of squares not started from zero. -/
theorem norm_value' {ι : Type*} [Fintype ι] (x : ι → ℝ) (e : ℝ) :
    max (Ideal.sqrt (∑ k, (x k : EReal) * (x k : EReal))) (e : EReal)
      = ((max (Real.sqrt (∑ k, x k * x k)) e : ℝ) : EReal) := by
  have h := norm_value x e
  rwa [zero_add] at h

/-- … and it is positive when `e` is. -/
theorem norm_pos {ι : Type*} [Fintype ι] (x : ι → ℝ) {e : ℝ} (he : 0 < e) :
    0 < max (Real.sqrt (∑ k, x k * x k)) e := lt_max_of_lt_right he

/-! ## Real, non-negative real and positive real extended reals -/

/-- An extended real that is a real number. -/
def IsReal (x : EReal) : Prop := ∃ r : ℝ, x = (r : EReal)
/-- An extended real that is a real number `≥ 0`. -/
def IsNonnegReal (x : EReal) : Prop := ∃ r : ℝ, 0 ≤ r ∧ x = (r : EReal)
/-- An extended real that is a real number `> 0`. -/
def IsPosReal (x : EReal) : Prop := ∃ r : ℝ, 0 < r ∧ x = (r : EReal)

theorem isReal_coe (r : ℝ) : IsReal (r : EReal) := ⟨r, rfl⟩
theorem isReal_zero : IsReal 0 := ⟨0, rfl⟩
theorem IsPosReal.isNonnegReal {x : EReal} (h : IsPosReal x) : IsNonnegReal x :=
  let ⟨r, hr, e⟩ := h; ⟨r, hr.le, e⟩
theorem IsNonnegReal.isReal {x : EReal} (h : IsNonnegReal x) : IsReal x :=
  let ⟨r, _, e⟩ := h; ⟨r, e⟩
theorem IsPosReal.isReal {x : EReal} (h : IsPosReal x) : IsReal x := h.isNonnegReal.isReal

/-- Being a real number is being neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- A real extended real is the extended real of its real part. -/
theorem IsReal.eq_coe_toReal {x : EReal} (h : IsReal x) : x = ((x.toReal : ℝ) : EReal) := by
  obtain ⟨r, rfl⟩ := h; rw [EReal.toReal_coe]

theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem IsPosReal.ne_top {x : EReal} (h : IsPosReal x) : x ≠ ⊤ := (isReal_iff.mp h.isReal).1

/-- The word `0x2B8CBCCC` is a positive real. -/
theorem isPosReal_eps : IsPosReal (Ideal.ofBits .f32 0x2B8CBCCC#32) := ofBits_eps_pos

/-- Sums, products, differences and negatives of real numbers are real numbers. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩

/-- A finite sum of real numbers is a real number. -/
theorem IsReal.sum {ι : Type*} (s : Finset ι) (x : ι → EReal) (h : ∀ i ∈ s, IsReal (x i)) :
    IsReal (∑ i ∈ s, x i) :=
  ⟨∑ i ∈ s, (x i).toReal, by
    rw [AggregateLinear.coe_sum]; exact Finset.sum_congr rfl fun i hi => (h i hi).eq_coe_toReal⟩

/-- … also when started from zero. -/
theorem IsReal.zero_add_sum {ι : Type*} (s : Finset ι) (x : ι → EReal) (h : ∀ i ∈ s, IsReal (x i)) :
    IsReal (0 + ∑ i ∈ s, x i) := by rw [zero_add]; exact IsReal.sum s x h

/-- The sum (started from zero) of the squares of real numbers is a real number `≥ 0`. -/
theorem isNonnegReal_sum_sq {ι : Type*} [Fintype ι] (x : ι → EReal) (h : ∀ k, IsReal (x k)) :
    IsNonnegReal (0 + ∑ k, x k * x k) := by
  refine ⟨∑ k, (x k).toReal * (x k).toReal, sum_sq_nonneg _, ?_⟩
  rw [← zero_add_sum_mul_coe]
  exact congrArg (0 + ·) (Finset.sum_congr rfl fun k _ => by rw [← (h k).eq_coe_toReal])

/-- The same not started from zero. -/
theorem isNonnegReal_sum_sq' {ι : Type*} [Fintype ι] (x : ι → EReal) (h : ∀ k, IsReal (x k)) :
    IsNonnegReal (∑ k, x k * x k) := by
  have h' := isNonnegReal_sum_sq x h
  rwa [zero_add] at h'

/-- The square root of a real `≥ 0` is a real `≥ 0`. -/
theorem IsNonnegReal.sqrt {x : EReal} (h : IsNonnegReal x) : IsNonnegReal (Ideal.sqrt x) := by
  obtain ⟨r, hr, rfl⟩ := h
  exact ⟨Real.sqrt r, Real.sqrt_nonneg r, sqrt_coe_of_nonneg hr⟩

/-- The maximum of a real `≥ 0` and a positive real is a positive real. -/
theorem IsNonnegReal.max_pos {x y : EReal} (hx : IsNonnegReal x) (hy : IsPosReal y) : IsPosReal (max x y) := by
  obtain ⟨a, _, rfl⟩ := hx; obtain ⟨b, hb, rfl⟩ := hy
  exact ⟨max a b, lt_max_of_lt_right hb, max_coe a b⟩

/-- The quotient of a real by a positive real is a real. -/
theorem IsReal.div_pos {x n : EReal} (hx : IsReal x) (hn : IsPosReal n) : IsReal (Ideal.div x n) := by
  obtain ⟨a, rfl⟩ := hx; obtain ⟨b, hb, rfl⟩ := hn
  exact ⟨a / b, div_coe_coe a hb.ne'⟩

/-- The exponential of a real is a positive real: never `0`, never `⊤`. -/
theorem IsReal.exp {x : EReal} (hx : IsReal x) : IsPosReal (Ideal.exp x) := by
  obtain ⟨a, rfl⟩ := hx
  exact ⟨Real.exp a, Real.exp_pos a, Ideal.exp_coe a⟩

/-- The logarithm of a positive real is a real. -/
theorem IsPosReal.log {x : EReal} (hx : IsPosReal x) : IsReal (Ideal.log x) := by
  obtain ⟨a, ha, rfl⟩ := hx
  exact ⟨Real.log a, log_coe_of_pos ha⟩

/-- The quotient of two positive reals is a positive real. -/
theorem IsPosReal.div {x n : EReal} (hx : IsPosReal x) (hn : IsPosReal n) : IsPosReal (Ideal.div x n) := by
  obtain ⟨a, ha, rfl⟩ := hx; obtain ⟨b, hb, rfl⟩ := hn
  exact ⟨a / b, _root_.div_pos ha hb, div_coe_coe a hb.ne'⟩

/-- The sum of two positive reals is a positive real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- A sum of positive reals over a finite set that is not empty is a positive real. -/
theorem IsPosReal.sum {ι : Type*} (s : Finset ι) (hs : s.Nonempty) (x : ι → EReal)
    (h : ∀ i ∈ s, IsPosReal (x i)) : IsPosReal (∑ i ∈ s, x i) := by
  refine ⟨∑ i ∈ s, (x i).toReal, Finset.sum_pos (fun i hi => ?_) hs, ?_⟩
  · obtain ⟨r, hr, e⟩ := h i hi; rw [e, EReal.toReal_coe]; exact hr
  · rw [AggregateLinear.coe_sum]; exact Finset.sum_congr rfl fun i hi => (h i hi).isReal.eq_coe_toReal

/-! ## One row of the loss

Write `D` for the word `0x3DCCCCCD` (the temperature) and `S c = exp (d c / D)` for real numbers `d c`
(the inner products of one row with every row). The whole sum of the `S c` minus the entry at `b` is the
entry at `a` plus the sum of `exp (d c · (1/D))` over the indices `c` other than `a` and `b`. -/

/-- The exponential of a real divided by the temperature word is a real exponential. -/
theorem exp_div_D (d : ℝ) :
    Ideal.exp (Ideal.div (d : EReal) (Ideal.ofBits .f32 0x3DCCCCCD#32))
      = ((Real.exp (d / (13421773 / 134217728)) : ℝ) : EReal) := by
  rw [ofBits_D, div_coe_coe d (by norm_num), Ideal.exp_coe]

/-- The exponential of a product with the reciprocal of the temperature is the exponential of the quotient. -/
theorem exp_mul_inv_tau (g : EReal) :
    Ideal.exp (g * ((134217728 / 13421773 : ℝ) : EReal))
      = Ideal.exp (Ideal.div g (Ideal.ofBits .f32 0x3DCCCCCD#32)) := by
  rw [mul_inv_tau]

/-- **The row identity, for real exponents** `d c` and two distinct indices `a`, `b`. -/
theorem row_identity_real {N : ℕ} (d : Fin N → ℝ) {a b : Fin N} (hab : a ≠ b) :
    (0 + ∑ c, Ideal.exp (Ideal.div (d c : EReal) (Ideal.ofBits .f32 0x3DCCCCCD#32)))
        - Ideal.exp (Ideal.div (d b : EReal) (Ideal.ofBits .f32 0x3DCCCCCD#32))
      = Ideal.exp (Ideal.div (d a : EReal) (Ideal.ofBits .f32 0x3DCCCCCD#32))
        + ∑ c : Fin N, (if a.val = c.val ∨ c.val = b.val then (0 : EReal)
            else Ideal.exp ((d c : EReal) * ((134217728 / 13421773 : ℝ) : EReal))) := by
  simp only [exp_mul_inv_tau, exp_div_D]
  exact remove_pair_val (fun c => Real.exp (d c / (13421773 / 134217728))) hab

/-- A row index and the index half the range further on (modulo the range) are different. -/
theorem ne_partner (r : Fin 8192) : r ≠ ⟨(r.val + 4096) % 8192, Nat.mod_lt _ (by norm_num)⟩ := by
  intro h
  have hv : r.val = (r.val + 4096) % 8192 := congrArg Fin.val h
  omega

/-- **The row identity** for `8192` rows `z r` of `512` real entries: with
    `S r c = exp ((∑ k, z r k · z c k) / D)` and the partner of `r` the row `(r + 4096) mod 8192`, the whole
    row sum of `S r c` minus the entry at the partner is the diagonal entry `exp ((0 + ∑ k, z r k²) / D)` plus
    the sum, over the columns other than `r` and its partner, of `exp ((∑ k, z r k · z c k) · (1/D))`. -/
theorem row_identity (z : Fin 8192 → Fin 512 → ℝ) (r : Fin 8192) :
    (0 + ∑ c, Ideal.exp (Ideal.div (∑ k, (z r k : EReal) * (z c k : EReal)) (Ideal.ofBits .f32 0x3DCCCCCD#32)))
        - Ideal.exp (Ideal.div
            (∑ k, (z r k : EReal) * (z ⟨(r.val + 4096) % 8192, Nat.mod_lt _ (by norm_num)⟩ k : EReal))
            (Ideal.ofBits .f32 0x3DCCCCCD#32))
      = Ideal.exp (Ideal.div (0 + ∑ k, (z r k : EReal) * (z r k : EReal)) (Ideal.ofBits .f32 0x3DCCCCCD#32))
        + ∑ c : Fin 8192, (if r.val = c.val ∨ c.val = (r.val + 4096) % 8192 then (0 : EReal)
            else Ideal.exp ((∑ k, (z r k : EReal) * (z c k : EReal)) * ((134217728 / 13421773 : ℝ) : EReal))) := by
  rw [zero_add_sum_mul_coe]
  simp only [sum_mul_coe]
  exact row_identity_real (fun c => ∑ k, z r k * z c k) (ne_partner r)

end Cert.LibNtXent

end
-- ==== Proof.SpecEq.lean ====
/-
  The kernel program's formulas and the reference's formulas give the same loss on finite inputs.

  Row by row. The kernel multiplies an entry by the reciprocal of its row's floored norm where the reference
  divides by the floored norm; the floored norm is at least `eps > 0`, so the two normalised entries are the same
  extended real. The kernel scales an inner product by `134217728 / 13421773` where the reference divides by the word
  `13421773 / 134217728`: the same. So every exponential the kernel adds into a row's running total is one of the
  reference's similarities, and the running total after all tiles is the sum of the row's similarities over the columns
  other than the row itself and its partner. For finite inputs every similarity is the exponential of a real number,
  hence a real number, and then "the whole row sum less the partner's entry" is "the row's own entry plus the sum over
  the other columns". The positive pair's similarity is the same inner product, with its factors in the other order in
  the second half of the rows. The remaining stages are the same operations applied to equal values.
-/
import proofs.«144959_j9036611191122_2_alg».proof.Proof.KProgSpec
import proofs.«144959_j9036611191122_2_alg».proof.Proof.LibNtXent

noncomputable section

namespace Cert.SpecEq

open Idealize.ShloMosaic Idealize.ShloMosaic.ValueIdx
open Cert.Spec Cert.LibNtXent
open scoped BigOperators

/-! ## Normalised entries -/

/-- The floor of the norms is positive. -/
theorem eps_pos : 0 < Ref.eps := isPosReal_eps.pos

/-- A floored norm is positive, whatever the row. -/
theorem nrm_pos (x : Ref.Arr) (p : Fin 4096) : 0 < Ref.nrm x p := lt_max_of_lt_right eps_pos

/-- The kernel's normalised entry (a product with a reciprocal) is the reference's (a quotient). -/
theorem zn_eq (x : Ref.Arr) (p : Fin 4096) (k : Fin 512) :
    KerProg.zn x p k = Ideal.div (x (ix2 p k)) (Ref.nrm x p) := by
  unfold KerProg.zn KerProg.inv KerProg.one
  rw [ofBits_one]
  exact mul_div_one_of_ne_zero _ _ (nrm_pos x p).ne'

/-- The stacked normalised rows, by halves, in the kernel's entries. -/
theorem zr_lt (a0 a1 : Ref.Arr) (r : Fin 8192) (k : Fin 512) (h : r.val < 4096) :
    Ref.zr a0 a1 r k = KerProg.zn a0 ⟨r.val, h⟩ k := by
  unfold Ref.zr
  rw [dif_pos h, zn_eq]

theorem zr_ge (a0 a1 : Ref.Arr) (r : Fin 8192) (k : Fin 512) (h : ¬ r.val < 4096) :
    Ref.zr a0 a1 r k = KerProg.zn a1 ⟨r.val - 4096, by omega⟩ k := by
  unfold Ref.zr
  rw [dif_neg h, zn_eq]

/-- A stacked raw entry times its row's stacked reciprocal is the reference's stacked normalised entry. -/
theorem raw_mul_invs (a0 a1 : Ref.Arr) (r : Fin 8192) (k : Fin 512) :
    KerProg.raw a0 a1 r k * KerProg.invs a0 a1 r = Ref.zr a0 a1 r k := by
  by_cases h : r.val < 4096
  · rw [zr_lt a0 a1 r k h]
    unfold KerProg.raw KerProg.invs
    rw [dif_pos h, dif_pos h]
    rfl
  · rw [zr_ge a0 a1 r k h]
    unfold KerProg.raw KerProg.invs
    rw [dif_neg h, dif_neg h]
    rfl

/-! ## One chunk -/

/-- The exponential of the kernel's scaled similarity of row `p` of row tile `i` and row `q` of chunk `ch` of
    column tile `j` is the reference's similarity of the two stacked rows. -/
theorem exp_ker_sim (a0 a1 : Ref.Arr) (i j : Fin 8) (ch : Fin 4) (p : Fin 1024) (q : Fin 256) :
    Ideal.exp (Ker.sim (KerProg.rowsT a0 a1 i) (KerProg.rinvT a0 a1 i) (KerProg.colsC a0 a1 j ch)
        (KerProg.cinvC a0 a1 j ch) p q)
      = Ref.sim a0 a1 ⟨1024 * i.val + p.val, by omega⟩ ⟨1024 * j.val + 256 * ch.val + q.val, by omega⟩ := by
  have hsum : (∑ k : Fin 512, (KerProg.rowsT a0 a1 i (ix2 p k) * KerProg.rinvT a0 a1 i (ix2 p (0 : Fin 1)))
        * (KerProg.colsC a0 a1 j ch (ix2 q k) * KerProg.cinvC a0 a1 j ch (ix2 q (0 : Fin 1))))
      = Ref.dotz a0 a1 ⟨1024 * i.val + p.val, by omega⟩ ⟨1024 * j.val + 256 * ch.val + q.val, by omega⟩ := by
    unfold Ref.dotz
    refine Finset.sum_congr rfl fun k _ => ?_
    rw [← raw_mul_invs, ← raw_mul_invs]
    rfl
  unfold Ker.sim Ker.invTau Ref.sim Ref.tau
  rw [hsum, exp_mul_inv_tau]

/-- One chunk's contribution to a row is the sum, over the chunk's 256 stacked columns, of the row's similarities
    with the columns other than the row itself and its partner. -/
theorem chunk_eq (a0 a1 : Ref.Arr) (i j : Fin 8) (ch : Fin 4) (p : Fin 1024) :
    Ker.chunk i.val j.val ch.val (KerProg.rowsT a0 a1 i) (KerProg.rinvT a0 a1 i) (KerProg.colsC a0 a1 j ch)
        (KerProg.cinvC a0 a1 j ch) p
      = ∑ q : Fin 256,
          (fun c : Fin 8192 =>
            if (1024 * i.val + p.val) = c.val ∨ c.val = (1024 * i.val + p.val + 4096) % 8192 then (0 : EReal)
            else Ref.sim a0 a1 ⟨1024 * i.val + p.val, by omega⟩ c)
          ⟨1024 * j.val + 256 * ch.val + q.val, by omega⟩ := by
  unfold Ker.chunk
  refine Finset.sum_congr rfl fun q _ => ?_
  rw [exp_ker_sim]
  exact if_congr Iff.rfl rfl rfl

/-! ## A row's running total -/

/-- The running total of row `p` of row tile `i` after the eight column tiles is the sum of the row's similarities
    over all the stacked columns other than the row itself and its partner. -/
theorem accUpTo_eight (a0 a1 : Ref.Arr) (i : Fin 8) (p : Fin 1024) :
    KerProg.accUpTo a0 a1 i p 8
      = ∑ c : Fin 8192,
          if (1024 * i.val + p.val) = c.val ∨ c.val = (1024 * i.val + p.val + 4096) % 8192 then (0 : EReal)
          else Ref.sim a0 a1 ⟨1024 * i.val + p.val, by omega⟩ c := by
  refine tiled_sum_fin
    (fun c : Fin 8192 =>
      if (1024 * i.val + p.val) = c.val ∨ c.val = (1024 * i.val + p.val + 4096) % 8192 then (0 : EReal)
      else Ref.sim a0 a1 ⟨1024 * i.val + p.val, by omega⟩ c)
    (KerProg.accUpTo a0 a1 i p)
    (fun j ch => Ker.chunk i.val j.val ch.val (KerProg.rowsT a0 a1 i) (KerProg.rinvT a0 a1 i)
      (KerProg.colsC a0 a1 j ch) (KerProg.cinvC a0 a1 j ch) p)
    (fun j ch => chunk_eq a0 a1 i j ch p) rfl ?_
  intro j hj
  show (if h : j < 8 then _ else _) = _
  rw [dif_pos hj]
  rfl

/-- The kernel's row sum of stacked row `r`. -/
theorem rowsum_eq (a0 a1 : Ref.Arr) (r : Fin 8192) :
    KerProg.rowsum a0 a1 r
      = ∑ c : Fin 8192, if r.val = c.val ∨ c.val = (r.val + 4096) % 8192 then (0 : EReal) else Ref.sim a0 a1 r c := by
  unfold KerProg.rowsum
  rw [accUpTo_eight]
  have hv : 1024 * (r.val / 1024) + r.val % 1024 = r.val := Nat.div_add_mod r.val 1024
  have hr : (⟨1024 * (r.val / 1024) + r.val % 1024, by omega⟩ : Fin 8192) = r := Fin.ext hv
  refine Finset.sum_congr rfl fun c _ => ?_
  show (if 1024 * (r.val / 1024) + r.val % 1024 = c.val
        ∨ c.val = (1024 * (r.val / 1024) + r.val % 1024 + 4096) % 8192 then (0 : EReal)
      else Ref.sim a0 a1 ⟨1024 * (r.val / 1024) + r.val % 1024, by omega⟩ c) = _
  rw [hr]
  simp only [hv]

/-! ## The diagonal and the positive pair -/

/-- The kernel's own-similarity of a row is the reference's similarity of the row with itself. -/
theorem diag_eq (a0 a1 : Ref.Arr) (r : Fin 8192) : KerProg.diag a0 a1 r = Ref.sim a0 a1 r r := by
  unfold KerProg.diag Ref.sim Ref.dotz
  by_cases h : r.val < 4096
  · rw [dif_pos h]
    simp only [zr_lt a0 a1 r _ h]
  · rw [dif_neg h]
    simp only [zr_ge a0 a1 r _ h]

/-- The partner of a row of the first half is the same row of the second half, and conversely. -/
theorem pos_val (r : Fin 8192) : (Ref.pos r).val = (r.val + 4096) % 8192 := rfl

/-- The kernel's positive-pair similarity is the reference's. -/
theorem posK_eq (a0 a1 : Ref.Arr) (r : Fin 8192) : KerProg.posK a0 a1 r = Ref.posR a0 a1 r := by
  unfold KerProg.posK Ref.posR Ref.sim Ref.dotz
  by_cases h : r.val < 4096
  · rw [dif_pos h]
    have hp : ¬ (Ref.pos r).val < 4096 := by rw [pos_val]; omega
    have hpe : (⟨(Ref.pos r).val - 4096, by rw [pos_val]; omega⟩ : Fin 4096) = ⟨r.val, h⟩ :=
      Fin.ext (by show (r.val + 4096) % 8192 - 4096 = r.val; omega)
    congr 2
    refine Finset.sum_congr rfl fun k _ => ?_
    rw [zr_lt a0 a1 r k h, zr_ge a0 a1 (Ref.pos r) k hp, hpe]
  · rw [dif_neg h]
    have hp : (Ref.pos r).val < 4096 := by rw [pos_val]; omega
    have hpe : (⟨(Ref.pos r).val, hp⟩ : Fin 4096) = ⟨r.val - 4096, by omega⟩ :=
      Fin.ext (by show (r.val + 4096) % 8192 = r.val - 4096; omega)
    congr 2
    refine Finset.sum_congr rfl fun k _ => ?_
    rw [zr_ge a0 a1 r k h, zr_lt a0 a1 (Ref.pos r) k hp, hpe, mul_comm]

/-! ## Finite inputs: every similarity is a real number -/

/-- The floored norm of a row of real numbers is a positive real. -/
theorem isPosReal_nrm (x : Ref.Arr) (hx : ∀ i, IsReal (x i)) (p : Fin 4096) : IsPosReal (Ref.nrm x p) :=
  (isNonnegReal_sum_sq' (fun k => x (ix2 p k)) fun k => hx _).sqrt.max_pos isPosReal_eps

/-- A stacked normalised entry of real inputs is a real number. -/
theorem isReal_zr (a0 a1 : Ref.Arr) (h0 : ∀ i, IsReal (a0 i)) (h1 : ∀ i, IsReal (a1 i)) (r : Fin 8192)
    (k : Fin 512) : IsReal (Ref.zr a0 a1 r k) := by
  unfold Ref.zr
  by_cases h : r.val < 4096
  · rw [dif_pos h]; exact (h0 _).div_pos (isPosReal_nrm a0 h0 _)
  · rw [dif_neg h]; exact (h1 _).div_pos (isPosReal_nrm a1 h1 _)

/-- The temperature word is a positive real. -/
theorem isPosReal_tau : IsPosReal Ref.tau := ⟨13421773 / 134217728, by norm_num, ofBits_D⟩

/-- A similarity of real inputs is a positive real. -/
theorem isPosReal_sim (a0 a1 : Ref.Arr) (h0 : ∀ i, IsReal (a0 i)) (h1 : ∀ i, IsReal (a1 i)) (r c : Fin 8192) :
    IsPosReal (Ref.sim a0 a1 r c) :=
  ((IsReal.sum Finset.univ _ fun k _ =>
    (isReal_zr a0 a1 h0 h1 r k).mul (isReal_zr a0 a1 h0 h1 c k)).div_pos isPosReal_tau).exp

/-! ## The negatives -/

/-- For finite inputs the kernel's negatives (the row's own similarity plus its row sum) are the reference's (the whole
    row sum less the partner's entry). -/
theorem negK_eq (a0 a1 : Ref.Arr) (h0 : ∀ i, IsReal (a0 i)) (h1 : ∀ i, IsReal (a1 i)) (r : Fin 8192) :
    KerProg.negK a0 a1 r = Ref.negR a0 a1 r := by
  have hf : ∀ c, Ref.sim a0 a1 r c = (((Ref.sim a0 a1 r c).toReal : ℝ) : EReal) := fun c =>
    (isPosReal_sim a0 a1 h0 h1 r c).isReal.eq_coe_toReal
  unfold KerProg.negK Ref.negR Ref.posR
  rw [diag_eq, rowsum_eq]
  have key := remove_pair_val' (fun c => (Ref.sim a0 a1 r c).toReal) (ne_partner r)
  simp only [← hf] at key
  exact key.symm

/-! ## The loss -/

/-- Row by row the two losses agree. -/
theorem rowLoss_eq (a0 a1 : Ref.Arr) (h0 : ∀ i, IsReal (a0 i)) (h1 : ∀ i, IsReal (a1 i)) (r : Fin 8192) :
    KerProg.rowLoss a0 a1 r = Ref.rowLoss a0 a1 r := by
  unfold KerProg.rowLoss Ref.rowLoss
  rw [posK_eq, negK_eq a0 a1 h0 h1]

/-- **The kernel program's formulas and the reference's give the same loss** on arrays of finite entries. -/
theorem loss_eq (a0 a1 : Ref.Arr) (h0 : ∀ i, a0 i ≠ ⊤ ∧ a0 i ≠ ⊥) (h1 : ∀ i, a1 i ≠ ⊤ ∧ a1 i ≠ ⊥) :
    KerProg.loss a0 a1 = Ref.loss a0 a1 := by
  unfold KerProg.loss Ref.loss
  simp only [rowLoss_eq a0 a1 (fun i => isReal_iff.mpr (h0 i)) (fun i => isReal_iff.mpr (h1 i))]

end Cert.SpecEq

end
-- ==== Proof.PreFinite.lean ====
/-
  Finiteness from the precondition. The predicate is the conjunction of two "every entry has absolute value
  below +∞" tests, one per argument array, each a reduction by `and` of the entrywise comparison
  `|x| < +∞` from the constant `1`. If the predicate is `1`, both reductions are `1`, so every comparison is
  `1`; at the ideal values the comparison is the order of the extended reals, `|x|` is `max x (-x)`, and the
  word `0x7F800000` denotes `⊤`: an `x` with `max x (-x) < ⊤` is neither `⊤` nor `⊥`.
-/
import proofs.«144959_j9036611191122_2_alg».proof.Defs
import proofs.«144959_j9036611191122_2_alg».proof.Proof.Gen.Pre_finite_inputs
import Idealize.ShloMosaic.Lib.ReduceAll
import Idealize.ShloMosaic.Lib.ValueIdx
import Idealize.ShloMosaic.PureOps.Ideal.Laws

noncomputable section

namespace Cert.Proof.PreFinite

open Cert.Pre_finite_inputs Cert.Pre_finite_inputs.Gen Idealize.ShloMosaic Idealize.ShloMosaic.ValueIdx

/-- The rank-zero shape has one index. -/
instance : Subsingleton S_.Idx := ⟨fun a b => funext fun d => d.elim0⟩

/-- The f32 word of `+∞` denotes `⊤`. -/
theorem inf_word : Ideal.ofBits .f32 0x7F800000#32 = ⊤ := by simp [Ideal.ofBits, Ideal.ieee]

/-- An extended real whose absolute value is below `⊤` is neither infinity. -/
theorem finite_of_abs_lt (x : EReal) (h : max x (-x) < ⊤) : x ≠ ⊤ ∧ x ≠ ⊥ := by
  constructor
  · rintro rfl; simp at h
  · rintro rfl; simp at h

/-- One entry: the comparison `|a i| < +∞` being `1` makes `a i` finite. -/
theorem elt_finite (a : FVec Ideal S4096x512 .f32) (i : S4096x512.Idx)
    (h : cmpf .olt (Host.absf (F := Ideal) a)
        (broadcastInDim S4096x512 ![] bcast_S_S4096x512 (constant (F := Ideal) S_ .f32 0x7F800000#32)) i = 1#1) :
    a i ≠ ⊤ ∧ a i ≠ ⊥ := by
  have h' : BitVec.ofBool (decide (max (a i) (-(a i)) < Ideal.ofBits .f32 0x7F800000#32)) = 1#1 := h
  rw [inf_word] at h'
  have hlt : max (a i) (-(a i)) < ⊤ := by
    by_contra hn
    rw [decide_eq_false hn] at h'
    exact absurd h' (by decide)
  exact finite_of_abs_lt _ hlt

/-- THE PRECONDITION GIVES FINITENESS: if the predicate of the two arrays is all ones, every entry of either array is
    a real number. -/
theorem finite_of_fn (a0 a1 : FVec Ideal S4096x512 .f32)
    (h : Cert.Pre_finite_inputs.fn (F := Ideal) a0 a1 = fun _ => 1#1) :
    (∀ i, a0 i ≠ ⊤ ∧ a0 i ≠ ⊥) ∧ (∀ i, a1 i ≠ ⊤ ∧ a1 i ≠ ⊥) := by
  have h0 := congrFun h ix0
  dsimp only [fn] at h0
  have h1 : IntOp.andi
      (Host.reduce IntOp.andi
        (cmpf .olt (Host.absf (F := Ideal) a0)
          (broadcastInDim S4096x512 ![] bcast_S_S4096x512 (constant (F := Ideal) S_ .f32 0x7F800000#32)))
        (constantI S_ 1 1#1) reducesTo_S4096x512_S_d0_1 h_S_ ix0)
      (Host.reduce IntOp.andi
        (cmpf .olt (Host.absf (F := Ideal) a1)
          (broadcastInDim S4096x512 ![] bcast_S_S4096x512 (constant (F := Ideal) S_ .f32 0x7F800000#32)))
        (constantI S_ 1 1#1) reducesTo_S4096x512_S_d0_1 h_S_ ix0) = 1#1 := h0
  obtain ⟨hA, hB⟩ := IntOp.andi_eq_one.1 h1
  exact ⟨fun i => elt_finite a0 i (Host.reduce_andi_all _ _ _ _ ix0 hA i),
    fun i => elt_finite a1 i (Host.reduce_andi_all _ _ _ _ ix0 hB i)⟩

end Cert.Proof.PreFinite

end
-- ==== Proof.RefRun.lean ====
/-
  The reference program's run. Its @main is a straight line of host operations, one of which calls the
  module-local function `remainder` (itself calling `_where`); unfolding the two functions at the call site
  over the call's buffer record gives one list of 87 operations. Every weakly fair execution of that line
  terminates, and what the result buffer then holds is the operations' composed pure term of the two argument
  arrays, stated here as `result`: each row of either argument divided by `max (sqrt (0 + Σ x²)) eps`, the two
  normalised arrays stacked, the matrix `exp ((z · zᵀ) / D)`, its entry at column `(r + 4096) mod 8192` of row
  `r` (a gather whose start indices are computed on 32-bit integers), the row sums minus that entry, and
  the mean of `-log (positive / negative)`.
-/
import proofs.«144959_j9036611191122_2_alg».proof.Proof.Gen.ReferenceIdeal
import proofs.«144959_j9036611191122_2_alg».proof.Proof.Gen.Pre_finite_inputs
import proofs.«144959_j9036611191122_2_alg».proof.Defs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- @main's operations in order, the call of `remainder` unfolded into its twenty-one (its own twenty and
    `_where`'s select) over the record `main_call0`. -/
abbrev ops : List (HloOp τ sig (Elt F)) :=
  [ binary main_arg0 main_arg0 main_v0 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x00000000#32),
    binary main_v0 main_cst main_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x512 ![0, 1] bcast_S4096x1_S4096x512_0_1 : (⟨S4096x1, .f32⟩ : BufTy).Contents (Elt F) → (⟨S4096x512, .f32⟩ : BufTy).Contents (Elt F)),
    binary main_arg0 main_v6 main_v7 (Host.divf : (⟨S4096x512, .f32⟩ : BufTy).Contents (Elt F) → (⟨S4096x512, .f32⟩ : BufTy).Contents (Elt F) → (⟨S4096x512, .f32⟩ : BufTy).Contents (Elt F)),
    binary main_arg1 main_arg1 main_v8 (mulf : (⟨S4096x512, .f32⟩ : BufTy).Contents (Elt F) → (⟨S4096x512, .f32⟩ : BufTy).Contents (Elt F) → (⟨S4096x512, .f32⟩ : BufTy).Contents (Elt F)),
    nullary main_cst_1 (constant S_ .f32 0x00000000#32),
    binary main_v8 main_cst_1 main_v9 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x512 ![0, 1] bcast_S4096x1_S4096x512_0_1 : (⟨S4096x1, .f32⟩ : BufTy).Contents (Elt F) → (⟨S4096x512, .f32⟩ : BufTy).Contents (Elt F)),
    binary main_arg1 main_v14 main_v15 (Host.divf : (⟨S4096x512, .f32⟩ : BufTy).Contents (Elt F) → (⟨S4096x512, .f32⟩ : BufTy).Contents (Elt F) → (⟨S4096x512, .f32⟩ : BufTy).Contents (Elt F)),
    binary main_v7 main_v15 main_v16 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F)),
    unary main_v16 main_v17 ((transpose S512x8192 [1, 0] · transposes_S8192x512_S512x8192_1_0) : (⟨S8192x512, .f32⟩ : BufTy).Contents (Elt F) → (⟨S512x8192, .f32⟩ : BufTy).Contents (Elt F)),
    binary main_v16 main_v17 main_v18 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_3 (constant S_ .f32 0x3DCCCCCD#32),
    unary main_cst_3 main_v19 (broadcastInDim S8192x8192 ![] bcast_S_S8192x8192 : (⟨S_, .f32⟩ : BufTy).Contents (Elt F) → (⟨S8192x8192, .f32⟩ : BufTy).Contents (Elt F)),
    binary main_v18 main_v19 main_v20 (Host.divf : (⟨S8192x8192, .f32⟩ : BufTy).Contents (Elt F) → (⟨S8192x8192, .f32⟩ : BufTy).Contents (Elt F) → (⟨S8192x8192, .f32⟩ : BufTy).Contents (Elt F)),
    unary main_v20 main_v21 (Host.exp : (⟨S8192x8192, .f32⟩ : BufTy).Contents (Elt F) → (⟨S8192x8192, .f32⟩ : BufTy).Contents (Elt F)),
    nullary main_v22 (iotaInDim S8192 32 0),
    nullary main_c (constantI S_ 32 4096#32),
    unary main_c main_v23 (broadcastInDim S8192 ![] bcast_S_S8192 : (⟨S_, .i32⟩ : BufTy).Contents (Elt F) → (⟨S8192, .i32⟩ : BufTy).Contents (Elt F)),
    binary main_v22 main_v23 main_v24 (addi : (⟨S8192, .i32⟩ : BufTy).Contents (Elt F) → (⟨S8192, .i32⟩ : BufTy).Contents (Elt F) → (⟨S8192, .i32⟩ : BufTy).Contents (Elt F)),
    nullary main_c_4 (constantI S_ 32 8192#32),
    TRef.unary (.of main_c_4 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8192 ![] bcast_S_S8192),
    TRef.binary (.of main_v24 : TRef sig ⟨S8192, .i32⟩) main_call0.v3 main_call0.v4 Host.remsi,
    TRef.nullary main_call0.c_1 (constantI S_ 32 0#32),
    TRef.unary main_call0.c_1 main_call0.v5 (broadcastInDim S8192 ![] bcast_S_S8192),
    TRef.binary main_call0.v4 main_call0.v5 main_call0.v6 (cmpi .ne),
    TRef.nullary main_call0.c_2 (constantI S_ 32 0#32),
    TRef.unary main_call0.c_2 main_call0.v7 (broadcastInDim S8192 ![] bcast_S_S8192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8192 ![] bcast_S_S8192),
    TRef.binary main_call0.v8 main_call0.v10 main_call0.v11 (cmpi .ne),
    TRef.binary main_call0.v11 main_call0.v6 main_call0.v12 andi,
    TRef.unary main_call0.call0.v0 main_call0.v13 (broadcastInDim S8192 ![] bcast_S_S8192),
    TRef.binary main_call0.v4 main_call0.v13 main_call0.v14 addi,
    TRef.ternary main_call0.v12 main_call0.v14 main_call0.v4 main_call0.v15 select,
    nullary main_c_5 (constantI S_ 32 0#32),
    unary main_c_5 main_v26 (broadcastInDim S8192 ![] bcast_S_S8192 : (⟨S_, .i32⟩ : BufTy).Contents (Elt F) → (⟨S8192, .i32⟩ : BufTy).Contents (Elt F)),
    binary main_v22 main_v26 main_v27 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v28 (broadcastInDim S8192 ![] bcast_S_S8192 : (⟨S_, .i32⟩ : BufTy).Contents (Elt F) → (⟨S8192, .i32⟩ : BufTy).Contents (Elt F)),
    binary main_v22 main_v28 main_v29 (addi : (⟨S8192, .i32⟩ : BufTy).Contents (Elt F) → (⟨S8192, .i32⟩ : BufTy).Contents (Elt F) → (⟨S8192, .i32⟩ : BufTy).Contents (Elt F)),
    ternary main_v27 main_v29 main_v22 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_7 (constantI S_ 32 0#32),
    unary main_c_7 main_v31 (broadcastInDim S8192 ![] bcast_S_S8192 : (⟨S_, .i32⟩ : BufTy).Contents (Elt F) → (⟨S8192, .i32⟩ : BufTy).Contents (Elt F)),
    binary main_v25 main_v31 main_v32 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v33 (broadcastInDim S8192 ![] bcast_S_S8192 : (⟨S_, .i32⟩ : BufTy).Contents (Elt F) → (⟨S8192, .i32⟩ : BufTy).Contents (Elt F)),
    binary main_v25 main_v33 main_v34 (addi : (⟨S8192, .i32⟩ : BufTy).Contents (Elt F) → (⟨S8192, .i32⟩ : BufTy).Contents (Elt F) → (⟨S8192, .i32⟩ : BufTy).Contents (Elt F)),
    ternary main_v32 main_v34 main_v25 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v30 main_v36 (broadcastInDim S8192x1 ![0] bcast_S8192_S8192x1_0 : (⟨S8192, .i32⟩ : BufTy).Contents (Elt F) → (⟨S8192x1, .i32⟩ : BufTy).Contents (Elt F)),
    unary main_v35 main_v37 (broadcastInDim S8192x1 ![0] bcast_S8192_S8192x1_0 : (⟨S8192, .i32⟩ : BufTy).Contents (Elt F) → (⟨S8192x1, .i32⟩ : BufTy).Contents (Elt F)),
    binary main_v36 main_v37 main_v38 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v21 main_v38 main_v39 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_9 (constant S_ .f32 0x00000000#32),
    binary main_v21 main_cst_9 main_v40 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v40 main_v39 main_v41 (subf : (⟨S8192, .f32⟩ : BufTy).Contents (Elt F) → (⟨S8192, .f32⟩ : BufTy).Contents (Elt F) → (⟨S8192, .f32⟩ : BufTy).Contents (Elt F)),
    binary main_v39 main_v41 main_v42 (Host.divf : (⟨S8192, .f32⟩ : BufTy).Contents (Elt F) → (⟨S8192, .f32⟩ : BufTy).Contents (Elt F) → (⟨S8192, .f32⟩ : BufTy).Contents (Elt F)),
    unary main_v42 main_v43 (Host.log : (⟨S8192, .f32⟩ : BufTy).Contents (Elt F) → (⟨S8192, .f32⟩ : BufTy).Contents (Elt F)),
    unary main_v43 main_v44 (Host.negf : (⟨S8192, .f32⟩ : BufTy).Contents (Elt F) → (⟨S8192, .f32⟩ : BufTy).Contents (Elt F)),
    reshape main_v44 main_v45 rfl shapeCasts_S8192_S2x4096,
    nullary main_cst_10 (constant S_ .f32 0x00000000#32),
    binary main_v45 main_cst_10 main_v46 ((fun x v => Host.reduceAdd x v reducesTo_S2x4096_S4096_d0 h_S_) : (⟨S2x4096, .f32⟩ : BufTy).Contents (Elt F) → (⟨S_, .f32⟩ : BufTy).Contents (Elt F) → (⟨S4096, .f32⟩ : BufTy).Contents (Elt F)),
    nullary main_cst_11 (constant S_ .f32 0x46000000#32),
    unary main_cst_11 main_v47 (broadcastInDim S4096 ![] bcast_S_S4096 : (⟨S_, .f32⟩ : BufTy).Contents (Elt F) → (⟨S4096, .f32⟩ : BufTy).Contents (Elt F)),
    binary main_v46 main_v47 main_v48 (Host.divf : (⟨S4096, .f32⟩ : BufTy).Contents (Elt F) → (⟨S4096, .f32⟩ : BufTy).Contents (Elt F) → (⟨S4096, .f32⟩ : BufTy).Contents (Elt F)),
    nullary main_cst_12 (constant S_ .f32 0x00000000#32),
    binary main_v48 main_cst_12 main_v49 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_13 (constant S_ .f32 0x45800000#32),
    binary main_v49 main_cst_13 main_v50 (Host.divf : (⟨S_, .f32⟩ : BufTy).Contents (Elt F) → (⟨S_, .f32⟩ : BufTy).Contents (Elt F) → (⟨S_, .f32⟩ : BufTy).Contents (Elt F)) ]

-- eighty-seven binds re-associated: the rewrite under the chain recurses once per statement
set_option maxRecDepth 4096 in
set_option maxHeartbeats 4000000 in
/-- @main is that straight line: the two windows and the two functions unfolded, both sides are one chain of
    `hlo` steps once sequencing is re-associated. -/
theorem main_eq (c : Dev nD) : main (F := F) c = seq ops := by
  simp only [main, main_part0, main_part1, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., binary_bufs_sub .., nullary_bufs_sub ..,
    unary_bufs_sub .., binary_bufs_sub .., unary_bufs_sub .., nullary_bufs_sub .., nullary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    binary_bufs_sub .., binary_bufs_sub .., binary_bufs_sub .., unary_bufs_sub .., unary_bufs_sub .., reshape_bufs_sub ..,
    nullary_bufs_sub .., binary_bufs_sub .., nullary_bufs_sub .., unary_bufs_sub .., binary_bufs_sub .., nullary_bufs_sub ..,
    binary_bufs_sub .., nullary_bufs_sub .., binary_bufs_sub ..⟩

end Line

/-! ## The result as one pure term

The stages below are the operations composed, each named after what it computes; all at the ideal instance. -/

/-- The row norms of `x`, floored: `max (sqrt (0 + Σ_k x(p,k)²)) eps` as a column `[4096,1]`. -/
def rowNorm (x : FVec Ideal S4096x512 .f32) : FVec Ideal S4096x1 .f32 :=
  maximumf
    (Host.sqrt (F := Ideal) (broadcastInDim S4096x1 ![0] bcast_S4096_S4096x1_0
      (Host.reduceAdd (F := Ideal) (mulf x x) (constant (F := Ideal) S_ .f32 0x00000000#32) reducesTo_S4096x512_S4096_d1 h_S_)))
    (broadcastInDim S4096x1 ![] bcast_S_S4096x1 (constant (F := Ideal) S_ .f32 0x2B8CBCCC#32))

/-- `x` with each row divided by its floored norm. -/
def normalize (x : FVec Ideal S4096x512 .f32) : FVec Ideal S4096x512 .f32 :=
  Host.divf (F := Ideal) x (broadcastInDim S4096x512 ![0, 1] bcast_S4096x1_S4096x512_0_1 (rowNorm x))

/-- The two normalised arrays stacked along the rows: `z : [8192,512]`. -/
def stacked (a0 a1 : FVec Ideal S4096x512 .f32) : FVec Ideal S8192x512 .f32 :=
  concatenate S8192x512 0 [⟨S4096x512, normalize a0⟩, ⟨S4096x512, normalize a1⟩] concatenates_S4096x512_S4096x512_S8192x512_d0

/-- The similarity matrix `exp ((z · zᵀ) / D)`. -/
def simMatrix (a0 a1 : FVec Ideal S4096x512 .f32) : FVec Ideal S8192x8192 .f32 :=
  Host.exp (F := Ideal)
    (Host.divf (F := Ideal)
      (Host.dotGeneral (F := Ideal) dot_S8192x512_S512x8192_S8192x8192_1_0_0_1_n_n none (stacked a0 a1)
        (transpose S512x8192 [1, 0] (stacked a0 a1) transposes_S8192x512_S512x8192_1_0))
      (broadcastInDim S8192x8192 ![] bcast_S_S8192x8192 (constant (F := Ideal) S_ .f32 0x3DCCCCCD#32)))

/-- The row numbers `0 … 8191` as 32-bit words. -/
def rowIota : IVec S8192 32 := iotaInDim S8192 32 0

/-- A scalar word broadcast over the 8192 rows. -/
def splat (c : IVec S_ 32) : IVec S8192 32 := broadcastInDim S8192 ![] bcast_S_S8192 c

/-- The divisor `remainder` divides by: its second argument `8192`, replaced by `1` were it `0`. -/
def modulus : IVec S_ 32 :=
  select (cmpi .eq (constantI S_ 32 8192#32) (constantI S_ 32 0#32)) (constantI S_ 32 1#32) (constantI S_ 32 8192#32)

/-- The truncated remainder of `row + 4096` by the divisor. -/
def truncRem : IVec S8192 32 :=
  Host.remsi (addi rowIota (splat (constantI S_ 32 4096#32))) (splat modulus)

/-- `remainder (row + 4096) 8192` with the divisor's sign: the truncated remainder, plus the divisor where the
    remainder is non-zero and of the other sign. -/
def partnerRow : IVec S8192 32 :=
  select
    (andi
      (cmpi .ne (cmpi .slt truncRem (splat (constantI S_ 32 0#32)))
        (broadcastInDim S8192 ![] bcast_S_S8192 (cmpi .slt modulus (constantI S_ 32 0#32))))
      (cmpi .ne truncRem (splat (constantI S_ 32 0#32))))
    (addi truncRem (splat modulus))
    truncRem

/-- A negative index wrapped once by `8192`: `v + 8192` where `v < 0`, else `v`. -/
def wrapNeg (v : IVec S8192 32) : IVec S8192 32 :=
  select (cmpi .slt v (splat (constantI S_ 32 0#32))) (addi v (splat (constantI S_ 32 8192#32))) v

/-- The gather's start indices `[8192,2]`: row `r` holds `(r, partner r)`. -/
def startIndices : IVec S8192x2 32 :=
  concatenate S8192x2 1
    [⟨S8192x1, broadcastInDim S8192x1 ![0] bcast_S8192_S8192x1_0 (wrapNeg rowIota)⟩,
     ⟨S8192x1, broadcastInDim S8192x1 ![0] bcast_S8192_S8192x1_0 (wrapNeg partnerRow)⟩]
    concatenates_S8192x1_S8192x1_S8192x2_d1

/-- The positive pair's similarity per row: the matrix gathered at the start indices. -/
def positive (a0 a1 : FVec Ideal S4096x512 .f32) : FVec Ideal S8192 .f32 :=
  Host.gather gather_S8192x8192_S8192x2_S8192_n_01_n_n_01_1_11 (simMatrix a0 a1) startIndices

/-- The row sums of the matrix less the positive entry. -/
def negative (a0 a1 : FVec Ideal S4096x512 .f32) : FVec Ideal S8192 .f32 :=
  subf
    (Host.reduceAdd (F := Ideal) (simMatrix a0 a1) (constant (F := Ideal) S_ .f32 0x00000000#32) reducesTo_S8192x8192_S8192_d1 h_S_)
    (positive a0 a1)

/-- The per-row loss `-log (positive / negative)`. -/
def rowLoss (a0 a1 : FVec Ideal S4096x512 .f32) : FVec Ideal S8192 .f32 :=
  Host.negf (F := Ideal) (Host.log (F := Ideal) (Host.divf (F := Ideal) (positive a0 a1) (negative a0 a1)))

/-- The reference's result: the row losses as `[2,4096]`, summed over the first axis, divided by `8192`,
    summed, divided by `4096`. -/
def result (a0 a1 : FVec Ideal S4096x512 .f32) : FVec Ideal S_ .f32 :=
  Host.divf (F := Ideal)
    (Host.reduceAdd (F := Ideal)
      (Host.divf (F := Ideal)
        (Host.reduceAdd (F := Ideal) (shapeCast S2x4096 (rowLoss a0 a1) shapeCasts_S8192_S2x4096)
          (constant (F := Ideal) S_ .f32 0x00000000#32) reducesTo_S2x4096_S4096_d0 h_S_)
        (broadcastInDim S4096 ![] bcast_S_S4096 (constant (F := Ideal) S_ .f32 0x46000000#32)))
      (constant (F := Ideal) S_ .f32 0x00000000#32) reducesTo_S4096_S_d0 h_S_)
    (constant (F := Ideal) S_ .f32 0x45800000#32)

/-! ## The run -/

attribute [local irreducible] Host.reduceAdd Host.gather Host.remsi concatenate transpose broadcastInDim shapeCast in
set_option maxRecDepth 16384 in
set_option maxHeartbeats 4000000 in
/-- What the line leaves in the result buffer, from any contents `V`: `result` of the two arguments' contents.
    The fold is unrolled, each operation's result read at its own buffer and passed over at every other; what
    is left is the operations composed, which is `result` with its stages unfolded (the typed references'
    casts being the identity at these literal buffers). -/
theorem out_eq (V : Valuation τ sig (Elt Ideal)) :
    after (ops (F := Ideal)) V (main_v50 : DevRef τ sig)
      = result (V (main_arg0 : DevRef τ sig)) (V (main_arg1 : DevRef τ sig)) := by
  after_results_simp
  rfl

set_option maxHeartbeats 4000000 in
theorem arg0_eq (V : Valuation τ sig (Elt Ideal)) :
    after (ops (F := Ideal)) V (main_arg0 : DevRef τ sig) = V (main_arg0 : DevRef τ sig) := by
  after_results_simp

set_option maxHeartbeats 4000000 in
theorem arg1_eq (V : Valuation τ sig (Elt Ideal)) :
    after (ops (F := Ideal)) V (main_arg1 : DevRef τ sig) = V (main_arg1 : DevRef τ sig) := by
  after_results_simp

/-- At the compiled mesh, from any memory with zero counters: every weakly fair execution of @main terminates
    with the result buffer at `result` of the arguments' launch contents, and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v50)
          = result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c => ⟨(h c main_v50).trans (out_eq _), (h c main_arg0).trans (arg0_eq _), (h c main_arg1).trans (arg1_eq _)⟩)
    (run_seq scopedRefs_eq scopedSems_eq defs main (fun _ => ops) main_eq (fun _ => ops_sub) m g)

/-- The reference runs and leaves its arguments as they were. -/
theorem frame : Cert.frame_ReferenceIdeal := fun m ρ _ =>
  (θ_run Cert.ReferenceIdeal.defs _ _).mono (fun _ h c => (h c).2) (run m ρ)

end Cert.ReferenceIdeal.RefRun

end
-- ==== Proof.RefIdx.lean ====
/-
  The gather's start indices, and the gather, read at a row. Row `r` of the `[8192,2]` index array holds the
  words of `r` and of `(r + 4096) mod 8192`: the second column is computed on 32-bit integers as the signed
  remainder of `r + 4096` by `8192` with the divisor's sign, and for `0 ≤ r < 8192` every sign repair and every
  wrap of a negative index is the identity. The gather of single matrix elements at such a pair reads the
  matrix at `(r, (r + 4096) mod 8192)`: both start indices are inside the matrix, so the clamp is the identity too.
-/
import proofs.«144959_j9036611191122_2_alg».proof.Proof.RefRun
import Idealize.ShloMosaic.Lib.Pipeline.Value
import Idealize.ShloMosaic.Lib.ValueLayout

noncomputable section

namespace Cert.ReferenceIdeal.RefIdx

open Cert.ReferenceIdeal Cert.ReferenceIdeal.Gen Cert.ReferenceIdeal.RefRun Idealize.ShloMosaic Idealize.ShloMosaic.ValueIdx

/-! ## Words: the facts about 32-bit integers the start indices need -/

/-- A natural number below `2^31` is a non-negative word. -/
theorem msb_small (n : Nat) (hn : n < 2 ^ 31) : (BitVec.ofNat 32 n).msb = false := by
  rw [BitVec.msb_eq_false_iff_two_mul_lt, BitVec.toNat_ofNat]; omega

/-- Such a word is not below zero. -/
theorem slt_zero_small (n : Nat) (hn : n < 2 ^ 31) : IntOp.cmpi .slt (BitVec.ofNat 32 n) 0#32 = 0#1 := by
  show BitVec.ofBool ((BitVec.ofNat 32 n).slt 0#32) = 0#1
  rw [BitVec.slt_zero_eq_msb, msb_small n hn]; rfl

/-- Its signed remainder by `8192` is the natural remainder. -/
theorem srem_small (n : Nat) (hn : n < 2 ^ 31) : (BitVec.ofNat 32 n).srem 8192#32 = BitVec.ofNat 32 (n % 8192) := by
  rw [BitVec.srem_eq, msb_small n hn, show (8192#32 : BitVec 32).msb = false from by decide]
  apply BitVec.eq_of_toNat_eq
  show (BitVec.ofNat 32 n % 8192#32).toNat = _
  rw [BitVec.toNat_umod, BitVec.toNat_ofNat, BitVec.toNat_ofNat, BitVec.toNat_ofNat]
  simp only [Nat.reducePow, Nat.reduceMod]
  omega

/-- Dividing by `8192` meets no corner of signed division. -/
theorem remsi_8192 (x : BitVec 32) : IntOp.remsi .host x 8192#32 = x.srem 8192#32 := by
  unfold IntOp.remsi
  rw [if_neg]
  intro h
  rcases h with h | ⟨_, h⟩ <;> exact absurd h (by decide)

/-- The remainder `remainder (n + 4096) 8192` takes for a row number `n`: no sign repair applies. -/
theorem partner_word (n : Nat) (hn : n < 8192) (M : BitVec 32) (hM : M = 8192#32) :
    Scalar.select
        (IntOp.andi
          (IntOp.cmpi .ne (IntOp.cmpi .slt (IntOp.remsi .host (IntOp.addi (BitVec.ofNat 32 n) 4096#32) M) 0#32) (IntOp.cmpi .slt M 0#32))
          (IntOp.cmpi .ne (IntOp.remsi .host (IntOp.addi (BitVec.ofNat 32 n) 4096#32) M) 0#32))
        (IntOp.addi (IntOp.remsi .host (IntOp.addi (BitVec.ofNat 32 n) 4096#32) M) M)
        (IntOp.remsi .host (IntOp.addi (BitVec.ofNat 32 n) 4096#32) M)
      = BitVec.ofNat 32 ((n + 4096) % 8192) := by
  subst hM
  have hadd : IntOp.addi (BitVec.ofNat 32 n) 4096#32 = BitVec.ofNat 32 (n + 4096) := BitVec.ofNat_add_ofNat n 4096
  have hrem : IntOp.remsi .host (IntOp.addi (BitVec.ofNat 32 n) 4096#32) 8192#32 = BitVec.ofNat 32 ((n + 4096) % 8192) := by
    rw [hadd, remsi_8192, srem_small (n + 4096) (by omega)]
  rw [hrem, slt_zero_small ((n + 4096) % 8192) (by omega)]
  have h1 : IntOp.cmpi .slt (8192#32 : BitVec 32) 0#32 = 0#1 := by decide
  have h2 : IntOp.cmpi .ne (0#1 : BitVec 1) 0#1 = 0#1 := by decide
  rw [h1, h2]
  have h3 : ∀ b : BitVec 1, IntOp.andi (0#1 : BitVec 1) b = 0#1 := by decide
  rw [h3, select_zero]

/-- A non-negative word is left as it is by the wrap of negative indices. -/
theorem wrap_word (n : Nat) (hn : n < 2 ^ 31) (a : BitVec 32) :
    Scalar.select (IntOp.cmpi .slt (BitVec.ofNat 32 n) 0#32) a (BitVec.ofNat 32 n) = BitVec.ofNat 32 n := by
  rw [slt_zero_small n hn, select_zero]

/-! ## The start indices read at a row -/

theorem splat_apply (c : IVec S_ 32) (j : S8192.Idx) : splat c j = c ix0 := by
  unfold splat
  exact broadcastInDim_apply (s := S_) ![] bcast_S_S8192 c j ix0 (fun a => a.elim0)

/-- The divisor is `8192`: it is not zero. -/
theorem modulus_apply (i : S_.Idx) : modulus i = 8192#32 := by
  show Scalar.select (IntOp.cmpi .eq (8192#32 : BitVec 32) 0#32) 1#32 8192#32 = 8192#32
  decide

theorem rowIota_apply (r : Fin 8192) : rowIota (ix1 r) = BitVec.ofNat 32 r.val := rfl

/-- Row `r`'s partner as a word: `(r + 4096) mod 8192`. -/
theorem partnerRow_apply (r : Fin 8192) : partnerRow (ix1 r) = BitVec.ofNat 32 ((r.val + 4096) % 8192) := by
  have hM : splat modulus (ix1 r) = 8192#32 := (splat_apply _ _).trans (modulus_apply _)
  exact partner_word r.val r.isLt (splat modulus (ix1 r)) hM

theorem wrapNeg_apply (v : IVec S8192 32) (r : Fin 8192) (n : Nat) (hn : n < 2 ^ 31) (hv : v (ix1 r) = BitVec.ofNat 32 n) :
    wrapNeg v (ix1 r) = BitVec.ofNat 32 n := by
  show Scalar.select (IntOp.cmpi .slt (v (ix1 r)) 0#32) _ (v (ix1 r)) = _
  rw [hv]; exact wrap_word n hn _

/-- Column 0 of the start indices: the row's own number. -/
theorem startIndices_apply0 (r : Fin 8192) : startIndices (ix2 r 0) = BitVec.ofNat 32 r.val := by
  unfold startIndices
  rw [concatenate_pair_apply_left (t := S8192x2) (s₁ := S8192x1) (s₂ := S8192x1) (1 : Fin 2) _ _
      concatenates_S8192x1_S8192x1_S8192x2_d1 (ix2 r 0) rfl (ix2 r 0)
      (fun b => match b with | ⟨0, _⟩ => rfl | ⟨1, _⟩ => rfl),
    broadcastInDim_apply (s := S8192) ![0] bcast_S8192_S8192x1_0 _ (ix2 r 0) (ix1 r) (fun a => match a with | ⟨0, _⟩ => rfl)]
  exact wrapNeg_apply rowIota r r.val (by have := r.isLt; omega) rfl

/-- Column 1 of the start indices: the partner's number. -/
theorem startIndices_apply1 (r : Fin 8192) : startIndices (ix2 r 1) = BitVec.ofNat 32 ((r.val + 4096) % 8192) := by
  unfold startIndices
  rw [concatenate_pair_apply_right (t := S8192x2) (s₁ := S8192x1) (s₂ := S8192x1) (1 : Fin 2) _ _
      concatenates_S8192x1_S8192x1_S8192x2_d1 (ix2 r 1) rfl rfl (ix2 r 0)
      (fun b hb => match b, hb with | ⟨0, _⟩, _ => rfl | ⟨1, _⟩, hb => absurd rfl hb) rfl,
    broadcastInDim_apply (s := S8192) ![0] bcast_S8192_S8192x1_0 _ (ix2 r 0) (ix1 r) (fun a => match a with | ⟨0, _⟩ => rfl)]
  exact wrapNeg_apply partnerRow r _ (by omega) (partnerRow_apply r)

/-- A small non-negative word read as a signed start index and clamped to the last row is itself. -/
theorem clamp_small (n : Nat) (hn : n < 8192) : min (BitVec.ofNat 32 n).toInt.toNat 8191 = n := by
  rw [BitVec.toInt_eq_toNat_of_msb (msb_small n (by omega)), Int.toNat_natCast, BitVec.toNat_ofNat]
  simp only [Nat.reducePow]
  omega

/-! ## The gather -/

private abbrev G : GatherDims S8192x8192 S8192x2 S8192 := gather_S8192x8192_S8192x2_S8192_n_01_n_n_01_1_11

/-- The gather of single elements of a matrix at `[8192,2]` start indices, read at row `r`: the matrix at the
    two start indices of that row, each read signed and clamped into the matrix. -/
theorem gather_pair_apply {α : Type} (x : S8192x8192.Idx → α) (idx : IVec S8192x2 32) (r p q : Fin 8192)
    (hp : min (idx (ix2 r 0)).toInt.toNat 8191 = p.val) (hq : min (idx (ix2 r 1)).toInt.toNat 8191 = q.val) :
    Host.gather gather_S8192x8192_S8192x2_S8192_n_01_n_n_01_1_11 x idx (ix1 r) = x (ix2 p q) := by
  unfold Host.gather
  refine congrArg x (funext fun a => ?_)
  rcases (by decide : ∀ a : Fin 2, a = 0 ∨ a = 1) a with rfl | rfl
  · refine Fin.ext ?_
    show G.start (ix1 r) idx 0 + G.batchCoord (ix1 r) 0 + G.offCoord (ix1 r) 0 = p.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ G.startIndexMap from by decide)]
    have hsi : G.siIdx (ix1 r) ⟨List.idxOf (0 : Fin 2) G.startIndexMap, List.idxOf_lt_length_iff.2 (by decide)⟩ = ix2 r 0 := by
      funext b; refine Fin.ext ?_
      match b with
      | ⟨0, _⟩ => rfl
      | ⟨1, _⟩ => rfl
    rw [hsi]
    exact hp
  · refine Fin.ext ?_
    show G.start (ix1 r) idx 1 + G.batchCoord (ix1 r) 1 + G.offCoord (ix1 r) 1 = q.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ G.startIndexMap from by decide)]
    have hsi : G.siIdx (ix1 r) ⟨List.idxOf (1 : Fin 2) G.startIndexMap, List.idxOf_lt_length_iff.2 (by decide)⟩ = ix2 r 1 := by
      funext b; refine Fin.ext ?_
      match b with
      | ⟨0, _⟩ => rfl
      | ⟨1, _⟩ => rfl
    rw [hsi]
    exact hq

end Cert.ReferenceIdeal.RefIdx

end
-- ==== Proof.RefRead.lean ====
/-
  The reference's result read down to formulas, stage by stage and index by index, with no use of finiteness:
  a row's floored norm, a normalised entry, the stacked rows, the similarity matrix `exp ((z_r · z_c) / D)`,
  the positive entry (the gather at `(r, (r + 4096) mod 8192)`), the negatives (the row sum less the positive),
  the row loss, and the mean over the two halves and the 4096 pairs. Each host sum reads as its initial value
  `0` plus the sum over the reduced axis, and the `0` is dropped (`0 + x = x` on the extended reals). The last
  theorem, `result_eq`, says the run's result is `Cert.Spec.Ref.loss` at its one index.
-/
import proofs.«144959_j9036611191122_2_alg».proof.Proof.RefRun
import proofs.«144959_j9036611191122_2_alg».proof.Proof.RefSpec
import proofs.«144959_j9036611191122_2_alg».proof.Proof.RefIdx
import Idealize.ShloMosaic.PureOps.Ideal.Laws
import Idealize.ShloMosaic.Lib.Pipeline.Value
import Idealize.ShloMosaic.Lib.ValueLayout
import Idealize.ShloMosaic.Lib.StackMember

noncomputable section

namespace Cert.ReferenceIdeal.RefRead

open Cert.ReferenceIdeal Cert.ReferenceIdeal.Gen Cert.ReferenceIdeal.RefRun Idealize.ShloMosaic Idealize.ShloMosaic.ValueIdx

/-- A scalar constant broadcast to any shape reads the constant's value everywhere. -/
theorem splat_const_apply {t : Shape} (dims : Fin S_.rank → Fin t.rank) (h : S_.BroadcastsInDim t dims) (w : BitVec 32) (j : t.Idx) :
    broadcastInDim t dims h (constant (F := Ideal) S_ .f32 w) j = Ideal.ofBits .f32 w := rfl

/-- The sum of squares of row `p`. -/
theorem rowSumSq_apply (x : FVec Ideal S4096x512 .f32) (p : Fin 4096) :
    Host.reduceAdd (F := Ideal) (mulf x x) (constant (F := Ideal) S_ .f32 0x00000000#32) reducesTo_S4096x512_S4096_d1 h_S_ (ix1 p)
      = ∑ k : Fin 512, x (ix2 p k) * x (ix2 p k) := by
  unfold Host.reduceAdd
  rw [Ideal.hostReduceAdd_def,
    Ideal.hostReduceAdd_single reducesTo_S4096x512_S4096_d1 (by decide : S4096x512.Reduces [1] S4096)]
  show Ideal.ofBits .f32 0x00000000#32 + _ = _
  rw [Ideal.ofBits_zero_f32, zero_add]
  show ∑ k : Fin 512, _ = _
  refine Finset.sum_congr rfl fun k _ => ?_
  have e : (by decide : S4096x512.Reduces [1] S4096).lift (ix1 p) k = ix2 p k := by
    funext a; apply Fin.ext
    match a with
    | ⟨0, _⟩ => rfl
    | ⟨1, _⟩ => rfl
  rw [e]; rfl

/-- The floored norm of row `p`, wherever on the unit axis it is read. -/
theorem rowNorm_apply (x : FVec Ideal S4096x512 .f32) (p : Fin 4096) (q : Fin 1) :
    rowNorm x (ix2 p q) = Spec.Ref.nrm x p := by
  unfold rowNorm Spec.Ref.nrm Spec.Ref.eps
  rw [maximumf_apply, splat_const_apply]
  show max (Ideal.sqrt (broadcastInDim (s := S4096) S4096x1 ![0] bcast_S4096_S4096x1_0 _ (ix2 p q))) _ = _
  rw [broadcastInDim_apply (s := S4096) ![0] bcast_S4096_S4096x1_0 _ (ix2 p q) (ix1 p)
    (fun a => match a with | ⟨0, _⟩ => rfl), rowSumSq_apply]

/-- A normalised row entry: the entry over the row's floored norm. -/
theorem normalize_apply (x : FVec Ideal S4096x512 .f32) (p : Fin 4096) (k : Fin 512) :
    RefRun.normalize x (ix2 p k) = Ideal.div (x (ix2 p k)) (Spec.Ref.nrm x p) := by
  unfold RefRun.normalize
  show Ideal.div (x (ix2 p k)) (broadcastInDim (s := S4096x1) S4096x512 ![0, 1] bcast_S4096x1_S4096x512_0_1 (rowNorm x) (ix2 p k)) = _
  rw [broadcastInDim_apply (s := S4096x1) ![0, 1] bcast_S4096x1_S4096x512_0_1 (rowNorm x) (ix2 p k) (ix2 p 0)
    (fun a => match a with | ⟨0, _⟩ => rfl | ⟨1, _⟩ => rfl), rowNorm_apply]

/-- The stacked array at row `r`: the first array's normalised row below 4096, the second's from there on. -/
theorem stacked_apply (a0 a1 : FVec Ideal S4096x512 .f32) (r : Fin 8192) (k : Fin 512) :
    stacked a0 a1 (ix2 r k) = Spec.Ref.zr a0 a1 r k := by
  unfold stacked Spec.Ref.zr
  by_cases h : r.val < 4096
  · rw [dif_pos h, concatenate_pair_apply_left (0 : Fin 2) (RefRun.normalize a0) (RefRun.normalize a1)
      concatenates_S4096x512_S4096x512_S8192x512_d0 (ix2 r k) rfl (ix2 ⟨r.val, h⟩ k)
      (fun b => match b with | ⟨0, _⟩ => rfl | ⟨1, _⟩ => rfl), normalize_apply]
  · rw [dif_neg h, concatenate_pair_apply_right (0 : Fin 2) (RefRun.normalize a0) (RefRun.normalize a1)
      concatenates_S4096x512_S4096x512_S8192x512_d0 (ix2 r k) rfl rfl (ix2 ⟨r.val - 4096, by omega⟩ k)
      (fun b hb => match b, hb with | ⟨0, _⟩, hb => absurd rfl hb | ⟨1, _⟩, _ => rfl)
      (by show (r.val - 4096) + 4096 = r.val; omega), normalize_apply]

/-- The matrix product of the stacked array with its transpose, at `(r, c)`. -/
theorem dot_apply (A : FVec Ideal S8192x512 .f32) (B : FVec Ideal S512x8192 .f32) (r c : Fin 8192) :
    Host.dotGeneral (F := Ideal) dot_S8192x512_S512x8192_S8192x8192_1_0_0_1_n_n none A B (ix2 r c)
      = ∑ k : Fin 512, A (ix2 r k) * B (ix2 k c) :=
  StackMember.dotGeneral_plain_apply (m := 8192) (n := 8192) (k := 512) none A B r c

/-- The similarity matrix at `(r, c)`. -/
theorem simMatrix_apply (a0 a1 : FVec Ideal S4096x512 .f32) (r c : Fin 8192) :
    simMatrix a0 a1 (ix2 r c) = Spec.Ref.sim a0 a1 r c := by
  unfold simMatrix Spec.Ref.sim Spec.Ref.dotz Spec.Ref.tau
  show Ideal.exp (Ideal.div (Host.dotGeneral (F := Ideal) dot_S8192x512_S512x8192_S8192x8192_1_0_0_1_n_n none _ _ (ix2 r c))
    (broadcastInDim (s := S_) S8192x8192 ![] bcast_S_S8192x8192 (constant (F := Ideal) S_ .f32 0x3DCCCCCD#32) (ix2 r c))) = _
  rw [splat_const_apply, dot_apply]
  refine congrArg (fun s => Ideal.exp (Ideal.div s _)) (Finset.sum_congr rfl fun k _ => ?_)
  rw [transpose_ix2_apply, stacked_apply, stacked_apply]

/-- The positive entry of row `r`: the matrix at column `(r + 4096) mod 8192`. -/
theorem positive_apply (a0 a1 : FVec Ideal S4096x512 .f32) (r : Fin 8192) :
    positive a0 a1 (ix1 r) = Spec.Ref.posR a0 a1 r := by
  unfold positive Spec.Ref.posR
  rw [RefIdx.gather_pair_apply (simMatrix a0 a1) startIndices r r (Spec.Ref.pos r)
      (by rw [RefIdx.startIndices_apply0]; exact RefIdx.clamp_small r.val r.isLt)
      (by rw [RefIdx.startIndices_apply1]; exact RefIdx.clamp_small _ (Nat.mod_lt _ (by decide))),
    simMatrix_apply]

/-- A row sum of a matrix. -/
theorem rowSum_apply (M : FVec Ideal S8192x8192 .f32) (r : Fin 8192) :
    Host.reduceAdd (F := Ideal) M (constant (F := Ideal) S_ .f32 0x00000000#32) reducesTo_S8192x8192_S8192_d1 h_S_ (ix1 r)
      = ∑ c : Fin 8192, M (ix2 r c) := by
  unfold Host.reduceAdd
  rw [Ideal.hostReduceAdd_def,
    Ideal.hostReduceAdd_single reducesTo_S8192x8192_S8192_d1 (by decide : S8192x8192.Reduces [1] S8192)]
  show Ideal.ofBits .f32 0x00000000#32 + _ = _
  rw [Ideal.ofBits_zero_f32, zero_add]
  show ∑ c : Fin 8192, _ = _
  refine Finset.sum_congr rfl fun c _ => ?_
  have e : (by decide : S8192x8192.Reduces [1] S8192).lift (ix1 r) c = ix2 r c := by
    funext a; apply Fin.ext
    match a with
    | ⟨0, _⟩ => rfl
    | ⟨1, _⟩ => rfl
  rw [e]

/-- The negatives of row `r`. -/
theorem negative_apply (a0 a1 : FVec Ideal S4096x512 .f32) (r : Fin 8192) :
    negative a0 a1 (ix1 r) = Spec.Ref.negR a0 a1 r := by
  unfold negative Spec.Ref.negR
  rw [subf_apply, rowSum_apply, positive_apply]
  exact congrArg (· - _) (Finset.sum_congr rfl fun c _ => simMatrix_apply a0 a1 r c)

/-- The loss of row `r`. -/
theorem rowLoss_apply (a0 a1 : FVec Ideal S4096x512 .f32) (r : Fin 8192) :
    RefRun.rowLoss a0 a1 (ix1 r) = Spec.Ref.rowLoss a0 a1 r := by
  unfold RefRun.rowLoss Spec.Ref.rowLoss
  show -(Ideal.log (Ideal.div (positive a0 a1 (ix1 r)) (negative a0 a1 (ix1 r)))) = _
  rw [positive_apply, negative_apply]

/-- The rows as two halves: entry `(h, b)` of the `[2,4096]` array is row `h · 4096 + b`. -/
theorem halves_apply (v : FVec Ideal S8192 .f32) (h : Fin 2) (b : Fin 4096) :
    shapeCast S2x4096 v shapeCasts_S8192_S2x4096 (ix2 h b) = v (ix1 (Spec.Ref.rowOf h b)) :=
  shapeCast_apply v shapeCasts_S8192_S2x4096 (ix2 h b) (ix1 (Spec.Ref.rowOf h b)) (by
    rw [Shape.rowMajor_val_one, Shape.rowMajor_val_two]; rfl)

/-- The sum of the two halves at `b`. -/
theorem pairSum_apply (w : FVec Ideal S2x4096 .f32) (b : Fin 4096) :
    Host.reduceAdd (F := Ideal) w (constant (F := Ideal) S_ .f32 0x00000000#32) reducesTo_S2x4096_S4096_d0 h_S_ (ix1 b)
      = ∑ h : Fin 2, w (ix2 h b) := by
  unfold Host.reduceAdd
  rw [Ideal.hostReduceAdd_def,
    Ideal.hostReduceAdd_single reducesTo_S2x4096_S4096_d0 (by decide : S2x4096.Reduces [0] S4096)]
  show Ideal.ofBits .f32 0x00000000#32 + _ = _
  rw [Ideal.ofBits_zero_f32, zero_add]
  show ∑ h : Fin 2, _ = _
  refine Finset.sum_congr rfl fun h _ => ?_
  have e : (by decide : S2x4096.Reduces [0] S4096).lift (ix1 b) h = ix2 h b := by
    funext a; apply Fin.ext
    match a with
    | ⟨0, _⟩ => rfl
    | ⟨1, _⟩ => rfl
  rw [e]

/-- The sum of a `[4096]` array into a scalar. -/
theorem total_apply (u : FVec Ideal S4096 .f32) (i : S_.Idx) :
    Host.reduceAdd (F := Ideal) u (constant (F := Ideal) S_ .f32 0x00000000#32) reducesTo_S4096_S_d0 h_S_ i
      = ∑ b : Fin 4096, u (ix1 b) := by
  unfold Host.reduceAdd
  rw [Ideal.hostReduceAdd_def, Ideal.hostReduceAdd_total reducesTo_S4096_S_d0 (fun b => b.elim0)]
  show Ideal.ofBits .f32 0x00000000#32 + _ = _
  rw [Ideal.ofBits_zero_f32, zero_add]
  exact Fintype.sum_equiv (⟨fun j => j 0, ix1, fun j => (eq_ix1 j).symm, fun _ => rfl⟩ : S4096.Idx ≃ Fin 4096) _ _
    (fun j => congrArg u (eq_ix1 j))

/-- THE REFERENCE'S RESULT, read down to the formula: at its one index it is `Spec.Ref.loss`. -/
theorem result_eq (a0 a1 : FVec Ideal S4096x512 .f32) : RefRun.result a0 a1 = fun _ => Spec.Ref.loss a0 a1 := by
  funext i
  unfold RefRun.result Spec.Ref.loss
  show Ideal.div (Host.reduceAdd (F := Ideal) _ (constant (F := Ideal) S_ .f32 0x00000000#32) reducesTo_S4096_S_d0 h_S_ i)
    (Ideal.ofBits .f32 0x45800000#32) = _
  rw [total_apply]
  refine congrArg (fun s => Ideal.div s _) (Finset.sum_congr rfl fun b _ => ?_)
  show Ideal.div (Host.reduceAdd (F := Ideal) _ (constant (F := Ideal) S_ .f32 0x00000000#32) reducesTo_S2x4096_S4096_d0 h_S_ (ix1 b))
    (broadcastInDim (s := S_) S4096 ![] bcast_S_S4096 (constant (F := Ideal) S_ .f32 0x46000000#32) (ix1 b)) = _
  rw [splat_const_apply, pairSum_apply]
  refine congrArg (fun s => Ideal.div s _) (Finset.sum_congr rfl fun h _ => ?_)
  rw [halves_apply, rowLoss_apply]

end Cert.ReferenceIdeal.RefRead

end
-- ==== Proof.ClaimParts.lean ====
/-
  Three parts of the certificate's claim that need no run of the kernel: the idealized kernel is the kernel's
  sanctioned idealization (its one named constant, the reciprocal of the temperature, has the value the table
  gives it); the reference runs and leaves its arguments as they were; and the reference's result is the
  reference's loss formula of its two argument arrays.
-/
import proofs.«144959_j9036611191122_2_alg».proof.Defs
import proofs.«144959_j9036611191122_2_alg».proof.Proof.RefRead
import Idealize.ShloMosaic.PureOps.IdealRules
import proofs.«144959_j9036611191122_2_alg».proof.Proof.Gen.Kernel
import proofs.«144959_j9036611191122_2_alg».proof.Proof.Gen.KernelIdeal
import proofs.«144959_j9036611191122_2_alg».proof.Proof.Gen.ReferenceIdeal
import proofs.«144959_j9036611191122_2_alg».proof.Proof.Gen.Pre_finite_inputs

noncomputable section

namespace Cert.Proof.Parts

open Idealize.ShloMosaic Idealize.SL.Sem

/-- The ledger's four entries are one statement: the table gives `"inv_tau"` the value `134217728 / 13421773`,
    and the printed constant is that value at the ideal instance. -/
theorem preserves : Cert.preserves_Kernel_KernelIdeal :=
  have s := IdealRules.named_const.statement Cert.KernelIdeal.κ "inv_tau" .f32 0x41200000#32
    ((134217728 / 13421773 : ℝ) : EReal) rfl
  ⟨s, s, s, s⟩

/-- The reference runs and leaves its arguments as they were. -/
theorem frame_ref : Cert.frame_ReferenceIdeal (hReferenceIdeal := Cert.ReferenceIdeal.Gen.facts)
    (hPre_finite_inputs := Cert.Pre_finite_inputs.Gen.facts) :=
  Cert.ReferenceIdeal.RefRun.frame

/-- From any memory with zero counters, every weakly fair execution of the reference terminates with the result
    buffer at the reference's loss formula of the arguments' launch contents, and the arguments unchanged. -/
theorem ref_value
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v50)
          = (fun _ => Cert.Spec.Ref.loss
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans (Cert.ReferenceIdeal.RefRead.result_eq _ _), (h c).2⟩)
    (Cert.ReferenceIdeal.RefRun.run m' g')

end Cert.Proof.Parts

end
-- ==== Proof.lean ====
/-
  The five claims of this certificate.

  Both programs compute the NT-Xent loss of two arrays of 4096 rows of 512 entries. Rows are normalised by their
  Euclidean norm floored at eps and stacked into 8192 rows; the similarity of rows r and c is the exponential of their
  inner product divided by the temperature D, the f32 word nearest 0.1; row r's positive partner is row r + 4096
  mod 8192; its negatives are all the other columns of its row of the similarity matrix, the diagonal included; the loss
  is the mean over the 4096 pairs of the summed negated logarithms of positive over negatives, divided by 8192.

  The reference forms the whole 8192 by 8192 similarity matrix, gathers the positive column and subtracts it from the
  row sum. The kernel program multiplies by the reciprocal 1/D — the named constant of the idealized kernel — inside a
  Pallas region that accumulates, tile by tile, the row sums with the diagonal and the positive column left out, and
  adds the diagonal back on the host. Over the extended reals, for finite inputs, every similarity is a positive real,
  so taking the positive entry out of the whole sum and adding the diagonal to the sum of the others give the same
  number; a product with 1/D is the quotient by D; the order and the tiling of a sum do not matter; x times 1/n is x/n
  for a positive real n.

  The frames: each kernel program is the host operations before the region, the region and the host operations after
  it, run segment by segment; the region's body runs at every grid point by the symbolic executor, the accumulator's
  contents carried from point to point. The reference is a straight line of host operations.
-/
import proofs.«144959_j9036611191122_2_alg».proof.Defs
import proofs.«144959_j9036611191122_2_alg».proof.Proof.BArgs
import proofs.«144959_j9036611191122_2_alg».proof.Proof.KAlg
import proofs.«144959_j9036611191122_2_alg».proof.Proof.SpecEq
import proofs.«144959_j9036611191122_2_alg».proof.Proof.PreFinite
import proofs.«144959_j9036611191122_2_alg».proof.Proof.ClaimParts

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.KFrame.frame m ρ

/-- The idealized kernel program runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.KFrame.frame m ρ

/-- At the ideal instance, from memories agreeing on the two arguments, both programs end at the reference's loss
    formula of the arguments: the kernel program's formula equals it on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.Spec.Ref.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.KFrame.run_main (F := Ideal) m ρ)
    · refine (h c _ Cert.KernelIdeal.KFrame.mem_result).trans ((Cert.KernelIdeal.KFrame.result_loss m c).trans ?_)
      funext _
      exact Cert.SpecEq.loss_eq _ _ (Cert.Proof.PreFinite.finite_of_fn _ _ (hpre c)).1 (Cert.Proof.PreFinite.finite_of_fn _ _ (hpre c)).2
    · exact (h c _ Cert.KernelIdeal.KFrame.mem_arg0).trans (Cert.KernelIdeal.KFrame.Vfin_arg0 m c)
    · exact (h c _ Cert.KernelIdeal.KFrame.mem_arg1).trans (Cert.KernelIdeal.KFrame.Vfin_arg1 m c)
  · refine (θ_run Cert.ReferenceIdeal.defs _ _).mono (fun r h c => ⟨?_, (h c).2⟩) (Cert.Proof.Parts.ref_value m' ρ')
    rw [(h c).1, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.Parts.frame_ref, Cert.Proof.Parts.preserves, algebraic⟩

end Cert.Proof

end
